-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x1048576 : Shape := ⟨2, ![2, 1048576]⟩
abbrev S1048576x1 : Shape := ⟨2, ![1048576, 1]⟩
abbrev S16384x16384 : Shape := ⟨2, ![16384, 16384]⟩
abbrev S128x1 : Shape := ⟨2, ![128, 1]⟩
abbrev S1 : Shape := ⟨1, ![1]⟩
abbrev S1x1 : Shape := ⟨2, ![1, 1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  bcast_S_S16384x16384 : S_.BroadcastsInDim S16384x16384 (![] : Fin 0 → Fin S16384x16384.rank)
  reducesTo_S16384x16384_S_d0_1 : S16384x16384.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  bcast_S_S2x1048576 : S_.BroadcastsInDim S2x1048576 (![] : Fin 0 → Fin S2x1048576.rank)
  reducesTo_S2x1048576_S_d0_1 : S2x1048576.ReducesTo [0, 1] S_

variable [Facts]

def fn_part2 {F : FTy → Type} [FloatOps F] (main_arg1 : IVec S2x1048576 32) (main_v33 : IVec S_ 1) : IVec S_ 1 :=
  let main_c_12 : IVec S_ 32 := constantI S_ 32 0#32
  let main_v34 : IVec S2x1048576 32 := broadcastInDim S2x1048576 ![] bcast_S_S2x1048576 main_c_12
  let main_v35 : IVec S2x1048576 1 := cmpi .sge main_arg1 main_v34
  let main_c_13 : IVec S_ 32 := constantI S_ 32 16384#32
  let main_v36 : IVec S2x1048576 32 := broadcastInDim S2x1048576 ![] bcast_S_S2x1048576 main_c_13
  let main_v37 : IVec S2x1048576 1 := cmpi .slt main_arg1 main_v36
  let main_v38 : IVec S2x1048576 1 := andi main_v35 main_v37
  let main_c_14 : IVec S_ 1 := constantI S_ 1 1#1
  let main_v39 : IVec S_ 1 := (fun x v => Host.reduce IntOp.andi x v reducesTo_S2x1048576_S_d0_1 h_S_) main_v38 main_c_14
  let main_v40 : IVec S_ 1 := andi main_v33 main_v39
  main_v40

def fn_part1 {F : FTy → Type} [FloatOps F] (main_arg1 : IVec S2x1048576 32) (main_arg5 : FVec F S1 .f32) (main_arg6 : FVec F S1x1 .f32) (main_arg7 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg6
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S16384x128 .f32) (main_arg1 : IVec S2x1048576 32) (main_arg2 : FVec F S1048576x1 .f32) (main_arg3 : FVec F S16384x16384 .f32) (main_arg4 : FVec F S128x1 .f32) (main_arg5 : FVec F S1 .f32) (main_arg6 : FVec F S1x1 .f32) (main_arg7 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1048576x1 .f32 := Host.absf main_arg2
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  let main_v9 : FVec F S16384x16384 .f32 := Host.absf main_arg3
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_arg6 main_arg7 main_v13 main_v16
-- ==== Kernel.lean ====
abbrev S16384x128 : Shape := ⟨2, ![16384, 128]⟩
abbrev S2x1048576 : Shape := ⟨2, ![2, 1048576]⟩
abbrev S1048576x1 : Shape := ⟨2, ![1048576, 1]⟩
abbrev S16384x16384 : Shape := ⟨2, ![16384, 16384]⟩
abbrev S128x1 : Shape := ⟨2, ![128, 1]⟩
abbrev S1 : Shape := ⟨1, ![1]⟩
abbrev S1x1 : Shape := ⟨2, ![1, 1]⟩
abbrev S1x1048576 : Shape := ⟨2, ![1, 1048576]⟩
abbrev S1048576 : Shape := ⟨1, ![1048576]⟩
abbrev S16384 : Shape := ⟨1, ![16384]⟩
abbrev S1064960 : Shape := ⟨1, ![1064960]⟩
abbrev S_ : Shape := ⟨0, ![]⟩
abbrev S1064960x1 : Shape := ⟨2, ![1064960, 1]⟩
abbrev S1064960x2 : Shape := ⟨2, ![1064960, 2]⟩
abbrev S16384x1 : Shape := ⟨2, ![16384, 1]⟩
abbrev S1x16384 : Shape := ⟨2, ![1, 16384]⟩
abbrev S1x2048 : Shape := ⟨2, ![1, 2048]⟩
abbrev S2048x4096 : Shape := ⟨2, ![2048, 4096]⟩
abbrev S1x4096 : Shape := ⟨2, ![1, 4096]⟩

abbrev nBuf : Space → Nat
  | .hbm => 84
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S2x1048576, .i32⟩
  | .hbm, ⟨2, _⟩ => ⟨S1048576x1, .f32⟩
  | .hbm, ⟨3, _⟩ => ⟨S16384x16384, .f32⟩
  | .hbm, ⟨4, _⟩ => ⟨S128x1, .f32⟩
  | .hbm, ⟨5, _⟩ => ⟨S1, .f32⟩
  | .hbm, ⟨6, _⟩ => ⟨S1x1, .f32⟩
  | .hbm, ⟨7, _⟩ => ⟨S1, .f32⟩
  | .hbm, ⟨8, _⟩ => ⟨S1x1048576, .i32⟩
  | .hbm, ⟨9, _⟩ => ⟨S1048576, .i32⟩
  | .hbm, ⟨10, _⟩ => ⟨S1x1048576, .i32⟩
  | .hbm, ⟨11, _⟩ => ⟨S1048576, .i32⟩
  | .hbm, ⟨12, _⟩ => ⟨S1048576, .f32⟩
  | .hbm, ⟨13, _⟩ => ⟨S16384, .i32⟩
  | .hbm, ⟨14, _⟩ => ⟨S1064960, .i32⟩
  | .hbm, ⟨15, _⟩ => ⟨S1064960, .i32⟩
  | .hbm, ⟨16, _⟩ => ⟨S_, .f32⟩
  | .hbm, ⟨17, _⟩ => ⟨S16384, .f32⟩
  | .hbm, ⟨18, _⟩ => ⟨S1064960, .f32⟩
  | .hbm, ⟨19, _⟩ => ⟨S_, .f32⟩
  | .hbm, ⟨20, _⟩ => ⟨S16384, .f32⟩
  | .hbm, ⟨21, _⟩ => ⟨S1064960x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S1064960, .i32⟩
  | .hbm, ⟨33, _⟩ => ⟨S1064960, .i1⟩
  | .hbm, ⟨34, _⟩ => ⟨S_, .i32⟩
  | .hbm, ⟨35, _⟩ => ⟨S1064960, .i32⟩
  | .hbm, ⟨36, _⟩ => ⟨S1064960, .i32⟩
  | .hbm, ⟨37, _⟩ => ⟨S1064960, .i32⟩
  | .hbm, ⟨38, _⟩ => ⟨S1064960x1, .i32⟩
  | .hbm, ⟨39, _⟩ => ⟨S1064960, .f32⟩
  | .hbm, ⟨40, _⟩ => ⟨S1064960, .f32⟩
  | .hbm, ⟨41, _⟩ => ⟨S_, .i32⟩
  | .hbm, ⟨42, _⟩ => ⟨S1064960, .i32⟩
  | .hbm, ⟨43, _⟩ => ⟨S1064960, .i1⟩
  | .hbm, ⟨44, _⟩ => ⟨S_, .i32⟩
  | .hbm, ⟨45, _⟩ => ⟨S1064960, .i32⟩
  | .hbm, ⟨46, _⟩ => ⟨S1064960, .i32⟩
  | .hbm, ⟨47, _⟩ => ⟨S1064960, .i32⟩
  | .hbm, ⟨48, _⟩ => ⟨S1064960x1, .i32⟩
  | .hbm, ⟨49, _⟩ => ⟨S1064960, .f32⟩
  | .hbm, ⟨50, _⟩ => ⟨S1064960, .f32⟩
  | .hbm, ⟨51, _⟩ => ⟨S_, .f32⟩
  | .hbm, ⟨52, _⟩ => ⟨S16384x16384, .f32⟩
  | .hbm, ⟨53, _⟩ => ⟨S_, .i32⟩
  | .hbm, ⟨54, _⟩ => ⟨S1064960, .i32⟩
  | .hbm, ⟨55, _⟩ => ⟨S1064960, .i1⟩
  | .hbm, ⟨56, _⟩ => ⟨S_, .i32⟩
  | .hbm, ⟨57, _⟩ => ⟨S1064960, .i32⟩
  | .hbm, ⟨58, _⟩ => ⟨S1064960, .i32⟩
  | .hbm, ⟨59, _⟩ => ⟨S1064960, .i32⟩
  | .hbm, ⟨60, _⟩ => ⟨S_, .i32⟩
  | .hbm, ⟨61, _⟩ => ⟨S1064960, .i32⟩
  | .hbm, ⟨62, _⟩ => ⟨S1064960, .i1⟩
  | .hbm, ⟨63, _⟩ => ⟨S_, .i32⟩
  | .hbm, ⟨64, _⟩ => ⟨S1064960, .i32⟩
  | .hbm, ⟨65, _⟩ => ⟨S1064960, .i32⟩
  | .hbm, ⟨66, _⟩ => ⟨S1064960, .i32⟩
  | .hbm, ⟨67, _⟩ => ⟨S1064960x1, .i32⟩
  | .hbm, ⟨68, _⟩ => ⟨S1064960x1, .i32⟩
  | .hbm, ⟨69, _⟩ => ⟨S1064960x2, .i32⟩
  | .hbm, ⟨70, _⟩ => ⟨S16384x16384, .f32⟩
  | .hbm, ⟨71, _⟩ => ⟨S16384x16384, .bf16⟩
  | .hbm, ⟨72, _⟩ => ⟨S16384x1, .f32⟩
  | .hbm, ⟨73, _⟩ => ⟨S1x16384, .f32⟩
  | .hbm, ⟨74, _⟩ => ⟨S1x16384, .bf16⟩
  | .hbm, ⟨75, _⟩ => ⟨S1x1, .f32⟩
  | .hbm, ⟨76, _⟩ => ⟨S1x16384, .bf16⟩
  | .hbm, ⟨77, _⟩ => ⟨S1x1, .f32⟩
  | .hbm, ⟨78, _⟩ => ⟨S_, .f32⟩
  | .hbm, ⟨79, _⟩ => ⟨S1x1, .f32⟩
  | .hbm, ⟨80, _⟩ => ⟨S1x16384, .f32⟩
  | .hbm, ⟨81, _⟩ => ⟨S16384x1, .f32⟩
  | .hbm, ⟨82, _⟩ => ⟨S_, .f32⟩
  | .hbm, ⟨83, _⟩ => ⟨S1, .f32⟩
  | .local _ .vmem, ⟨0, _⟩ => ⟨S1x1, .f32⟩
  | .local _ .vmem, ⟨1, _⟩ => ⟨S1x1, .f32⟩
  | .local _ .vmem, ⟨2, _⟩ => ⟨S1x2048, .bf16⟩
  | .local _ .vmem, ⟨3, _⟩ => ⟨S1x2048, .bf16⟩
  | .local _ .vmem, ⟨4, _⟩ => ⟨S2048x4096, .bf16⟩
  | .local _ .vmem, ⟨5, _⟩ => ⟨S2048x4096, .bf16⟩
  | .local _ .vmem, ⟨6, _⟩ => ⟨S1x4096, .bf16⟩
  | .local _ .vmem, ⟨7, _⟩ => ⟨S1x4096, .bf16⟩
  | .local _ .vmem, ⟨8, _⟩ => ⟨S1x4096, .f32⟩
  | .local _ .vmem, ⟨9, _⟩ => ⟨S1x1, .f32⟩
  | .local _ .vmem, ⟨10, _⟩ => ⟨S1x1, .f32⟩
  | .local _ .vmem, ⟨11, _⟩ => ⟨S1x2048, .bf16⟩
  | .local _ .vmem, ⟨12, _⟩ => ⟨S1x2048, .bf16⟩
  | .local _ .vmem, ⟨13, _⟩ => ⟨S2048x4096, .bf16⟩
  | .local _ .vmem, ⟨14, _⟩ => ⟨S2048x4096, .bf16⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  shapeCasts_S1048576x1_S1048576 : S1048576x1.ShapeCasts S1048576
  concatenates_S1048576_S16384_S1064960_d0 : Shape.Concatenates [S1048576, S16384] S1064960 0
  bcast_S_S16384 : S_.BroadcastsInDim S16384 (![] : Fin 0 → Fin S16384.rank)
  bcast_S1064960_S1064960x1_0 : S1064960.BroadcastsInDim S1064960x1 (![0] : Fin 1 → Fin S1064960x1.rank)
  bcast_S_S1064960 : S_.BroadcastsInDim S1064960 (![] : Fin 0 → Fin S1064960.rank)
  bcast_S_S16384x16384 : S_.BroadcastsInDim S16384x16384 (![] : Fin 0 → Fin S16384x16384.rank)
  concatenates_S1064960x1_S1064960x1_S1064960x2_d1 : Shape.Concatenates [S1064960x1, S1064960x1] S1064960x2 1
  bitsLt_bf16_f32 : FTy.bits .bf16 < FTy.bits .f32
  shapeCasts_S16384x1_S1x16384 : S16384x1.ShapeCasts S1x16384
  shapeCasts_S1_S1x1 : S1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  packedbf16_S1x4096_S1x4096_0_0 : (Rect.unit (s := S1x4096) ![0, 0] S1x4096.size inb_S1x4096_S1x4096_0_0).PackedRows (EltTy.packing .bf16)
  bcast_S_S1x1 : S_.BroadcastsInDim S1x1 (![] : Fin 0 → Fin S1x1.rank)
  shapeCasts_S1x16384_S16384x1 : S1x16384.ShapeCasts S16384x1
  bcast_S_S1 : S_.BroadcastsInDim S1 (![] : Fin 0 → Fin S1.rank)
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  scatter_S16384x16384_S1064960x2_S1064960_n_01_01_1_wf : ScatterDims.WF S16384x16384 S1064960x2 S1064960 [] [0, 1] [0, 1] 1
  dot_S16384x128_S128x1_S16384x1_1_0_0_1_n_n_wf : DotDims.WF S16384x128 S128x1 S16384x1 [1] [0] [0] [1] [] []
  dot_S1x2048_S2048x4096_S1x4096_1_0_0_1_n_n_wf : DotDims.WF S1x2048 S2048x4096 S1x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .bf16 = 32 ∨ (Rect.block (s := S1x16384) S1x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S16384x16384.size a
  hwx0_3 : ∀ i : grid0.Coords, EltTy.bits .bf16 = 32 ∨ (Rect.block (s := S16384x16384) S2048x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x16384.size a
  hwx0_4 : ∀ i : grid0.Coords, EltTy.bits .bf16 = 32 ∨ (Rect.block (s := S1x16384) S1x4096.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .bf16 = 32 ∨ (Rect.block (s := S1x16384) S1x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x4096.size a ≤ S16384x16384.size a
  hwx1_3 : ∀ i : grid1.Coords, EltTy.bits .bf16 = 32 ∨ (Rect.block (s := S16384x16384) S2048x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x16384.size a
  hwx1_4 : ∀ i : grid1.Coords, EltTy.bits .f32 = 32 ∨ (Rect.block (s := S1x16384) S1x4096.size (cc1_transform_4 i) (hinb1_4 i)).WholeWords (EltTy.packing .f32)

variable [Facts₀]

def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def scatter_S16384x16384_S1064960x2_S1064960_n_01_01_1 : ScatterDims S16384x16384 S1064960x2 S1064960 where
  updateWindowDims := []
  insertedWindowDims := [0, 1]
  scatterDimsToOperandDims := [0, 1]
  indexVectorDim := 1
  wf := scatter_S16384x16384_S1064960x2_S1064960_n_01_01_1_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S1x2048_S2048x4096_S1x4096_1_0_0_1_n_n : DotDims S1x2048 S2048x4096 S1x4096 where
  lhsContracting := [1]
  rhsContracting := [0]
  lhsNonContracting := [0]
  rhsNonContracting := [1]
  lhsBatch := []
  rhsBatch := []
  wf := dot_S1x2048_S2048x4096_S1x4096_1_0_0_1_n_n_wf

abbrev win0_0 : Pipeline.Window sig grid0 :=
  Pipeline.Window.ofSpec (Memref.whole main_v52) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S2048x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v54) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2048x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S2x1048576 : Shape := ⟨2, ![2, 1048576]⟩
abbrev S1048576x1 : Shape := ⟨2, ![1048576, 1]⟩
abbrev S16384x16384 : Shape := ⟨2, ![16384, 16384]⟩
abbrev S128x1 : Shape := ⟨2, ![128, 1]⟩
abbrev S1 : Shape := ⟨1, ![1]⟩
abbrev S1x1 : Shape := ⟨2, ![1, 1]⟩
abbrev S1x1048576 : Shape := ⟨2, ![1, 1048576]⟩
abbrev S1048576 : Shape := ⟨1, ![1048576]⟩
abbrev S16384 : Shape := ⟨1, ![16384]⟩
abbrev S1064960 : Shape := ⟨1, ![1064960]⟩
abbrev S_ : Shape := ⟨0, ![]⟩
abbrev S1064960x1 : Shape := ⟨2, ![1064960, 1]⟩
abbrev S16384x1 : Shape := ⟨2, ![16384, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x1048576, .i32⟩
  | .hbm, ⟨2, _⟩ => ⟨S1048576x1, .f32⟩
  | .hbm, ⟨3, _⟩ => ⟨S16384x16384, .f32⟩
  | .hbm, ⟨4, _⟩ => ⟨S128x1, .f32⟩
  | .hbm, ⟨5, _⟩ => ⟨S1, .f32⟩
  | .hbm, ⟨6, _⟩ => ⟨S1x1, .f32⟩
  | .hbm, ⟨7, _⟩ => ⟨S1, .f32⟩
  | .hbm, ⟨8, _⟩ => ⟨S1x1048576, .i32⟩
  | .hbm, ⟨9, _⟩ => ⟨S1048576, .i32⟩
  | .hbm, ⟨10, _⟩ => ⟨S1x1048576, .i32⟩
  | .hbm, ⟨11, _⟩ => ⟨S1048576, .i32⟩
  | .hbm, ⟨12, _⟩ => ⟨S1048576, .f32⟩
  | .hbm, ⟨13, _⟩ => ⟨S16384, .i32⟩
  | .hbm, ⟨14, _⟩ => ⟨S1064960, .i32⟩
  | .hbm, ⟨15, _⟩ => ⟨S1064960, .i32⟩
  | .hbm, ⟨16, _⟩ => ⟨S_, .f32⟩
  | .hbm, ⟨17, _⟩ => ⟨S16384, .f32⟩
  | .hbm, ⟨18, _⟩ => ⟨S1064960, .f32⟩
  | .hbm, ⟨19, _⟩ => ⟨S_, .f32⟩
  | .hbm, ⟨20, _⟩ => ⟨S16384, .f32⟩
  | .hbm, ⟨21, _⟩ => ⟨S1064960x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .i32⟩
  | .hbm, ⟨32, _⟩ => ⟨S1064960, .i32⟩
  | .hbm, ⟨33, _⟩ => ⟨S1064960, .i1⟩
  | .hbm, ⟨34, _⟩ => ⟨S_, .i32⟩
  | .hbm, ⟨35, _⟩ => ⟨S1064960, .i32⟩
  | .hbm, ⟨36, _⟩ => ⟨S1064960, .i32⟩
  | .hbm, ⟨37, _⟩ => ⟨S1064960, .i32⟩
  | .hbm, ⟨38, _⟩ => ⟨S1064960x1, .i32⟩
  | .hbm, ⟨39, _⟩ => ⟨S1064960, .f32⟩
  | .hbm, ⟨40, _⟩ => ⟨S1064960, .f32⟩
  | .hbm, ⟨41, _⟩ => ⟨S_, .i32⟩
  | .hbm, ⟨42, _⟩ => ⟨S1064960, .i32⟩
  | .hbm, ⟨43, _⟩ => ⟨S1064960, .i1⟩
  | .hbm, ⟨44, _⟩ => ⟨S_, .i32⟩
  | .hbm, ⟨45, _⟩ => ⟨S1064960, .i32⟩
  | .hbm, ⟨46, _⟩ => ⟨S1064960, .i32⟩
  | .hbm, ⟨47, _⟩ => ⟨S1064960, .i32⟩
  | .hbm, ⟨48, _⟩ => ⟨S1064960x1, .i32⟩
  | .hbm, ⟨49, _⟩ => ⟨S1064960, .f32⟩
  | .hbm, ⟨50, _⟩ => ⟨S1064960, .f32⟩
  | .hbm, ⟨51, _⟩ => ⟨S16384x1, .f32⟩
  | .hbm, ⟨52, _⟩ => ⟨S_, .i32⟩
  | .hbm, ⟨53, _⟩ => ⟨S1064960, .i32⟩
  | .hbm, ⟨54, _⟩ => ⟨S1064960, .i1⟩
  | .hbm, ⟨55, _⟩ => ⟨S_, .i32⟩
  | .hbm, ⟨56, _⟩ => ⟨S1064960, .i32⟩
  | .hbm, ⟨57, _⟩ => ⟨S1064960, .i32⟩
  | .hbm, ⟨58, _⟩ => ⟨S1064960, .i32⟩
  | .hbm, ⟨59, _⟩ => ⟨S1064960x1, .i32⟩
  | .hbm, ⟨60, _⟩ => ⟨S1064960x1, .f32⟩
  | .hbm, ⟨61, _⟩ => ⟨S1064960x1, .f32⟩
  | .hbm, ⟨62, _⟩ => ⟨S1064960x1, .f32⟩
  | .hbm, ⟨63, _⟩ => ⟨S_, .f32⟩
  | .hbm, ⟨64, _⟩ => ⟨S16384x1, .f32⟩
  | .hbm, ⟨65, _⟩ => ⟨S1064960x1, .i32⟩
  | .hbm, ⟨66, _⟩ => ⟨S16384x1, .f32⟩
  | .hbm, ⟨67, _⟩ => ⟨S1x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S_, .i32⟩
  | .hbm, ⟨72, _⟩ => ⟨S1064960, .i32⟩
  | .hbm, ⟨73, _⟩ => ⟨S1064960, .i1⟩
  | .hbm, ⟨74, _⟩ => ⟨S_, .i32⟩
  | .hbm, ⟨75, _⟩ => ⟨S1064960, .i32⟩
  | .hbm, ⟨76, _⟩ => ⟨S1064960, .i32⟩
  | .hbm, ⟨77, _⟩ => ⟨S1064960, .i32⟩
  | .hbm, ⟨78, _⟩ => ⟨S1064960x1, .i32⟩
  | .hbm, ⟨79, _⟩ => ⟨S1064960x1, .f32⟩
  | .hbm, ⟨80, _⟩ => ⟨S1064960x1, .f32⟩
  | .hbm, ⟨81, _⟩ => ⟨S1064960x1, .f32⟩
  | .hbm, ⟨82, _⟩ => ⟨S_, .f32⟩
  | .hbm, ⟨83, _⟩ => ⟨S16384x1, .f32⟩
  | .hbm, ⟨84, _⟩ => ⟨S1064960x1, .i32⟩
  | .hbm, ⟨85, _⟩ => ⟨S16384x1, .f32⟩
  | .hbm, ⟨86, _⟩ => ⟨S1x1, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  shapeCasts_S1048576x1_S1048576 : S1048576x1.ShapeCasts S1048576
  concatenates_S1048576_S16384_S1064960_d0 : Shape.Concatenates [S1048576, S16384] S1064960 0
  bcast_S_S16384 : S_.BroadcastsInDim S16384 (![] : Fin 0 → Fin S16384.rank)
  bcast_S1064960_S1064960x1_0 : S1064960.BroadcastsInDim S1064960x1 (![0] : Fin 1 → Fin S1064960x1.rank)
  bcast_S_S1064960 : S_.BroadcastsInDim S1064960 (![] : Fin 0 → Fin S1064960.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S1 : S_.BroadcastsInDim S1 (![] : Fin 0 → Fin S1.rank)
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  dot_S16384x128_S128x1_S16384x1_1_0_0_1_n_n_wf : DotDims.WF S16384x128 S128x1 S16384x1 [1] [0] [0] [1] [] []
  gather_S16384x1_S1064960x1_S1064960x1_1_0_n_n_0_1_11_wf : GatherDims.WF S16384x1 S1064960x1 S1064960x1 [1] [0] [] [0] [] 1 ![1, 1]
  scatter_S16384x1_S1064960x1_S1064960x1_1_0_0_1_wf : ScatterDims.WF S16384x1 S1064960x1 S1064960x1 [1] [0] [0] 1
  dot_S16384x1_S1x1_S16384x1_1_0_0_1_n_n_wf : DotDims.WF S16384x1 S1x1 S16384x1 [1] [0] [0] [1] [] []

variable [Facts₀]

def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def gather_S16384x1_S1064960x1_S1064960x1_1_0_n_n_0_1_11 : GatherDims S16384x1 S1064960x1 S1064960x1 where
  offsetDims := [1]
  collapsedSliceDims := [0]
  operandBatchingDims := []
  startIndicesBatchingDims := []
  startIndexMap := [0]
  indexVectorDim := 1
  sliceSizes := ![1, 1]
  wf := gather_S16384x1_S1064960x1_S1064960x1_1_0_n_n_0_1_11_wf
def scatter_S16384x1_S1064960x1_S1064960x1_1_0_0_1 : ScatterDims S16384x1 S1064960x1 S1064960x1 where
  updateWindowDims := [1]
  insertedWindowDims := [0]
  scatterDimsToOperandDims := [0]
  indexVectorDim := 1
  wf := scatter_S16384x1_S1064960x1_S1064960x1_1_0_0_1_wf
def dot_S16384x1_S1x1_S16384x1_1_0_0_1_n_n : DotDims S16384x1 S1x1 S16384x1 where
  lhsContracting := [1]
  rhsContracting := [0]
  lhsNonContracting := [0]
  rhsNonContracting := [1]
  lhsBatch := []
  rhsBatch := []
  wf := dot_S16384x1_S1x1_S16384x1_1_0_0_1_n_n_wf

class Facts : Prop extends Facts₀ where

variable [Facts]
-- ==== Proof.Layer1Conds.lean ====
/- The two conditions the first layer's kernel body branches on, as functions of the grid position (i, k) of the
   4 × 8 grid: "k is the first reduction step" (the scratch row is zeroed) and "k is the last" (the scratch row, plus
   the bias, times the scale, is stored to the output block). -/
import proofs.«169360_j54606214201548_2_alg».proof.Proof.Gen.KernelIdeal.Launch
import proofs.«169360_j54606214201548_2_alg».proof.Proof.Gen.KernelIdeal.Skeleton
import proofs.«169360_j54606214201548_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first one: the body's first branch, from the grid coordinates. -/
abbrev isFirst (i : grid0.Coords) : Prop :=
  (Scalar.cmpi .ne (Scalar.extui (Scalar.cmpi .eq (BitVec.ofNat 32 (i 1).val) 0#32)) 0#32) = 1#1
/-- It holds exactly at the points whose position is 0 modulo 8 (the reduction axis is the inner one, of extent 8). -/
theorem isFirst_iff : ∀ t : Fin cfg0.N, isFirst (grid0.coords t) ↔ t.val % 8 = 0 :=
  (by decide +kernel : ∀ t : Fin grid0.N, isFirst (grid0.coords t) ↔ t.val % 8 = 0)

/-- The reduction step is the last one: the body's second branch. -/
abbrev isLast (i : grid0.Coords) : Prop := k0_cond2 i = 1#1
/-- It holds exactly at the points whose position is 7 modulo 8. -/
theorem isLast_iff : ∀ t : Fin cfg0.N, isLast (grid0.coords t) ↔ t.val % 8 = 7 :=
  (by decide +kernel : ∀ t : Fin grid0.N, isLast (grid0.coords t) ↔ t.val % 8 = 7)

end Cert.KernelIdeal.Layer1

end
-- ==== Proof.Layer1Mid.lean ====
/- A middle reduction step of the first layer's kernel body (neither branch taken): the scratch row, found at what the
   step before left, is read, the product of the 1 × 2048 slice of the vector with the 2048 × 4096 block of the matrix
   is added to it, and the sum is stored back over the whole row; the four input blocks and the output block are left
   as found. -/
import proofs.«169360_j54606214201548_2_alg».proof.Proof.Layer1Conds
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a middle step, with the run: on whole memrefs — the inputs at their
    contents, the output block at any contents handed back untouched, the scratch row at the contents the step before
    left — the body runs to a continuation holding the inputs and the output block as they were and the scratch row
    with those pieces written. -/
noncomputable def midRun (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : ¬isLast i)
    (x2 : Vec F S1x1 .f32) (x3 : Vec F S1x1 .f32) (x4 : Vec F S1x2048 .bf16) (x5 : Vec F S2048x4096 .bf16) (xs : Vec F S1x4096 .f32) :
    { LS : List (View.Piece (Elt F) S1x4096 .f32) //
      ∀ (xi : Vec F S1x4096 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__vecmat_kernel i arg2 harg2 arg3 harg3 arg4 harg4 arg5 harg5 arg6 harg6 arg7 harg7) K } := by
  refine ⟨?_, fun xi E K => ?run⟩
  case run =>
    simp only [cc0__vecmat_kernel_eq_skeleton]; unfold cc0__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Layer1

end
-- ==== Proof.Layer1First.lean ====
/- The first reduction step of the first layer's kernel body (first branch taken, second not): the scratch row, holding
   anything, is overwritten with zeros, read back, the product of the vector's 1 × 2048 slice with the matrix's
   2048 × 4096 block is added, and the sum is stored back over the whole row; the four input blocks and the output
   block are left as found. -/
import proofs.«169360_j54606214201548_2_alg».proof.Proof.Layer1Conds
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a first step, with the run: on whole memrefs — the inputs at their
    contents, the output block at any contents handed back untouched, the scratch row at anything — the body runs to a
    continuation holding the inputs and the output block as they were and the scratch row with those pieces written. -/
noncomputable def firstRun (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : isFirst i) (hc1 : ¬isLast i)
    (x2 : Vec F S1x1 .f32) (x3 : Vec F S1x1 .f32) (x4 : Vec F S1x2048 .bf16) (x5 : Vec F S2048x4096 .bf16) :
    { LS : List (View.Piece (Elt F) S1x4096 .f32) //
      ∀ (xi : Vec F S1x4096 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__vecmat_kernel i arg2 harg2 arg3 harg3 arg4 harg4 arg5 harg5 arg6 harg6 arg7 harg7) K } := by
  refine ⟨?_, fun xi E K => ?run⟩
  case run =>
    simp only [cc0__vecmat_kernel_eq_skeleton]; unfold cc0__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Layer1

end
-- ==== Proof.Layer1Last.lean ====
/- The last reduction step of the first layer's kernel body (first branch not taken, second taken): the scratch row,
   found at what the step before left, gets the last block's product added and is stored back; then the bias and the
   scale are read from their 1 × 1 blocks, the scratch row is read again, and (row + bias) · scale, in the output's
   format, is stored over the whole output block, which held anything. The four input blocks are left as found. -/
import proofs.«169360_j54606214201548_2_alg».proof.Proof.Layer1Conds
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the scratch row end with at a last step, with the run: on whole memrefs — the
    inputs at their contents, the output block at anything, the scratch row at the contents the step before left — the
    body runs to a continuation holding the inputs as they were and the output block and the scratch row with those
    pieces written. -/
noncomputable def lastRun (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : isLast i)
    (x2 : Vec F S1x1 .f32) (x3 : Vec F S1x1 .f32) (x4 : Vec F S1x2048 .bf16) (x5 : Vec F S2048x4096 .bf16) (xs : Vec F S1x4096 .f32) :
    Σ' (LO : List (View.Piece (Elt F) S1x4096 .bf16)), { LS : List (View.Piece (Elt F) S1x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__vecmat_kernel i arg2 harg2 arg3 harg3 arg4 harg4 arg5 harg5 arg6 harg6 arg7 harg7) K } := by
  refine ⟨?_, ?_, fun E K => ?run⟩
  case run =>
    simp only [cc0__vecmat_kernel_eq_skeleton]; unfold cc0__vecmat_kernel_skel
    unfold owns
    iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf2; obtain rfl := harg3.eq_unread hf3; obtain rfl := harg4.eq_unread hf4
    obtain rfl := harg5.eq_unread hf5; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Cert.KernelIdeal.Layer1

end
-- ==== Proof.Layer1Pieces.lean ====
/- What each kind of reduction step of the first layer's kernel leaves in the scratch row and in the output block:
   the stores each run found tile the whole 1 × 4096 row, so the row afterwards is those pieces read back, whatever it
   held before. Beside that, decided over the 32 grid points: the output window is idle (not stored into, not written
   back) at every step but the last of each group of eight, and live at the last. -/
import proofs.«169360_j54606214201548_2_alg».proof.Proof.Layer1Mid
import proofs.«169360_j54606214201548_2_alg».proof.Proof.Layer1First
import proofs.«169360_j54606214201548_2_alg».proof.Proof.Layer1Last
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the pipeline passes the body at a point -/

abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .bf16 := win0_4.stage (cfg0.slots t 4)
abbrev hs4 (t : Fin cfg0.N) : (ms4 t).IsWhole := hstage0_4 ((cfg0.slots t 4).cast nbuf0_4)
/-- The scratch row: a whole scoped buffer of the kernel's own. -/
abbrev scM : Memref sig .tc .vmem S1x4096 .f32 := Memref.whole cc0_scratch0
/-- The views through which the scratch row's and the output block's contents are stated. -/
abbrev VS : View sig .tc .vmem S1x4096 .f32 := scM.view
abbrev VO : View sig .tc .vmem S1x4096 .bf16 := (Memref.whole cc0_stg4_0 : Memref sig .tc .vmem S1x4096 .bf16).view

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Not at a last step: the output window is idle and its block is not written back. -/
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
/-- At a last step it is live. -/
theorem live4 : ∀ t : Fin cfg0.N, isLast (grid0.coords t) → cfg0.idle 4 (grid0.coords t) = false := by decide +kernel

/-! ## The pieces cover, and what they leave -/

variable (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole)

theorem firstCover (hc0 : isFirst i) (hc1 : ¬isLast i) (x2 : Vec F S1x1 .f32) (x3 : Vec F S1x1 .f32) (x4 : Vec F S1x2048 .bf16) (x5 : Vec F S2048x4096 .bf16) (y : S1x4096.Idx) :
    ∃ pc ∈ (firstRun c i arg2 harg2 arg3 harg3 arg4 harg4 arg5 harg5 arg6 harg6 arg7 harg7 hc0 hc1 x2 x3 x4 x5).1, y ∈ pc.1.set :=
  View.cover_of_tiledL (firstRun c i arg2 harg2 arg3 harg3 arg4 harg4 arg5 harg5 arg6 harg6 arg7 harg7 hc0 hc1 x2 x3 x4 x5).1 S1x4096.size (by sl_kernel_rfl) y

/-- The scratch row after a first step: zeros plus the block's product, as the run's pieces read back. -/
def firstAcc (hc0 : isFirst i) (hc1 : ¬isLast i) (x2 : Vec F S1x1 .f32) (x3 : Vec F S1x1 .f32) (x4 : Vec F S1x2048 .bf16) (x5 : Vec F S2048x4096 .bf16) : Vec F S1x4096 .f32 :=
  VS.read (Elt F) (VS.writes (Elt F) VS.junk (firstRun c i arg2 harg2 arg3 harg3 arg4 harg4 arg5 harg5 arg6 harg6 arg7 harg7 hc0 hc1 x2 x3 x4 x5).1)

theorem midCover (hc0 : ¬isFirst i) (hc1 : ¬isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (midRun c i arg2 harg2 arg3 harg3 arg4 harg4 arg5 harg5 arg6 harg6 arg7 harg7 hc0 hc1 x2 x3 x4 x5 xs).1, y ∈ pc.1.set :=
  View.cover_of_tiledL (midRun c i arg2 harg2 arg3 harg3 arg4 harg4 arg5 harg5 arg6 harg6 arg7 harg7 hc0 hc1 x2 x3 x4 x5 xs).1 S1x4096.size (by sl_kernel_rfl) y

/-- The scratch row after a middle step: what the step before left plus the block's product. -/
def midAcc (hc0 : ¬isFirst i) (hc1 : ¬isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (midRun c i arg2 harg2 arg3 harg3 arg4 harg4 arg5 harg5 arg6 harg6 arg7 harg7 hc0 hc1 x2 x3 x4 x5 xs).1)

theorem lastCoverS (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).2.1, y ∈ pc.1.set :=
  View.cover_of_tiledL (lastRun c i arg2 harg2 arg3 harg3 arg4 harg4 arg5 harg5 arg6 harg6 arg7 harg7 hc0 hc1 x2 x3 x4 x5 xs).2.1 S1x4096.size (by sl_kernel_rfl) y

theorem lastCoverO (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).1, y ∈ pc.1.set :=
  View.cover_of_tiledL (lastRun c i arg2 harg2 arg3 harg3 arg4 harg4 arg5 harg5 arg6 harg6 arg7 harg7 hc0 hc1 x2 x3 x4 x5 xs).1 S1x4096.size (by sl_kernel_rfl) y

/-- The scratch row after a last step: what the step before left plus the last block's product. -/
def lastAcc (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (lastRun c i arg2 harg2 arg3 harg3 arg4 harg4 arg5 harg5 arg6 harg6 arg7 harg7 hc0 hc1 x2 x3 x4 x5 xs).2.1)

/-- The output block after a last step: (the finished row + bias) · scale in the output's format. -/
def lastOut (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .bf16 :=
  VO.read (Elt F) (VO.writes (Elt F) VO.junk (lastRun c i arg2 harg2 arg3 harg3 arg4 harg4 arg5 harg5 arg6 harg6 arg7 harg7 hc0 hc1 x2 x3 x4 x5 xs).1)

end Cert.KernelIdeal.Layer1

end
-- ==== Proof.Layer1Data.lean ====
/- The first layer's kernel, point by point. The 32 grid points run in groups of eight reduction steps; within a group
   the scratch row holds, after step k, the sum of the products of the first k + 1 blocks (zeros plus the first
   product after the first step, the previous row plus the next product afterwards), and at the group's last step the
   output block is stored from the finished row. This module states that recursion, the invariant carrying the scratch
   row from one point to the next, what each input's staging buffer holds when the body runs (its block of the array,
   fetched at that point or not), and the body's obligation at every point. -/
import proofs.«169360_j54606214201548_2_alg».proof.Proof.Layer1Pieces
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, on each core
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The scratch row after each point -/

/-- The scratch row after the body at position `n`: at a group's first step zeros plus the block's product, otherwise
    what position `n - 1` left plus the block's product. -/
def accAt (c : Dev nD) : (n : ℕ) → n < cfg0.N → Vec F S1x4096 .f32
  | 0, hn => firstAcc c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 8 = 0 then
      firstAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩)
    else if h1 : (n + 1) % 8 = 7 then
      lastAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      midAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_first (c : Dev nD) (t : Fin cfg0.N) (h0 : t.val % 8 = 0) (h1 : ¬t.val % 8 = 7) :
    accAt V c t.val t.isLt = firstAcc c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t) := by
  obtain ⟨n, hn⟩ := t
  cases n with
  | zero => exact rfl
  | succ n => exact (dif_pos h0).trans rfl

theorem accAt_mid (c : Dev nD) (t : Fin cfg0.N) (h0 : ¬t.val % 8 = 0) (h1 : ¬t.val % 8 = 7) :
    accAt V c t.val t.isLt = midAcc c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = lastAcc c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: at a group's last step, (finished row + bias) · scale; elsewhere the
    window is idle and this value is never consulted. -/
def outAt (c : Dev nD) (t : Fin cfg0.N) : Vec F S1x4096 .bf16 :=
  if h1 : t.val % 8 = 7 then
    lastOut c (grid0.coords t) (ms0 t) (hs0 t) (ms1 t) (hs1 t) (ms2 t) (hs2 t) (ms3 t) (hs3 t) (ms4 t) (hs4 t) scM (Memref.isWhole_whole _) (fun h => (fun h => by omega) ((isFirst_iff t).mp h)) ((isLast_iff t).mpr h1) (iblk V c 0 t) (iblk V c 1 t) (iblk V c 2 t) (iblk V c 3 t) (accAt V c (t.val - 1) (Nat.lt_of_le_of_lt (Nat.sub_le _ _) t.isLt))
  else VO.read (Elt F) VO.junk

/-! ## The invariant between points -/

/-- The core's other scoped buffers (the second layer's staging buffers and scratch row), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch row split off as an owned memref. -/
theorem PhiA_eq (c : Dev nD) :
    (Pipeline.ΦA spec0 c : sProp 𝕄) = iprop(iprop((∃ d, owns (c : Thread nD τ) scM fullShare d) ∗ others c) ∗ (∃ r, prngReg c r)) := by
  unfold Pipeline.ΦA others; rw [scopedRest0_eq]; simp only [scM, owns_whole]; try rfl

/-- Before position `n`: before the first point every scoped buffer holds anything; afterwards the scratch row holds what
    the point before left, the other scoped buffers anything, the generator register any state. -/
def PhiS (c : Dev nD) : (n : ℕ) → n ≤ cfg0.N → sProp 𝕄
  | 0, _ => Pipeline.ΦA spec0 c
  | n + 1, hn => iprop(iprop(owns (c : Thread nD τ) scM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ others c) ∗ (∃ r, prngReg c r)) := by
  cases n with
  | zero => exact absurd rfl hz
  | succ n => rfl

/-! ## The proof data -/

/-- On core `c`: the arrays as the region finds them; after the body each input's buffer at its block, the output's at
    `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outAt V c t := by dsimp only [dat]

/-- Each input's current staging buffer holds its block at every point, fetched there or not: unfetched, the block
    index has not moved since the fetch. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Layer1

end
-- ==== Proof.Layer1Body.lean ====
/- The first layer's kernel body meets the pipeline's obligation at every grid point: the point is a first, a middle or
   a last reduction step (its position modulo 8 is 0, in 1..6, or 7); the inputs' staging buffers hold their blocks; the
   invariant hands over the scratch row at what the point before left (at anything before the very first point); that
   step's run applies; and the row comes back at this point's sum, the output block untouched when idle and at
   (finished row + bias) · scale at a last step. Entering, the class invariant (every scoped buffer at anything) is the
   invariant before the first point; leaving, the row's contents are forgotten again. -/
import proofs.«169360_j54606214201548_2_alg».proof.Proof.Layer1Data
import Idealize.ShloMosaic.Lib.Pipeline.FrameBody
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [accAt_first V c t h0 h1]
    unfold firstAcc; (try dsimp only)
    by_cases hz : t.val = 0
    · rw [Phi_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((firstRun c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (firstCover c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((firstRun c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (firstCover c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat V c).leavesExact 4 t = owns (c : Thread nD τ) (ms4 t) fullShare ((dat V c).after 4 t) from by
        unfold Dat.leavesExact; rw [live4 t ((isLast_iff t).mpr h1)], after4]
      rw [accAt_last V c t h0 h1]
      unfold outAt; rw [dif_pos h1]
      unfold lastAcc lastOut; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((lastRun c (grid0.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (lastCoverS c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (lastCoverO c _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [accAt_mid V c t h0 h1]
      unfold midAcc; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((midRun c (grid0.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (midCover c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- Entering the region: every scoped buffer at anything is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the scratch row's contents forgotten. -/
theorem phi_forget (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem phi_out (c : Dev nD) : (dat V c).Φ (Fin.last cfg0.N) ⊢ Pipeline.ΦA spec0 c :=
  phi_forget V c _ (by rw [Fin.val_last]; have : cfg0.N = 32 := N_0; omega)

end Cert.KernelIdeal.Layer1

end
-- ==== Proof.Layer2Conds.lean ====
/- The two conditions the second layer's kernel body branches on, as functions of the grid position (i, k) of the
   4 × 8 grid: "k is the first reduction step" (the scratch row is zeroed) and "k is the last" (the scratch row, plus
   the bias, times the scale, is stored to the output block). -/
import proofs.«169360_j54606214201548_2_alg».proof.Proof.Gen.KernelIdeal.Launch
import proofs.«169360_j54606214201548_2_alg».proof.Proof.Gen.KernelIdeal.Skeleton
import proofs.«169360_j54606214201548_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first one: the body's first branch, from the grid coordinates. -/
abbrev isFirst (i : grid1.Coords) : Prop :=
  (Scalar.cmpi .ne (Scalar.extui (Scalar.cmpi .eq (BitVec.ofNat 32 (i 1).val) 0#32)) 0#32) = 1#1
/-- It holds exactly at the points whose position is 0 modulo 8 (the reduction axis is the inner one, of extent 8). -/
theorem isFirst_iff : ∀ t : Fin cfg1.N, isFirst (grid1.coords t) ↔ t.val % 8 = 0 :=
  (by decide +kernel : ∀ t : Fin grid1.N, isFirst (grid1.coords t) ↔ t.val % 8 = 0)

/-- The reduction step is the last one: the body's second branch. -/
abbrev isLast (i : grid1.Coords) : Prop := k1_cond2 i = 1#1
/-- It holds exactly at the points whose position is 7 modulo 8. -/
theorem isLast_iff : ∀ t : Fin cfg1.N, isLast (grid1.coords t) ↔ t.val % 8 = 7 :=
  (by decide +kernel : ∀ t : Fin grid1.N, isLast (grid1.coords t) ↔ t.val % 8 = 7)

end Cert.KernelIdeal.Layer2

end
-- ==== Proof.Layer2Mid.lean ====
/- A middle reduction step of the second layer's kernel body (neither branch taken): the scratch row, found at what the
   step before left, is read, the product of the 1 × 2048 slice of the vector with the 2048 × 4096 block of the matrix
   is added to it, and the sum is stored back over the whole row; the four input blocks and the output block are left
   as found. -/
import proofs.«169360_j54606214201548_2_alg».proof.Proof.Layer2Conds
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a middle step, with the run: on whole memrefs — the inputs at their
    contents, the output block at any contents handed back untouched, the scratch row at the contents the step before
    left — the body runs to a continuation holding the inputs and the output block as they were and the scratch row
    with those pieces written. -/
noncomputable def midRun (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : ¬isLast i)
    (x2 : Vec F S1x1 .f32) (x3 : Vec F S1x1 .f32) (x4 : Vec F S1x2048 .bf16) (x5 : Vec F S2048x4096 .bf16) (xs : Vec F S1x4096 .f32) :
    { LS : List (View.Piece (Elt F) S1x4096 .f32) //
      ∀ (xi : Vec F S1x4096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__vecmat_kernel i arg2 harg2 arg3 harg3 arg4 harg4 arg5 harg5 arg6 harg6 arg7 harg7) K } := by
  refine ⟨?_, fun xi E K => ?run⟩
  case run =>
    simp only [cc1__vecmat_kernel_eq_skeleton]; unfold cc1__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Layer2

end
-- ==== Proof.Layer2First.lean ====
/- The first reduction step of the second layer's kernel body (first branch taken, second not): the scratch row, holding
   anything, is overwritten with zeros, read back, the product of the vector's 1 × 2048 slice with the matrix's
   2048 × 4096 block is added, and the sum is stored back over the whole row; the four input blocks and the output
   block are left as found. -/
import proofs.«169360_j54606214201548_2_alg».proof.Proof.Layer2Conds
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a first step, with the run: on whole memrefs — the inputs at their
    contents, the output block at any contents handed back untouched, the scratch row at anything — the body runs to a
    continuation holding the inputs and the output block as they were and the scratch row with those pieces written. -/
noncomputable def firstRun (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : isFirst i) (hc1 : ¬isLast i)
    (x2 : Vec F S1x1 .f32) (x3 : Vec F S1x1 .f32) (x4 : Vec F S1x2048 .bf16) (x5 : Vec F S2048x4096 .bf16) :
    { LS : List (View.Piece (Elt F) S1x4096 .f32) //
      ∀ (xi : Vec F S1x4096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__vecmat_kernel i arg2 harg2 arg3 harg3 arg4 harg4 arg5 harg5 arg6 harg6 arg7 harg7) K } := by
  refine ⟨?_, fun xi E K => ?run⟩
  case run =>
    simp only [cc1__vecmat_kernel_eq_skeleton]; unfold cc1__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Layer2

end
-- ==== Proof.Layer2Last.lean ====
/- The last reduction step of the second layer's kernel body (first branch not taken, second taken): the scratch row,
   found at what the step before left, gets the last block's product added and is stored back; then the bias and the
   scale are read from their 1 × 1 blocks, the scratch row is read again, and (row + bias) · scale, in the output's
   format, is stored over the whole output block, which held anything. The four input blocks are left as found. -/
import proofs.«169360_j54606214201548_2_alg».proof.Proof.Layer2Conds
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the scratch row end with at a last step, with the run: on whole memrefs — the
    inputs at their contents, the output block at anything, the scratch row at the contents the step before left — the
    body runs to a continuation holding the inputs as they were and the output block and the scratch row with those
    pieces written. -/
noncomputable def lastRun (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : isLast i)
    (x2 : Vec F S1x1 .f32) (x3 : Vec F S1x1 .f32) (x4 : Vec F S1x2048 .bf16) (x5 : Vec F S2048x4096 .bf16) (xs : Vec F S1x4096 .f32) :
    Σ' (LO : List (View.Piece (Elt F) S1x4096 .f32)), { LS : List (View.Piece (Elt F) S1x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__vecmat_kernel i arg2 harg2 arg3 harg3 arg4 harg4 arg5 harg5 arg6 harg6 arg7 harg7) K } := by
  refine ⟨?_, ?_, fun E K => ?run⟩
  case run =>
    simp only [cc1__vecmat_kernel_eq_skeleton]; unfold cc1__vecmat_kernel_skel
    unfold owns
    iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf2; obtain rfl := harg3.eq_unread hf3; obtain rfl := harg4.eq_unread hf4
    obtain rfl := harg5.eq_unread hf5; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Cert.KernelIdeal.Layer2

end
-- ==== Proof.Layer2Pieces.lean ====
/- What each kind of reduction step of the second layer's kernel leaves in the scratch row and in the output block:
   the stores each run found tile the whole 1 × 4096 row, so the row afterwards is those pieces read back, whatever it
   held before. Beside that, decided over the 32 grid points: the output window is idle (not stored into, not written
   back) at every step but the last of each group of eight, and live at the last. -/
import proofs.«169360_j54606214201548_2_alg».proof.Proof.Layer2Mid
import proofs.«169360_j54606214201548_2_alg».proof.Proof.Layer2First
import proofs.«169360_j54606214201548_2_alg».proof.Proof.Layer2Last
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the pipeline passes the body at a point -/

abbrev ms0 (t : Fin cfg1.N) : Memref sig .tc .vmem S1x1 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x4096 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x4096 .f32 := win1_4.stage (cfg1.slots t 4)
abbrev hs4 (t : Fin cfg1.N) : (ms4 t).IsWhole := hstage1_4 ((cfg1.slots t 4).cast nbuf1_4)
/-- The scratch row: a whole scoped buffer of the kernel's own. -/
abbrev scM : Memref sig .tc .vmem S1x4096 .f32 := Memref.whole cc1_scratch0
/-- The views through which the scratch row's and the output block's contents are stated. -/
abbrev VS : View sig .tc .vmem S1x4096 .f32 := scM.view
abbrev VO : View sig .tc .vmem S1x4096 .f32 := (Memref.whole cc1_stg4_0 : Memref sig .tc .vmem S1x4096 .f32).view

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Not at a last step: the output window is idle and its block is not written back. -/
theorem idle4 : ∀ t : Fin cfg1.N, ¬isLast (grid1.coords t) → cfg1.idle 4 (grid1.coords t) = true := by decide +kernel
theorem noFlush4 : ∀ t : Fin cfg1.N, ¬isLast (grid1.coords t) → (cfg1.win 4).flush t = false := by decide +kernel
/-- At a last step it is live. -/
theorem live4 : ∀ t : Fin cfg1.N, isLast (grid1.coords t) → cfg1.idle 4 (grid1.coords t) = false := by decide +kernel

/-! ## The pieces cover, and what they leave -/

variable (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole)

theorem firstCover (hc0 : isFirst i) (hc1 : ¬isLast i) (x2 : Vec F S1x1 .f32) (x3 : Vec F S1x1 .f32) (x4 : Vec F S1x2048 .bf16) (x5 : Vec F S2048x4096 .bf16) (y : S1x4096.Idx) :
    ∃ pc ∈ (firstRun c i arg2 harg2 arg3 harg3 arg4 harg4 arg5 harg5 arg6 harg6 arg7 harg7 hc0 hc1 x2 x3 x4 x5).1, y ∈ pc.1.set :=
  View.cover_of_tiledL (firstRun c i arg2 harg2 arg3 harg3 arg4 harg4 arg5 harg5 arg6 harg6 arg7 harg7 hc0 hc1 x2 x3 x4 x5).1 S1x4096.size (by sl_kernel_rfl) y

/-- The scratch row after a first step: zeros plus the block's product, as the run's pieces read back. -/
def firstAcc (hc0 : isFirst i) (hc1 : ¬isLast i) (x2 : Vec F S1x1 .f32) (x3 : Vec F S1x1 .f32) (x4 : Vec F S1x2048 .bf16) (x5 : Vec F S2048x4096 .bf16) : Vec F S1x4096 .f32 :=
  VS.read (Elt F) (VS.writes (Elt F) VS.junk (firstRun c i arg2 harg2 arg3 harg3 arg4 harg4 arg5 harg5 arg6 harg6 arg7 harg7 hc0 hc1 x2 x3 x4 x5).1)

theorem midCover (hc0 : ¬isFirst i) (hc1 : ¬isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (midRun c i arg2 harg2 arg3 harg3 arg4 harg4 arg5 harg5 arg6 harg6 arg7 harg7 hc0 hc1 x2 x3 x4 x5 xs).1, y ∈ pc.1.set :=
  View.cover_of_tiledL (midRun c i arg2 harg2 arg3 harg3 arg4 harg4 arg5 harg5 arg6 harg6 arg7 harg7 hc0 hc1 x2 x3 x4 x5 xs).1 S1x4096.size (by sl_kernel_rfl) y

/-- The scratch row after a middle step: what the step before left plus the block's product. -/
def midAcc (hc0 : ¬isFirst i) (hc1 : ¬isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (midRun c i arg2 harg2 arg3 harg3 arg4 harg4 arg5 harg5 arg6 harg6 arg7 harg7 hc0 hc1 x2 x3 x4 x5 xs).1)

theorem lastCoverS (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).2.1, y ∈ pc.1.set :=
  View.cover_of_tiledL (lastRun c i arg2 harg2 arg3 harg3 arg4 harg4 arg5 harg5 arg6 harg6 arg7 harg7 hc0 hc1 x2 x3 x4 x5 xs).2.1 S1x4096.size (by sl_kernel_rfl) y

theorem lastCoverO (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).1, y ∈ pc.1.set :=
  View.cover_of_tiledL (lastRun c i arg2 harg2 arg3 harg3 arg4 harg4 arg5 harg5 arg6 harg6 arg7 harg7 hc0 hc1 x2 x3 x4 x5 xs).1 S1x4096.size (by sl_kernel_rfl) y

/-- The scratch row after a last step: what the step before left plus the last block's product. -/
def lastAcc (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (lastRun c i arg2 harg2 arg3 harg3 arg4 harg4 arg5 harg5 arg6 harg6 arg7 harg7 hc0 hc1 x2 x3 x4 x5 xs).2.1)

/-- The output block after a last step: (the finished row + bias) · scale. -/
def lastOut (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .f32 :=
  VO.read (Elt F) (VO.writes (Elt F) VO.junk (lastRun c i arg2 harg2 arg3 harg3 arg4 harg4 arg5 harg5 arg6 harg6 arg7 harg7 hc0 hc1 x2 x3 x4 x5 xs).1)

end Cert.KernelIdeal.Layer2

end
-- ==== Proof.Layer2Data.lean ====
/- The second layer's kernel, point by point. The 32 grid points run in groups of eight reduction steps; within a group
   the scratch row holds, after step k, the sum of the products of the first k + 1 blocks (zeros plus the first
   product after the first step, the previous row plus the next product afterwards), and at the group's last step the
   output block is stored from the finished row. This module states that recursion, the invariant carrying the scratch
   row from one point to the next, what each input's staging buffer holds when the body runs (its block of the array,
   fetched at that point or not), and the body's obligation at every point. -/
import proofs.«169360_j54606214201548_2_alg».proof.Proof.Layer2Pieces
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, on each core
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch row after each point -/

/-- The scratch row after the body at position `n`: at a group's first step zeros plus the block's product, otherwise
    what position `n - 1` left plus the block's product. -/
def accAt (c : Dev nD) : (n : ℕ) → n < cfg1.N → Vec F S1x4096 .f32
  | 0, hn => firstAcc c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 8 = 0 then
      firstAcc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩)
    else if h1 : (n + 1) % 8 = 7 then
      lastAcc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      midAcc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_first (c : Dev nD) (t : Fin cfg1.N) (h0 : t.val % 8 = 0) (h1 : ¬t.val % 8 = 7) :
    accAt V c t.val t.isLt = firstAcc c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t) := by
  obtain ⟨n, hn⟩ := t
  cases n with
  | zero => exact rfl
  | succ n => exact (dif_pos h0).trans rfl

theorem accAt_mid (c : Dev nD) (t : Fin cfg1.N) (h0 : ¬t.val % 8 = 0) (h1 : ¬t.val % 8 = 7) :
    accAt V c t.val t.isLt = midAcc c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 8 = 0) (h1 : t.val % 8 = 7) :
    accAt V c t.val t.isLt = lastAcc c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: at a group's last step, (finished row + bias) · scale; elsewhere the
    window is idle and this value is never consulted. -/
def outAt (c : Dev nD) (t : Fin cfg1.N) : Vec F S1x4096 .f32 :=
  if h1 : t.val % 8 = 7 then
    lastOut c (grid1.coords t) (ms0 t) (hs0 t) (ms1 t) (hs1 t) (ms2 t) (hs2 t) (ms3 t) (hs3 t) (ms4 t) (hs4 t) scM (Memref.isWhole_whole _) (fun h => (fun h => by omega) ((isFirst_iff t).mp h)) ((isLast_iff t).mpr h1) (iblk V c 0 t) (iblk V c 1 t) (iblk V c 2 t) (iblk V c 3 t) (accAt V c (t.val - 1) (Nat.lt_of_le_of_lt (Nat.sub_le _ _) t.isLt))
  else VO.read (Elt F) VO.junk

/-! ## The invariant between points -/

/-- The core's other scoped buffers (the first layer's staging buffers and scratch row), each at some contents, around
    what is said of this layer's scratch row (which comes last among the core's scoped buffers). -/
def others (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ X)

/-- The class invariant with the scratch row split off as an owned memref. -/
theorem PhiA_eq (c : Dev nD) :
    (Pipeline.ΦA spec1 c : sProp 𝕄) = iprop(others c (iprop(∃ d, owns (c : Thread nD τ) scM fullShare d)) ∗ (∃ r, prngReg c r)) := by
  unfold Pipeline.ΦA others; rw [scopedRest1_eq]; simp only [scM, owns_whole]; try rfl

/-- Before position `n`: before the first point every scoped buffer holds anything; afterwards the scratch row holds what
    the point before left, the other scoped buffers anything, the generator register any state. -/
def PhiS (c : Dev nD) : (n : ℕ) → n ≤ cfg1.N → sProp 𝕄
  | 0, _ => Pipeline.ΦA spec1 c
  | n + 1, hn => iprop(others c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(others c (owns (c : Thread nD τ) scM fullShare (accAt V c (n - 1) (by omega))) ∗ (∃ r, prngReg c r)) := by
  cases n with
  | zero => exact absurd rfl hz
  | succ n => rfl

/-! ## The proof data -/

/-- On core `c`: the arrays as the region finds them; after the body each input's buffer at its block, the output's at
    `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]

/-- Each input's current staging buffer holds its block at every point, fetched there or not: unfetched, the block
    index has not moved since the fetch. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Layer2

end
-- ==== Proof.Layer2Body.lean ====
/- The second layer's kernel body meets the pipeline's obligation at every grid point: the point is a first, a middle or
   a last reduction step (its position modulo 8 is 0, in 1..6, or 7); the inputs' staging buffers hold their blocks; the
   invariant hands over the scratch row at what the point before left (at anything before the very first point); that
   step's run applies; and the row comes back at this point's sum, the output block untouched when idle and at
   (finished row + bias) · scale at a last step. Entering, the class invariant (every scoped buffer at anything) is the
   invariant before the first point; leaving, the row's contents are forgotten again. -/
import proofs.«169360_j54606214201548_2_alg».proof.Proof.Layer2Data
import Idealize.ShloMosaic.Lib.Pipeline.FrameBody
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [accAt_first V c t h0 h1]
    unfold firstAcc; (try dsimp only)
    by_cases hz : t.val = 0
    · rw [Phi_castSucc V c t, PhiS_zero V c _ _ hz, PhiA_eq]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((firstRun c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (firstCover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((firstRun c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (firstCover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat V c).leavesExact 4 t = owns (c : Thread nD τ) (ms4 t) fullShare ((dat V c).after 4 t) from by
        unfold Dat.leavesExact; rw [live4 t ((isLast_iff t).mpr h1)], after4]
      rw [accAt_last V c t h0 h1]
      unfold outAt; rw [dif_pos h1]
      unfold lastAcc lastOut; (try dsimp only)
      rw [Phi_castSucc V c t, PhiS_pos V c _ _ hz]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((lastRun c (grid1.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (lastCoverS c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (lastCoverO c _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [accAt_mid V c t h0 h1]
      unfold midAcc; (try dsimp only)
      rw [Phi_castSucc V c t, PhiS_pos V c _ _ hz]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((midRun c (grid1.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (midCover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- Entering the region: every scoped buffer at anything is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the scratch row's contents forgotten. -/
theorem phi_forget (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold others
  iintro ⟨⟨Hq1, Hq2, Hq3, Hq4, Hq5, Hq6, Hq7, Hq8, Hq9, HS⟩, Hg⟩
  isplitl [HS Hq1 Hq2 Hq3 Hq4 Hq5 Hq6 Hq7 Hq8 Hq9]
  · isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS
  iexact Hg

theorem phi_out (c : Dev nD) : (dat V c).Φ (Fin.last cfg1.N) ⊢ Pipeline.ΦA spec1 c :=
  phi_forget V c _ (by rw [Fin.val_last]; have : cfg1.N = 32 := N_1; omega)

end Cert.KernelIdeal.Layer2

end
-- ==== Proof.KernelRun.lean ====
/- The idealized kernel program's run, from the launch to the return. @main is seven items: three stretches of host
   operations (the graph normalisation, the dense adjacency and the first vector), the first layer's region, a stretch
   (the second layer's bias and unit scale), the second layer's region, and a last stretch (the result's reshape and the
   zero). Between two items every unscoped buffer of the core is held at named contents: the launch memory, then each
   stretch's operations applied, then after a region its arrays at what the pipeline leaves (inputs as entered, the
   output with its blocks written back) and every other buffer as entered. Every weakly fair execution terminates and
   ends with every unscoped buffer at the last of these contents; the arguments are among them and no item changes one. -/
import proofs.«169360_j54606214201548_2_alg».proof.Proof.Layer1Body
import proofs.«169360_j54606214201548_2_alg».proof.Proof.Layer2Body
import proofs.«169360_j54606214201548_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first, second and third stretches of host operations (the first layer's region is entered from the third). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the first layer's region: its arrays at what the pipeline leaves, every other buffer as entered. -/
def W4 (c : Dev nD) : Valuation τ sig (Elt F) :=
  Pipeline.withArrays spec0 c (W3 m ρ c) fun w => (Layer1.dat (V3 m ρ) c).arrAt w cfg0.N
theorem W4_arr (c : Dev nD) (w : Fin cfg0.W) :
    W4 m ρ c (Proc.devRef .tc (Pipeline.arrRef spec0 w)) = (Layer1.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Layer1.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the stretch between the regions (the second layer's region is entered from it). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After the second layer's region. -/
def W6 (c : Dev nD) : Valuation τ sig (Elt F) :=
  Pipeline.withArrays spec1 c (W5 m ρ c) fun w => (Layer2.dat (V5 m ρ) c).arrAt w cfg1.N
theorem W6_arr (c : Dev nD) (w : Fin cfg1.W) :
    W6 m ρ c (Proc.devRef .tc (Pipeline.arrRef spec1 w)) = (Layer2.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Layer2.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- At the return. -/
abbrev W7 : Dev nD → Valuation τ sig (Elt F) := fun c => StableHlo.after hostOps2 (W6 m ρ c)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Layer1.dat (V3 m ρ) c
  | ⟨1, _⟩ => fun c => Layer2.dat (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as items -/

set_option backward.isDefEq.respectTransparency.types false in
/-- The first layer's region over the thread state "every unscoped buffer at its contents": entered from the contents
    before it, left at those contents with the region's arrays at what the pipeline leaves. The arrays are split out of
    the unscoped buffers and put back; the generator register and the scoped buffers go into the class invariant,
    which is the tracked invariant before the first point, and come back when the scratch row is forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Layer1.phi_in (V3 m ρ) c)
    unfold Pipeline.ΦA
    iintro ⟨Hp, -, Hr⟩
    isplitl [Hr]; · iexact Hr
    iexact Hp
  hout c := by
    rw [Pipeline.ownSems0_none]
    refine .trans (Layer1.phi_out (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state "every unscoped buffer at its contents": entered from the contents
    before it, left at those contents with the region's arrays at what the pipeline leaves. The arrays are split out of
    the unscoped buffers and put back; the generator register and the scoped buffers go into the class invariant,
    which is the tracked invariant before the first point, and come back when the scratch row is forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Layer2.phi_in (V5 m ρ) c)
    unfold Pipeline.ΦA
    iintro ⟨Hp, -, Hr⟩
    isplitl [Hr]; · iexact Hr
    iexact Hp
  hout c := by
    rw [Pipeline.ownSems0_none]
    refine .trans (Layer2.phi_out (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- Every weakly fair execution of @main from a memory with zero counters terminates, nothing faulting, and every final
    state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Run

end
-- ==== Proof.KernelFrame.lean ====
/- The idealized kernel program leaves every argument array as launched: at the return every unscoped buffer holds the
   last boundary's contents, and an argument's buffer walks back through the seven items unchanged — no stretch of host
   operations writes an argument, the regions may change only their output arrays, and the one argument that is a
   window's array (the first layer's scale) is an input window's, which the pipeline leaves as entered. -/
import proofs.«169360_j54606214201548_2_alg».proof.Proof.KernelRun

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide : main_arg0 ∉ hostOps2_W)
    _ = W5 m ρ c (Proc.devRef .tc main_arg0) := W6_of_ne m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide : main_arg1 ∉ hostOps2_W)
    _ = W5 m ρ c (Proc.devRef .tc main_arg1) := W6_of_ne m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide : main_arg2 ∉ hostOps2_W)
    _ = W5 m ρ c (Proc.devRef .tc main_arg2) := W6_of_ne m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide : main_arg3 ∉ hostOps2_W)
    _ = W5 m ρ c (Proc.devRef .tc main_arg3) := W6_of_ne m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide : main_arg4 ∉ hostOps2_W)
    _ = W5 m ρ c (Proc.devRef .tc main_arg4) := W6_of_ne m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (by decide : main_arg5 ∉ hostOps2_W)
    _ = W5 m ρ c (Proc.devRef .tc main_arg5) := W6_of_ne m ρ c main_arg5 (by decide)
    _ = W4 m ρ c (Proc.devRef .tc main_arg5) := StableHlo.after_of_writes_sub hostOps1 _ hostOps1_writes (by decide : main_arg5 ∉ hostOps1_W)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2 _ hostOps2_writes (by decide : main_arg7 ∉ hostOps2_W)
    _ = W5 m ρ c (Proc.devRef .tc main_arg7) := W6_of_ne m ρ c main_arg7 (by decide)
    _ = W4 m ρ c (Proc.devRef .tc main_arg7) := StableHlo.after_of_writes_sub hostOps1 _ hostOps1_writes (by decide : main_arg7 ∉ hostOps1_W)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide : main_arg7 ∉ hostOps0_2_W)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2 _ hostOps2_writes (by decide : main_arg6 ∉ hostOps2_W)
    _ = W5 m ρ c (Proc.devRef .tc main_arg6) := W6_of_ne m ρ c main_arg6 (by decide)
    _ = W4 m ρ c (Proc.devRef .tc main_arg6) := StableHlo.after_of_writes_sub hostOps1 _ hostOps1_writes (by decide : main_arg6 ∉ hostOps1_W)
    _ = W3 m ρ c (Proc.devRef .tc main_arg6) := (W4_arr m ρ c 1).trans (((Layer1.dat (V3 m ρ) c).arrAt_in 1 rfl _).trans (Layer1.A_eq (V3 m ρ) c 1))
    _ = W2 m ρ c (Proc.devRef .tc main_arg6) := StableHlo.after_of_writes_sub hostOps0_2 _ hostOps0_2_writes (by decide : main_arg6 ∉ hostOps0_2_W)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.KernelIdeal.Run

end
-- ==== Proof.WLayer1Conds.lean ====
/- The two conditions the first layer's kernel body branches on, as functions of the grid position (i, k) of the
   4 × 8 grid: "k is the first reduction step" (the scratch row is zeroed) and "k is the last" (the scratch row, plus
   the bias, times the scale, is stored to the output block). -/
import proofs.«169360_j54606214201548_2_alg».proof.Proof.Gen.Kernel.Launch
import proofs.«169360_j54606214201548_2_alg».proof.Proof.Gen.Kernel.Skeleton
import proofs.«169360_j54606214201548_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first one: the body's first branch, from the grid coordinates. -/
abbrev isFirst (i : grid0.Coords) : Prop :=
  (Scalar.cmpi .ne (Scalar.extui (Scalar.cmpi .eq (BitVec.ofNat 32 (i 1).val) 0#32)) 0#32) = 1#1
/-- It holds exactly at the points whose position is 0 modulo 8 (the reduction axis is the inner one, of extent 8). -/
theorem isFirst_iff : ∀ t : Fin cfg0.N, isFirst (grid0.coords t) ↔ t.val % 8 = 0 :=
  (by decide +kernel : ∀ t : Fin grid0.N, isFirst (grid0.coords t) ↔ t.val % 8 = 0)

/-- The reduction step is the last one: the body's second branch. -/
abbrev isLast (i : grid0.Coords) : Prop := k0_cond2 i = 1#1
/-- It holds exactly at the points whose position is 7 modulo 8. -/
theorem isLast_iff : ∀ t : Fin cfg0.N, isLast (grid0.coords t) ↔ t.val % 8 = 7 :=
  (by decide +kernel : ∀ t : Fin grid0.N, isLast (grid0.coords t) ↔ t.val % 8 = 7)

end Cert.Kernel.Layer1

end
-- ==== Proof.WLayer1Mid.lean ====
/- A middle reduction step of the first layer's kernel body (neither branch taken): the scratch row, found at what the
   step before left, is read, the product of the 1 × 2048 slice of the vector with the 2048 × 4096 block of the matrix
   is added to it, and the sum is stored back over the whole row; the four input blocks and the output block are left
   as found. -/
import proofs.«169360_j54606214201548_2_alg».proof.Proof.WLayer1Conds
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a middle step, with the run: on whole memrefs — the inputs at their
    contents, the output block at any contents handed back untouched, the scratch row at the contents the step before
    left — the body runs to a continuation holding the inputs and the output block as they were and the scratch row
    with those pieces written. -/
noncomputable def midRun (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : ¬isLast i)
    (x2 : Vec F S1x1 .f32) (x3 : Vec F S1x1 .f32) (x4 : Vec F S1x2048 .bf16) (x5 : Vec F S2048x4096 .bf16) (xs : Vec F S1x4096 .f32) :
    { LS : List (View.Piece (Elt F) S1x4096 .f32) //
      ∀ (xi : Vec F S1x4096 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__vecmat_kernel i arg2 harg2 arg3 harg3 arg4 harg4 arg5 harg5 arg6 harg6 arg7 harg7) K } := by
  refine ⟨?_, fun xi E K => ?run⟩
  case run =>
    simp only [cc0__vecmat_kernel_eq_skeleton]; unfold cc0__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Layer1

end
-- ==== Proof.WLayer1First.lean ====
/- The first reduction step of the first layer's kernel body (first branch taken, second not): the scratch row, holding
   anything, is overwritten with zeros, read back, the product of the vector's 1 × 2048 slice with the matrix's
   2048 × 4096 block is added, and the sum is stored back over the whole row; the four input blocks and the output
   block are left as found. -/
import proofs.«169360_j54606214201548_2_alg».proof.Proof.WLayer1Conds
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a first step, with the run: on whole memrefs — the inputs at their
    contents, the output block at any contents handed back untouched, the scratch row at anything — the body runs to a
    continuation holding the inputs and the output block as they were and the scratch row with those pieces written. -/
noncomputable def firstRun (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : isFirst i) (hc1 : ¬isLast i)
    (x2 : Vec F S1x1 .f32) (x3 : Vec F S1x1 .f32) (x4 : Vec F S1x2048 .bf16) (x5 : Vec F S2048x4096 .bf16) :
    { LS : List (View.Piece (Elt F) S1x4096 .f32) //
      ∀ (xi : Vec F S1x4096 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__vecmat_kernel i arg2 harg2 arg3 harg3 arg4 harg4 arg5 harg5 arg6 harg6 arg7 harg7) K } := by
  refine ⟨?_, fun xi E K => ?run⟩
  case run =>
    simp only [cc0__vecmat_kernel_eq_skeleton]; unfold cc0__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Layer1

end
-- ==== Proof.WLayer1Last.lean ====
/- The last reduction step of the first layer's kernel body (first branch not taken, second taken): the scratch row,
   found at what the step before left, gets the last block's product added and is stored back; then the bias and the
   scale are read from their 1 × 1 blocks, the scratch row is read again, and (row + bias) · scale, in the output's
   format, is stored over the whole output block, which held anything. The four input blocks are left as found. -/
import proofs.«169360_j54606214201548_2_alg».proof.Proof.WLayer1Conds
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the scratch row end with at a last step, with the run: on whole memrefs — the
    inputs at their contents, the output block at anything, the scratch row at the contents the step before left — the
    body runs to a continuation holding the inputs as they were and the output block and the scratch row with those
    pieces written. -/
noncomputable def lastRun (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : isLast i)
    (x2 : Vec F S1x1 .f32) (x3 : Vec F S1x1 .f32) (x4 : Vec F S1x2048 .bf16) (x5 : Vec F S2048x4096 .bf16) (xs : Vec F S1x4096 .f32) :
    Σ' (LO : List (View.Piece (Elt F) S1x4096 .bf16)), { LS : List (View.Piece (Elt F) S1x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__vecmat_kernel i arg2 harg2 arg3 harg3 arg4 harg4 arg5 harg5 arg6 harg6 arg7 harg7) K } := by
  refine ⟨?_, ?_, fun E K => ?run⟩
  case run =>
    simp only [cc0__vecmat_kernel_eq_skeleton]; unfold cc0__vecmat_kernel_skel
    unfold owns
    iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf2; obtain rfl := harg3.eq_unread hf3; obtain rfl := harg4.eq_unread hf4
    obtain rfl := harg5.eq_unread hf5; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Cert.Kernel.Layer1

end
-- ==== Proof.WLayer1Pieces.lean ====
/- What each kind of reduction step of the first layer's kernel leaves in the scratch row and in the output block:
   the stores each run found tile the whole 1 × 4096 row, so the row afterwards is those pieces read back, whatever it
   held before. Beside that, decided over the 32 grid points: the output window is idle (not stored into, not written
   back) at every step but the last of each group of eight, and live at the last. -/
import proofs.«169360_j54606214201548_2_alg».proof.Proof.WLayer1Mid
import proofs.«169360_j54606214201548_2_alg».proof.Proof.WLayer1First
import proofs.«169360_j54606214201548_2_alg».proof.Proof.WLayer1Last
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the pipeline passes the body at a point -/

abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .bf16 := win0_4.stage (cfg0.slots t 4)
abbrev hs4 (t : Fin cfg0.N) : (ms4 t).IsWhole := hstage0_4 ((cfg0.slots t 4).cast nbuf0_4)
/-- The scratch row: a whole scoped buffer of the kernel's own. -/
abbrev scM : Memref sig .tc .vmem S1x4096 .f32 := Memref.whole cc0_scratch0
/-- The views through which the scratch row's and the output block's contents are stated. -/
abbrev VS : View sig .tc .vmem S1x4096 .f32 := scM.view
abbrev VO : View sig .tc .vmem S1x4096 .bf16 := (Memref.whole cc0_stg4_0 : Memref sig .tc .vmem S1x4096 .bf16).view

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Not at a last step: the output window is idle and its block is not written back. -/
theorem idle4 : ∀ t : Fin cfg0.N, ¬isLast (grid0.coords t) → cfg0.idle 4 (grid0.coords t) = true := by decide +kernel
theorem noFlush4 : ∀ t : Fin cfg0.N, ¬isLast (grid0.coords t) → (cfg0.win 4).flush t = false := by decide +kernel
/-- At a last step it is live. -/
theorem live4 : ∀ t : Fin cfg0.N, isLast (grid0.coords t) → cfg0.idle 4 (grid0.coords t) = false := by decide +kernel

/-! ## The pieces cover, and what they leave -/

variable (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole)

theorem firstCover (hc0 : isFirst i) (hc1 : ¬isLast i) (x2 : Vec F S1x1 .f32) (x3 : Vec F S1x1 .f32) (x4 : Vec F S1x2048 .bf16) (x5 : Vec F S2048x4096 .bf16) (y : S1x4096.Idx) :
    ∃ pc ∈ (firstRun c i arg2 harg2 arg3 harg3 arg4 harg4 arg5 harg5 arg6 harg6 arg7 harg7 hc0 hc1 x2 x3 x4 x5).1, y ∈ pc.1.set :=
  View.cover_of_tiledL (firstRun c i arg2 harg2 arg3 harg3 arg4 harg4 arg5 harg5 arg6 harg6 arg7 harg7 hc0 hc1 x2 x3 x4 x5).1 S1x4096.size (by sl_kernel_rfl) y

/-- The scratch row after a first step: zeros plus the block's product, as the run's pieces read back. -/
def firstAcc (hc0 : isFirst i) (hc1 : ¬isLast i) (x2 : Vec F S1x1 .f32) (x3 : Vec F S1x1 .f32) (x4 : Vec F S1x2048 .bf16) (x5 : Vec F S2048x4096 .bf16) : Vec F S1x4096 .f32 :=
  VS.read (Elt F) (VS.writes (Elt F) VS.junk (firstRun c i arg2 harg2 arg3 harg3 arg4 harg4 arg5 harg5 arg6 harg6 arg7 harg7 hc0 hc1 x2 x3 x4 x5).1)

theorem midCover (hc0 : ¬isFirst i) (hc1 : ¬isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (midRun c i arg2 harg2 arg3 harg3 arg4 harg4 arg5 harg5 arg6 harg6 arg7 harg7 hc0 hc1 x2 x3 x4 x5 xs).1, y ∈ pc.1.set :=
  View.cover_of_tiledL (midRun c i arg2 harg2 arg3 harg3 arg4 harg4 arg5 harg5 arg6 harg6 arg7 harg7 hc0 hc1 x2 x3 x4 x5 xs).1 S1x4096.size (by sl_kernel_rfl) y

/-- The scratch row after a middle step: what the step before left plus the block's product. -/
def midAcc (hc0 : ¬isFirst i) (hc1 : ¬isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (midRun c i arg2 harg2 arg3 harg3 arg4 harg4 arg5 harg5 arg6 harg6 arg7 harg7 hc0 hc1 x2 x3 x4 x5 xs).1)

theorem lastCoverS (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).2.1, y ∈ pc.1.set :=
  View.cover_of_tiledL (lastRun c i arg2 harg2 arg3 harg3 arg4 harg4 arg5 harg5 arg6 harg6 arg7 harg7 hc0 hc1 x2 x3 x4 x5 xs).2.1 S1x4096.size (by sl_kernel_rfl) y

theorem lastCoverO (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).1, y ∈ pc.1.set :=
  View.cover_of_tiledL (lastRun c i arg2 harg2 arg3 harg3 arg4 harg4 arg5 harg5 arg6 harg6 arg7 harg7 hc0 hc1 x2 x3 x4 x5 xs).1 S1x4096.size (by sl_kernel_rfl) y

/-- The scratch row after a last step: what the step before left plus the last block's product. -/
def lastAcc (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (lastRun c i arg2 harg2 arg3 harg3 arg4 harg4 arg5 harg5 arg6 harg6 arg7 harg7 hc0 hc1 x2 x3 x4 x5 xs).2.1)

/-- The output block after a last step: (the finished row + bias) · scale in the output's format. -/
def lastOut (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .bf16 :=
  VO.read (Elt F) (VO.writes (Elt F) VO.junk (lastRun c i arg2 harg2 arg3 harg3 arg4 harg4 arg5 harg5 arg6 harg6 arg7 harg7 hc0 hc1 x2 x3 x4 x5 xs).1)

end Cert.Kernel.Layer1

end
-- ==== Proof.WLayer1Data.lean ====
/- The first layer's kernel, point by point. The 32 grid points run in groups of eight reduction steps; within a group
   the scratch row holds, after step k, the sum of the products of the first k + 1 blocks (zeros plus the first
   product after the first step, the previous row plus the next product afterwards), and at the group's last step the
   output block is stored from the finished row. This module states that recursion, the invariant carrying the scratch
   row from one point to the next, what each input's staging buffer holds when the body runs (its block of the array,
   fetched at that point or not), and the body's obligation at every point. -/
import proofs.«169360_j54606214201548_2_alg».proof.Proof.WLayer1Pieces
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, on each core
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The scratch row after each point -/

/-- The scratch row after the body at position `n`: at a group's first step zeros plus the block's product, otherwise
    what position `n - 1` left plus the block's product. -/
def accAt (c : Dev nD) : (n : ℕ) → n < cfg0.N → Vec F S1x4096 .f32
  | 0, hn => firstAcc c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 8 = 0 then
      firstAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩)
    else if h1 : (n + 1) % 8 = 7 then
      lastAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      midAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_first (c : Dev nD) (t : Fin cfg0.N) (h0 : t.val % 8 = 0) (h1 : ¬t.val % 8 = 7) :
    accAt V c t.val t.isLt = firstAcc c (grid0.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t) := by
  obtain ⟨n, hn⟩ := t
  cases n with
  | zero => exact rfl
  | succ n => exact (dif_pos h0).trans rfl

theorem accAt_mid (c : Dev nD) (t : Fin cfg0.N) (h0 : ¬t.val % 8 = 0) (h1 : ¬t.val % 8 = 7) :
    accAt V c t.val t.isLt = midAcc c (grid0.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = lastAcc c (grid0.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: at a group's last step, (finished row + bias) · scale; elsewhere the
    window is idle and this value is never consulted. -/
def outAt (c : Dev nD) (t : Fin cfg0.N) : Vec F S1x4096 .bf16 :=
  if h1 : t.val % 8 = 7 then
    lastOut c (grid0.coords t) (ms0 t) (hs0 t) (ms1 t) (hs1 t) (ms2 t) (hs2 t) (ms3 t) (hs3 t) (ms4 t) (hs4 t) scM (Memref.isWhole_whole _) (fun h => (fun h => by omega) ((isFirst_iff t).mp h)) ((isLast_iff t).mpr h1) (iblk V c 0 t) (iblk V c 1 t) (iblk V c 2 t) (iblk V c 3 t) (accAt V c (t.val - 1) (Nat.lt_of_le_of_lt (Nat.sub_le _ _) t.isLt))
  else VO.read (Elt F) VO.junk

/-! ## The invariant between points -/

/-- The core's other scoped buffers (the second layer's staging buffers and scratch row), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch row split off as an owned memref. -/
theorem PhiA_eq (c : Dev nD) :
    (Pipeline.ΦA spec0 c : sProp 𝕄) = iprop(iprop((∃ d, owns (c : Thread nD τ) scM fullShare d) ∗ others c) ∗ (∃ r, prngReg c r)) := by
  unfold Pipeline.ΦA others; rw [scopedRest0_eq]; simp only [scM, owns_whole]; try rfl

/-- Before position `n`: before the first point every scoped buffer holds anything; afterwards the scratch row holds what
    the point before left, the other scoped buffers anything, the generator register any state. -/
def PhiS (c : Dev nD) : (n : ℕ) → n ≤ cfg0.N → sProp 𝕄
  | 0, _ => Pipeline.ΦA spec0 c
  | n + 1, hn => iprop(iprop(owns (c : Thread nD τ) scM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ others c) ∗ (∃ r, prngReg c r)) := by
  cases n with
  | zero => exact absurd rfl hz
  | succ n => rfl

/-! ## The proof data -/

/-- On core `c`: the arrays as the region finds them; after the body each input's buffer at its block, the output's at
    `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outAt V c t := by dsimp only [dat]

/-- Each input's current staging buffer holds its block at every point, fetched there or not: unfetched, the block
    index has not moved since the fetch. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Layer1

end
-- ==== Proof.WLayer1Body.lean ====
/- The first layer's kernel body meets the pipeline's obligation at every grid point: the point is a first, a middle or
   a last reduction step (its position modulo 8 is 0, in 1..6, or 7); the inputs' staging buffers hold their blocks; the
   invariant hands over the scratch row at what the point before left (at anything before the very first point); that
   step's run applies; and the row comes back at this point's sum, the output block untouched when idle and at
   (finished row + bias) · scale at a last step. Entering, the class invariant (every scoped buffer at anything) is the
   invariant before the first point; leaving, the row's contents are forgotten again. -/
import proofs.«169360_j54606214201548_2_alg».proof.Proof.WLayer1Data
import Idealize.ShloMosaic.Lib.Pipeline.FrameBody
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [accAt_first V c t h0 h1]
    unfold firstAcc; (try dsimp only)
    by_cases hz : t.val = 0
    · rw [Phi_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((firstRun c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (firstCover c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((firstRun c (grid0.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (firstCover c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat V c).leavesExact 4 t = owns (c : Thread nD τ) (ms4 t) fullShare ((dat V c).after 4 t) from by
        unfold Dat.leavesExact; rw [live4 t ((isLast_iff t).mpr h1)], after4]
      rw [accAt_last V c t h0 h1]
      unfold outAt; rw [dif_pos h1]
      unfold lastAcc lastOut; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((lastRun c (grid0.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (lastCoverS c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (lastCoverO c _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [accAt_mid V c t h0 h1]
      unfold midAcc; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((midRun c (grid0.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (midCover c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- Entering the region: every scoped buffer at anything is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the scratch row's contents forgotten. -/
theorem phi_forget (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem phi_out (c : Dev nD) : (dat V c).Φ (Fin.last cfg0.N) ⊢ Pipeline.ΦA spec0 c :=
  phi_forget V c _ (by rw [Fin.val_last]; have : cfg0.N = 32 := N_0; omega)

end Cert.Kernel.Layer1

end
-- ==== Proof.WLayer2Conds.lean ====
/- The two conditions the second layer's kernel body branches on, as functions of the grid position (i, k) of the
   4 × 8 grid: "k is the first reduction step" (the scratch row is zeroed) and "k is the last" (the scratch row, plus
   the bias, times the scale, is stored to the output block). -/
import proofs.«169360_j54606214201548_2_alg».proof.Proof.Gen.Kernel.Launch
import proofs.«169360_j54606214201548_2_alg».proof.Proof.Gen.Kernel.Skeleton
import proofs.«169360_j54606214201548_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first one: the body's first branch, from the grid coordinates. -/
abbrev isFirst (i : grid1.Coords) : Prop :=
  (Scalar.cmpi .ne (Scalar.extui (Scalar.cmpi .eq (BitVec.ofNat 32 (i 1).val) 0#32)) 0#32) = 1#1
/-- It holds exactly at the points whose position is 0 modulo 8 (the reduction axis is the inner one, of extent 8). -/
theorem isFirst_iff : ∀ t : Fin cfg1.N, isFirst (grid1.coords t) ↔ t.val % 8 = 0 :=
  (by decide +kernel : ∀ t : Fin grid1.N, isFirst (grid1.coords t) ↔ t.val % 8 = 0)

/-- The reduction step is the last one: the body's second branch. -/
abbrev isLast (i : grid1.Coords) : Prop := k1_cond2 i = 1#1
/-- It holds exactly at the points whose position is 7 modulo 8. -/
theorem isLast_iff : ∀ t : Fin cfg1.N, isLast (grid1.coords t) ↔ t.val % 8 = 7 :=
  (by decide +kernel : ∀ t : Fin grid1.N, isLast (grid1.coords t) ↔ t.val % 8 = 7)

end Cert.Kernel.Layer2

end
-- ==== Proof.WLayer2Mid.lean ====
/- A middle reduction step of the second layer's kernel body (neither branch taken): the scratch row, found at what the
   step before left, is read, the product of the 1 × 2048 slice of the vector with the 2048 × 4096 block of the matrix
   is added to it, and the sum is stored back over the whole row; the four input blocks and the output block are left
   as found. -/
import proofs.«169360_j54606214201548_2_alg».proof.Proof.WLayer2Conds
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a middle step, with the run: on whole memrefs — the inputs at their
    contents, the output block at any contents handed back untouched, the scratch row at the contents the step before
    left — the body runs to a continuation holding the inputs and the output block as they were and the scratch row
    with those pieces written. -/
noncomputable def midRun (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : ¬isLast i)
    (x2 : Vec F S1x1 .f32) (x3 : Vec F S1x1 .f32) (x4 : Vec F S1x2048 .bf16) (x5 : Vec F S2048x4096 .bf16) (xs : Vec F S1x4096 .f32) :
    { LS : List (View.Piece (Elt F) S1x4096 .f32) //
      ∀ (xi : Vec F S1x4096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__vecmat_kernel i arg2 harg2 arg3 harg3 arg4 harg4 arg5 harg5 arg6 harg6 arg7 harg7) K } := by
  refine ⟨?_, fun xi E K => ?run⟩
  case run =>
    simp only [cc1__vecmat_kernel_eq_skeleton]; unfold cc1__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Layer2

end
-- ==== Proof.WLayer2First.lean ====
/- The first reduction step of the second layer's kernel body (first branch taken, second not): the scratch row, holding
   anything, is overwritten with zeros, read back, the product of the vector's 1 × 2048 slice with the matrix's
   2048 × 4096 block is added, and the sum is stored back over the whole row; the four input blocks and the output
   block are left as found. -/
import proofs.«169360_j54606214201548_2_alg».proof.Proof.WLayer2Conds
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the scratch row ends with at a first step, with the run: on whole memrefs — the inputs at their
    contents, the output block at any contents handed back untouched, the scratch row at anything — the body runs to a
    continuation holding the inputs and the output block as they were and the scratch row with those pieces written. -/
noncomputable def firstRun (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : isFirst i) (hc1 : ¬isLast i)
    (x2 : Vec F S1x1 .f32) (x3 : Vec F S1x1 .f32) (x4 : Vec F S1x2048 .bf16) (x5 : Vec F S2048x4096 .bf16) :
    { LS : List (View.Piece (Elt F) S1x4096 .f32) //
      ∀ (xi : Vec F S1x4096 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__vecmat_kernel i arg2 harg2 arg3 harg3 arg4 harg4 arg5 harg5 arg6 harg6 arg7 harg7) K } := by
  refine ⟨?_, fun xi E K => ?run⟩
  case run =>
    simp only [cc1__vecmat_kernel_eq_skeleton]; unfold cc1__vecmat_kernel_skel
    unfold owns
    iintro ⟨⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Layer2

end
-- ==== Proof.WLayer2Last.lean ====
/- The last reduction step of the second layer's kernel body (first branch not taken, second taken): the scratch row,
   found at what the step before left, gets the last block's product added and is stored back; then the bias and the
   scale are read from their 1 × 1 blocks, the scratch row is read again, and (row + bias) · scale, in the output's
   format, is stored over the whole output block, which held anything. The four input blocks are left as found. -/
import proofs.«169360_j54606214201548_2_alg».proof.Proof.WLayer2Conds
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output block and the scratch row end with at a last step, with the run: on whole memrefs — the
    inputs at their contents, the output block at anything, the scratch row at the contents the step before left — the
    body runs to a continuation holding the inputs as they were and the output block and the scratch row with those
    pieces written. -/
noncomputable def lastRun (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : isLast i)
    (x2 : Vec F S1x1 .f32) (x3 : Vec F S1x1 .f32) (x4 : Vec F S1x2048 .bf16) (x5 : Vec F S2048x4096 .bf16) (xs : Vec F S1x4096 .f32) :
    Σ' (LO : List (View.Piece (Elt F) S1x4096 .f32)), { LS : List (View.Piece (Elt F) S1x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__vecmat_kernel i arg2 harg2 arg3 harg3 arg4 harg4 arg5 harg5 arg6 harg6 arg7 harg7) K } := by
  refine ⟨?_, ?_, fun E K => ?run⟩
  case run =>
    simp only [cc1__vecmat_kernel_eq_skeleton]; unfold cc1__vecmat_kernel_skel
    unfold owns
    iintro ⟨⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf2; obtain rfl := harg3.eq_unread hf3; obtain rfl := harg4.eq_unread hf4
    obtain rfl := harg5.eq_unread hf5; obtain rfl := harg7.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Cert.Kernel.Layer2

end
-- ==== Proof.WLayer2Pieces.lean ====
/- What each kind of reduction step of the second layer's kernel leaves in the scratch row and in the output block:
   the stores each run found tile the whole 1 × 4096 row, so the row afterwards is those pieces read back, whatever it
   held before. Beside that, decided over the 32 grid points: the output window is idle (not stored into, not written
   back) at every step but the last of each group of eight, and live at the last. -/
import proofs.«169360_j54606214201548_2_alg».proof.Proof.WLayer2Mid
import proofs.«169360_j54606214201548_2_alg».proof.Proof.WLayer2First
import proofs.«169360_j54606214201548_2_alg».proof.Proof.WLayer2Last
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the pipeline passes the body at a point -/

abbrev ms0 (t : Fin cfg1.N) : Memref sig .tc .vmem S1x1 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x4096 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x4096 .f32 := win1_4.stage (cfg1.slots t 4)
abbrev hs4 (t : Fin cfg1.N) : (ms4 t).IsWhole := hstage1_4 ((cfg1.slots t 4).cast nbuf1_4)
/-- The scratch row: a whole scoped buffer of the kernel's own. -/
abbrev scM : Memref sig .tc .vmem S1x4096 .f32 := Memref.whole cc1_scratch0
/-- The views through which the scratch row's and the output block's contents are stated. -/
abbrev VS : View sig .tc .vmem S1x4096 .f32 := scM.view
abbrev VO : View sig .tc .vmem S1x4096 .f32 := (Memref.whole cc1_stg4_0 : Memref sig .tc .vmem S1x4096 .f32).view

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Not at a last step: the output window is idle and its block is not written back. -/
theorem idle4 : ∀ t : Fin cfg1.N, ¬isLast (grid1.coords t) → cfg1.idle 4 (grid1.coords t) = true := by decide +kernel
theorem noFlush4 : ∀ t : Fin cfg1.N, ¬isLast (grid1.coords t) → (cfg1.win 4).flush t = false := by decide +kernel
/-- At a last step it is live. -/
theorem live4 : ∀ t : Fin cfg1.N, isLast (grid1.coords t) → cfg1.idle 4 (grid1.coords t) = false := by decide +kernel

/-! ## The pieces cover, and what they leave -/

variable (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole)

theorem firstCover (hc0 : isFirst i) (hc1 : ¬isLast i) (x2 : Vec F S1x1 .f32) (x3 : Vec F S1x1 .f32) (x4 : Vec F S1x2048 .bf16) (x5 : Vec F S2048x4096 .bf16) (y : S1x4096.Idx) :
    ∃ pc ∈ (firstRun c i arg2 harg2 arg3 harg3 arg4 harg4 arg5 harg5 arg6 harg6 arg7 harg7 hc0 hc1 x2 x3 x4 x5).1, y ∈ pc.1.set :=
  View.cover_of_tiledL (firstRun c i arg2 harg2 arg3 harg3 arg4 harg4 arg5 harg5 arg6 harg6 arg7 harg7 hc0 hc1 x2 x3 x4 x5).1 S1x4096.size (by sl_kernel_rfl) y

/-- The scratch row after a first step: zeros plus the block's product, as the run's pieces read back. -/
def firstAcc (hc0 : isFirst i) (hc1 : ¬isLast i) (x2 : Vec F S1x1 .f32) (x3 : Vec F S1x1 .f32) (x4 : Vec F S1x2048 .bf16) (x5 : Vec F S2048x4096 .bf16) : Vec F S1x4096 .f32 :=
  VS.read (Elt F) (VS.writes (Elt F) VS.junk (firstRun c i arg2 harg2 arg3 harg3 arg4 harg4 arg5 harg5 arg6 harg6 arg7 harg7 hc0 hc1 x2 x3 x4 x5).1)

theorem midCover (hc0 : ¬isFirst i) (hc1 : ¬isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (midRun c i arg2 harg2 arg3 harg3 arg4 harg4 arg5 harg5 arg6 harg6 arg7 harg7 hc0 hc1 x2 x3 x4 x5 xs).1, y ∈ pc.1.set :=
  View.cover_of_tiledL (midRun c i arg2 harg2 arg3 harg3 arg4 harg4 arg5 harg5 arg6 harg6 arg7 harg7 hc0 hc1 x2 x3 x4 x5 xs).1 S1x4096.size (by sl_kernel_rfl) y

/-- The scratch row after a middle step: what the step before left plus the block's product. -/
def midAcc (hc0 : ¬isFirst i) (hc1 : ¬isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (midRun c i arg2 harg2 arg3 harg3 arg4 harg4 arg5 harg5 arg6 harg6 arg7 harg7 hc0 hc1 x2 x3 x4 x5 xs).1)

theorem lastCoverS (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).2.1, y ∈ pc.1.set :=
  View.cover_of_tiledL (lastRun c i arg2 harg2 arg3 harg3 arg4 harg4 arg5 harg5 arg6 harg6 arg7 harg7 hc0 hc1 x2 x3 x4 x5 xs).2.1 S1x4096.size (by sl_kernel_rfl) y

theorem lastCoverO (hc0 : ¬isFirst i) (hc1 : isLast i) (x2 : Vec F S1x1 .f32) (x3 : Vec F S1x1 .f32) (x4 : Vec F S1x2048 .bf16) (x5 : Vec F S2048x4096 .bf16) (xs : Vec F S1x4096 .f32) (y : S1x4096.Idx) :
    ∃ pc ∈ (lastRun c i arg2 harg2 arg3 harg3 arg4 harg4 arg5 harg5 arg6 harg6 arg7 harg7 hc0 hc1 x2 x3 x4 x5 xs).1, y ∈ pc.1.set :=
  View.cover_of_tiledL (lastRun c i arg2 harg2 arg3 harg3 arg4 harg4 arg5 harg5 arg6 harg6 arg7 harg7 hc0 hc1 x2 x3 x4 x5 xs).1 S1x4096.size (by sl_kernel_rfl) y

/-- The scratch row after a last step: what the step before left plus the last block's product. -/
def lastAcc (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .f32 :=
  VS.read (Elt F) (VS.writes (Elt F) VS.junk (lastRun c i arg2 harg2 arg3 harg3 arg4 harg4 arg5 harg5 arg6 harg6 arg7 harg7 hc0 hc1 x2 x3 x4 x5 xs).2.1)

/-- The output block after a last step: (the finished row + bias) · scale. -/
def lastOut (hc0 : ¬isFirst i) (hc1 : isLast i) (x2 : Vec F S1x1 .f32) (x3 : Vec F S1x1 .f32) (x4 : Vec F S1x2048 .bf16) (x5 : Vec F S2048x4096 .bf16) (xs : Vec F S1x4096 .f32) : Vec F S1x4096 .f32 :=
  VO.read (Elt F) (VO.writes (Elt F) VO.junk (lastRun c i arg2 harg2 arg3 harg3 arg4 harg4 arg5 harg5 arg6 harg6 arg7 harg7 hc0 hc1 x2 x3 x4 x5 xs).1)

end Cert.Kernel.Layer2

end
-- ==== Proof.WLayer2Data.lean ====
/- The second layer's kernel, point by point. The 32 grid points run in groups of eight reduction steps; within a group
   the scratch row holds, after step k, the sum of the products of the first k + 1 blocks (zeros plus the first
   product after the first step, the previous row plus the next product afterwards), and at the group's last step the
   output block is stored from the finished row. This module states that recursion, the invariant carrying the scratch
   row from one point to the next, what each input's staging buffer holds when the body runs (its block of the array,
   fetched at that point or not), and the body's obligation at every point. -/
import proofs.«169360_j54606214201548_2_alg».proof.Proof.WLayer2Pieces
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, on each core
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch row after each point -/

/-- The scratch row after the body at position `n`: at a group's first step zeros plus the block's product, otherwise
    what position `n - 1` left plus the block's product. -/
def accAt (c : Dev nD) : (n : ℕ) → n < cfg1.N → Vec F S1x4096 .f32
  | 0, hn => firstAcc c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 8 = 0 then
      firstAcc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩)
    else if h1 : (n + 1) % 8 = 7 then
      lastAcc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      midAcc c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (accAt c n (Nat.lt_of_succ_lt hn))

theorem accAt_first (c : Dev nD) (t : Fin cfg1.N) (h0 : t.val % 8 = 0) (h1 : ¬t.val % 8 = 7) :
    accAt V c t.val t.isLt = firstAcc c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t) := by
  obtain ⟨n, hn⟩ := t
  cases n with
  | zero => exact rfl
  | succ n => exact (dif_pos h0).trans rfl

theorem accAt_mid (c : Dev nD) (t : Fin cfg1.N) (h0 : ¬t.val % 8 = 0) (h1 : ¬t.val % 8 = 7) :
    accAt V c t.val t.isLt = midAcc c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 8 = 0) (h1 : t.val % 8 = 7) :
    accAt V c t.val t.isLt = lastAcc c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: at a group's last step, (finished row + bias) · scale; elsewhere the
    window is idle and this value is never consulted. -/
def outAt (c : Dev nD) (t : Fin cfg1.N) : Vec F S1x4096 .f32 :=
  if h1 : t.val % 8 = 7 then
    lastOut c (grid1.coords t) (ms0 t) (hs0 t) (ms1 t) (hs1 t) (ms2 t) (hs2 t) (ms3 t) (hs3 t) (ms4 t) (hs4 t) scM (Memref.isWhole_whole _) (fun h => (fun h => by omega) ((isFirst_iff t).mp h)) ((isLast_iff t).mpr h1) (iblk V c 0 t) (iblk V c 1 t) (iblk V c 2 t) (iblk V c 3 t) (accAt V c (t.val - 1) (Nat.lt_of_le_of_lt (Nat.sub_le _ _) t.isLt))
  else VO.read (Elt F) VO.junk

/-! ## The invariant between points -/

/-- The core's other scoped buffers (the first layer's staging buffers and scratch row), each at some contents, around
    what is said of this layer's scratch row (which comes last among the core's scoped buffers). -/
def others (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ X)

/-- The class invariant with the scratch row split off as an owned memref. -/
theorem PhiA_eq (c : Dev nD) :
    (Pipeline.ΦA spec1 c : sProp 𝕄) = iprop(others c (iprop(∃ d, owns (c : Thread nD τ) scM fullShare d)) ∗ (∃ r, prngReg c r)) := by
  unfold Pipeline.ΦA others; rw [scopedRest1_eq]; simp only [scM, owns_whole]; try rfl

/-- Before position `n`: before the first point every scoped buffer holds anything; afterwards the scratch row holds what
    the point before left, the other scoped buffers anything, the generator register any state. -/
def PhiS (c : Dev nD) : (n : ℕ) → n ≤ cfg1.N → sProp 𝕄
  | 0, _ => Pipeline.ΦA spec1 c
  | n + 1, hn => iprop(others c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(others c (owns (c : Thread nD τ) scM fullShare (accAt V c (n - 1) (by omega))) ∗ (∃ r, prngReg c r)) := by
  cases n with
  | zero => exact absurd rfl hz
  | succ n => rfl

/-! ## The proof data -/

/-- On core `c`: the arrays as the region finds them; after the body each input's buffer at its block, the output's at
    `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outAt V c t := by dsimp only [dat]

/-- Each input's current staging buffer holds its block at every point, fetched there or not: unfetched, the block
    index has not moved since the fetch. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Layer2

end
-- ==== Proof.WLayer2Body.lean ====
/- The second layer's kernel body meets the pipeline's obligation at every grid point: the point is a first, a middle or
   a last reduction step (its position modulo 8 is 0, in 1..6, or 7); the inputs' staging buffers hold their blocks; the
   invariant hands over the scratch row at what the point before left (at anything before the very first point); that
   step's run applies; and the row comes back at this point's sum, the output block untouched when idle and at
   (finished row + bias) · scale at a last step. Entering, the class invariant (every scoped buffer at anything) is the
   invariant before the first point; leaving, the row's contents are forgotten again. -/
import proofs.«169360_j54606214201548_2_alg».proof.Proof.WLayer2Data
import Idealize.ShloMosaic.Lib.Pipeline.FrameBody
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 8 = 0
  · have h1 : ¬t.val % 8 = 7 := by omega
    rw [Dat.leavesExact_idle (dat V c) 4 t (idle4 t (fun h => h1 ((isLast_iff t).mp h))) (noFlush4 t (fun h => h1 ((isLast_iff t).mp h)))]
    rw [accAt_first V c t h0 h1]
    unfold firstAcc; (try dsimp only)
    by_cases hz : t.val = 0
    · rw [Phi_castSucc V c t, PhiS_zero V c _ _ hz, PhiA_eq]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((firstRun c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (firstCover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((firstRun c (grid1.coords t) _ _ _ _ _ _ _ _ _ _ _ _ ((isFirst_iff t).mpr h0) (fun h => h1 ((isLast_iff t).mp h)) (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (firstCover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat V c).leavesExact 4 t = owns (c : Thread nD τ) (ms4 t) fullShare ((dat V c).after 4 t) from by
        unfold Dat.leavesExact; rw [live4 t ((isLast_iff t).mpr h1)], after4]
      rw [accAt_last V c t h0 h1]
      unfold outAt; rw [dif_pos h1]
      unfold lastAcc lastOut; (try dsimp only)
      rw [Phi_castSucc V c t, PhiS_pos V c _ _ hz]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((lastRun c (grid1.coords t) _ _ _ _ _ _ _ _ _ _ _ _ (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (lastCoverS c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (lastCoverO c _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [accAt_mid V c t h0 h1]
      unfold midAcc; (try dsimp only)
      rw [Phi_castSucc V c t, PhiS_pos V c _ _ hz]
      unfold others
      iintro ⟨⟨⟨Hq1, Hq2, Hq3, Hq4, Hq5, Hq6, Hq7, Hq8, Hq9, HS⟩, Hg⟩, Ho, ⟨%d0, H0⟩, ⟨%d1, H1⟩, ⟨%d2, H2⟩, ⟨%d3, H3⟩, ⟨%d4, H4⟩⟩
      iapply ((midRun c (grid1.coords t) _ _ _ _ _ _ _ _ _ _ _ _ (fun h => h0 ((isFirst_iff t).mp h)) (fun h => h1 ((isLast_iff t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hq1 Hq2 Hq3 Hq4 Hq5 Hq6 Hq7 Hq8 Hq9 Hg]
      · isplitl [HS Hq1 Hq2 Hq3 Hq4 Hq5 Hq6 Hq7 Hq8 Hq9]
        · isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS
          ipureintro; exact View.read_writes_of_cover _ _ _ _ _ (midCover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- Entering the region: every scoped buffer at anything is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the scratch row's contents forgotten. -/
theorem phi_forget (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold others
  iintro ⟨⟨Hq1, Hq2, Hq3, Hq4, Hq5, Hq6, Hq7, Hq8, Hq9, HS⟩, Hg⟩
  isplitl [HS Hq1 Hq2 Hq3 Hq4 Hq5 Hq6 Hq7 Hq8 Hq9]
  · isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS
  iexact Hg

theorem phi_out (c : Dev nD) : (dat V c).Φ (Fin.last cfg1.N) ⊢ Pipeline.ΦA spec1 c :=
  phi_forget V c _ (by rw [Fin.val_last]; have : cfg1.N = 32 := N_1; omega)

end Cert.Kernel.Layer2

end
-- ==== Proof.WKernelRun.lean ====
/- The kernel program's run, as printed,, from the launch to the return. @main is seven items: three stretches of host
   operations (the graph normalisation, the dense adjacency and the first vector), the first layer's region, a stretch
   (the second layer's bias and unit scale), the second layer's region, and a last stretch (the result's reshape and the
   zero). Between two items every unscoped buffer of the core is held at named contents: the launch memory, then each
   stretch's operations applied, then after a region its arrays at what the pipeline leaves (inputs as entered, the
   output with its blocks written back) and every other buffer as entered. Every weakly fair execution terminates and
   ends with every unscoped buffer at the last of these contents; the arguments are among them and no item changes one. -/
import proofs.«169360_j54606214201548_2_alg».proof.Proof.WLayer1Body
import proofs.«169360_j54606214201548_2_alg».proof.Proof.WLayer2Body
import proofs.«169360_j54606214201548_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first, second and third stretches of host operations (the first layer's region is entered from the third). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the first layer's region: its arrays at what the pipeline leaves, every other buffer as entered. -/
def W4 (c : Dev nD) : Valuation τ sig (Elt F) :=
  Pipeline.withArrays spec0 c (W3 m ρ c) fun w => (Layer1.dat (V3 m ρ) c).arrAt w cfg0.N
theorem W4_arr (c : Dev nD) (w : Fin cfg0.W) :
    W4 m ρ c (Proc.devRef .tc (Pipeline.arrRef spec0 w)) = (Layer1.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Layer1.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the stretch between the regions (the second layer's region is entered from it). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After the second layer's region. -/
def W6 (c : Dev nD) : Valuation τ sig (Elt F) :=
  Pipeline.withArrays spec1 c (W5 m ρ c) fun w => (Layer2.dat (V5 m ρ) c).arrAt w cfg1.N
theorem W6_arr (c : Dev nD) (w : Fin cfg1.W) :
    W6 m ρ c (Proc.devRef .tc (Pipeline.arrRef spec1 w)) = (Layer2.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Layer2.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- At the return. -/
abbrev W7 : Dev nD → Valuation τ sig (Elt F) := fun c => StableHlo.after hostOps2 (W6 m ρ c)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Layer1.dat (V3 m ρ) c
  | ⟨1, _⟩ => fun c => Layer2.dat (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as items -/

set_option backward.isDefEq.respectTransparency.types false in
/-- The first layer's region over the thread state "every unscoped buffer at its contents": entered from the contents
    before it, left at those contents with the region's arrays at what the pipeline leaves. The arrays are split out of
    the unscoped buffers and put back; the generator register and the scoped buffers go into the class invariant,
    which is the tracked invariant before the first point, and come back when the scratch row is forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Layer1.phi_in (V3 m ρ) c)
    unfold Pipeline.ΦA
    iintro ⟨Hp, -, Hr⟩
    isplitl [Hr]; · iexact Hr
    iexact Hp
  hout c := by
    rw [Pipeline.ownSems0_none]
    refine .trans (Layer1.phi_out (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state "every unscoped buffer at its contents": entered from the contents
    before it, left at those contents with the region's arrays at what the pipeline leaves. The arrays are split out of
    the unscoped buffers and put back; the generator register and the scoped buffers go into the class invariant,
    which is the tracked invariant before the first point, and come back when the scratch row is forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Layer2.phi_in (V5 m ρ) c)
    unfold Pipeline.ΦA
    iintro ⟨Hp, -, Hr⟩
    isplitl [Hr]; · iexact Hr
    iexact Hp
  hout c := by
    rw [Pipeline.ownSems0_none]
    refine .trans (Layer2.phi_out (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- Every weakly fair execution of @main from a memory with zero counters terminates, nothing faulting, and every final
    state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Run

end
-- ==== Proof.WKernelFrame.lean ====
/- The kernel program as printed leaves every argument array as launched: at the return every unscoped buffer holds the
   last boundary's contents, and an argument's buffer walks back through the seven items unchanged — no stretch of host
   operations writes an argument, the regions may change only their output arrays, and the one argument that is a
   window's array (the first layer's scale) is an input window's, which the pipeline leaves as entered. -/
import proofs.«169360_j54606214201548_2_alg».proof.Proof.WKernelRun

set_option maxRecDepth 16384

noncomputable section

namespace Cert.Kernel.Run

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide : main_arg0 ∉ hostOps2_W)
    _ = W5 m ρ c (Proc.devRef .tc main_arg0) := W6_of_ne m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide : main_arg1 ∉ hostOps2_W)
    _ = W5 m ρ c (Proc.devRef .tc main_arg1) := W6_of_ne m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide : main_arg2 ∉ hostOps2_W)
    _ = W5 m ρ c (Proc.devRef .tc main_arg2) := W6_of_ne m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide : main_arg3 ∉ hostOps2_W)
    _ = W5 m ρ c (Proc.devRef .tc main_arg3) := W6_of_ne m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (by decide : main_arg4 ∉ hostOps2_W)
    _ = W5 m ρ c (Proc.devRef .tc main_arg4) := W6_of_ne m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (by decide : main_arg5 ∉ hostOps2_W)
    _ = W5 m ρ c (Proc.devRef .tc main_arg5) := W6_of_ne m ρ c main_arg5 (by decide)
    _ = W4 m ρ c (Proc.devRef .tc main_arg5) := StableHlo.after_of_writes_sub hostOps1 _ hostOps1_writes (by decide : main_arg5 ∉ hostOps1_W)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2 _ hostOps2_writes (by decide : main_arg7 ∉ hostOps2_W)
    _ = W5 m ρ c (Proc.devRef .tc main_arg7) := W6_of_ne m ρ c main_arg7 (by decide)
    _ = W4 m ρ c (Proc.devRef .tc main_arg7) := StableHlo.after_of_writes_sub hostOps1 _ hostOps1_writes (by decide : main_arg7 ∉ hostOps1_W)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide : main_arg7 ∉ hostOps0_2_W)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2 _ hostOps2_writes (by decide : main_arg6 ∉ hostOps2_W)
    _ = W5 m ρ c (Proc.devRef .tc main_arg6) := W6_of_ne m ρ c main_arg6 (by decide)
    _ = W4 m ρ c (Proc.devRef .tc main_arg6) := StableHlo.after_of_writes_sub hostOps1 _ hostOps1_writes (by decide : main_arg6 ∉ hostOps1_W)
    _ = W3 m ρ c (Proc.devRef .tc main_arg6) := (W4_arr m ρ c 1).trans (((Layer1.dat (V3 m ρ) c).arrAt_in 1 rfl _).trans (Layer1.A_eq (V3 m ρ) c 1))
    _ = W2 m ρ c (Proc.devRef .tc main_arg6) := StableHlo.after_of_writes_sub hostOps0_2 _ hostOps0_2_writes (by decide : main_arg6 ∉ hostOps0_2_W)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

/-- The frame: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.Kernel.Run

end
-- ==== Proof.Layer1Value.lean ====
/- The first layer's kernel, step by step, as values. Each kind of reduction step leaves in the scratch row (and, at a
   group's last step, in the output block) the body's arithmetic of what it loaded; so the scratch row after each grid
   point is a running sum of block products, and the output block a group's last step stores is the epilogue of the
   finished row. -/
import proofs.«169360_j54606214201548_2_alg».proof.Proof.Layer1Data
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-row rectangle, as the constant function the library's whole-buffer lemmas ask for. -/
theorem hz : (![0, 0] : Fin 2 → Nat) = fun _ => 0 := funext fun a => by fin_cases a <;> rfl

/-! ## What each kind of step leaves, as values of the body's arithmetic -/

/-- A middle step leaves in the scratch row the row it found plus the product of the vector's slice with the matrix's
    block: its one store covers the row, and its loads read the whole buffers. -/
theorem midAcc_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : ¬isLast i) (x2 : Vec F S1x1 .f32) (x3 : Vec F S1x1 .f32) (x4 : Vec F S1x2048 .bf16) (x5 : Vec F S2048x4096 .bf16) (xs : Vec F S1x4096 .f32) :
    midAcc c i arg2 harg2 arg3 harg3 arg4 harg4 arg5 harg5 arg6 harg6 arg7 harg7 hc0 hc1 x2 x3 x4 x5 xs = k0_pay2 xs x4 x5 := by
  unfold midAcc
  rw [View.read_writes_eq_canon _ _ _ (midCover c i arg2 harg2 arg3 harg3 arg4 harg4 arg5 harg5 arg6 harg6 arg7 harg7 hc0 hc1 x2 x3 x4 x5 xs)]
  unfold midRun
  dsimp only
  rw [View.canon_unit_zero hz]
  simp only [View.readAt_eq_ld, harg7.read_unread, harg4.read_unread, harg5.read_unread, View.ld_unit_zero (S := S1x4096) hz, View.ld_unit_zero (S := S1x2048) hz, View.ld_unit_zero (S := S2048x4096) hz]

/-- A first step stores the zero row, reads it back, and leaves zeros plus the block's product: the later store
    covers the row, and the row it adds to is the earlier store's payload read back. -/
theorem firstAcc_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : isFirst i) (hc1 : ¬isLast i) (x2 : Vec F S1x1 .f32) (x3 : Vec F S1x1 .f32) (x4 : Vec F S1x2048 .bf16) (x5 : Vec F S2048x4096 .bf16) :
    firstAcc c i arg2 harg2 arg3 harg3 arg4 harg4 arg5 harg5 arg6 harg6 arg7 harg7 hc0 hc1 x2 x3 x4 x5 = k0_pay2 k0_pay1 x4 x5 := by
  unfold firstAcc
  rw [View.read_writes_eq_canon _ _ _ (firstCover c i arg2 harg2 arg3 harg3 arg4 harg4 arg5 harg5 arg6 harg6 arg7 harg7 hc0 hc1 x2 x3 x4 x5)]
  unfold firstRun
  dsimp only
  sl_unfold_words
  rw [View.canon_cons_unit_zero (S := S1x4096) hz, View.readCov_unit_zero (S := S1x4096) _ hz]
  simp only [View.readAt_eq_ld, harg4.read_unread, harg5.read_unread, View.ld_unit_zero (S := S1x2048) hz, View.ld_unit_zero (S := S2048x4096) hz]

/-- A last step leaves in the scratch row the same sum as a middle step. -/
theorem lastAcc_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : isLast i) (x2 : Vec F S1x1 .f32) (x3 : Vec F S1x1 .f32) (x4 : Vec F S1x2048 .bf16) (x5 : Vec F S2048x4096 .bf16) (xs : Vec F S1x4096 .f32) :
    lastAcc c i arg2 harg2 arg3 harg3 arg4 harg4 arg5 harg5 arg6 harg6 arg7 harg7 hc0 hc1 x2 x3 x4 x5 xs = k0_pay2 xs x4 x5 := by
  unfold lastAcc
  rw [View.read_writes_eq_canon _ _ _ (lastCoverS c i arg2 harg2 arg3 harg3 arg4 harg4 arg5 harg5 arg6 harg6 arg7 harg7 hc0 hc1 x2 x3 x4 x5 xs)]
  unfold lastRun
  dsimp only
  sl_unfold_words
  rw [View.canon_unit_zero hz]
  simp only [View.readAt_eq_ld, harg7.read_unread, harg4.read_unread, harg5.read_unread, View.ld_unit_zero (S := S1x4096) hz, View.ld_unit_zero (S := S1x2048) hz, View.ld_unit_zero (S := S2048x4096) hz]

/-- … and in the output block (the finished row + bias) · scale, the finished row being the scratch row's store read
    back. -/
theorem lastOut_eq (c : Dev nD) (i : grid0.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .bf16) (harg6 : arg6.IsWhole) (arg7 : Memref sig .tc .vmem S1x4096 .f32) (harg7 : arg7.IsWhole) (hc0 : ¬isFirst i) (hc1 : isLast i) (x2 : Vec F S1x1 .f32) (x3 : Vec F S1x1 .f32) (x4 : Vec F S1x2048 .bf16) (x5 : Vec F S2048x4096 .bf16) (xs : Vec F S1x4096 .f32) :
    lastOut c i arg2 harg2 arg3 harg3 arg4 harg4 arg5 harg5 arg6 harg6 arg7 harg7 hc0 hc1 x2 x3 x4 x5 xs = k0_pay3 x2 x3 (k0_pay2 xs x4 x5) := by
  unfold lastOut
  rw [View.read_writes_eq_canon _ _ _ (lastCoverO c i arg2 harg2 arg3 harg3 arg4 harg4 arg5 harg5 arg6 harg6 arg7 harg7 hc0 hc1 x2 x3 x4 x5 xs)]
  unfold lastRun
  dsimp only
  sl_unfold_words
  rw [View.canon_unit_zero hz, View.readCov_unit_zero (S := S1x4096) _ hz]
  simp only [View.readAt_eq_ld, harg2.read_unread, harg3.read_unread, harg7.read_unread, harg4.read_unread, harg5.read_unread, View.ld_unit_zero (S := S1x1) hz, View.ld_unit_zero (S := S1x4096) hz, View.ld_unit_zero (S := S1x2048) hz, View.ld_unit_zero (S := S2048x4096) hz]

/-! ## The scratch row after each point, in the body's arithmetic -/

-- the arrays as the region finds them, on each core
variable (V : (c : Dev nD) → (b : Ref sig .tc) → Buf (Elt F) ((c : Thread nD τ).loc b))

/-- The scratch row after position `n`, as a running sum: at a group's first step the zero row plus the product of the
    vector's slice with the matrix's block at that point, otherwise the row after position `n - 1` plus that product. -/
def rowAfter (c : Dev nD) : (n : ℕ) → n < cfg0.N → Vec F S1x4096 .f32
  | 0, hn => k0_pay2 k0_pay1 (iblk V c 2 ⟨0, hn⟩) (iblk V c 3 ⟨0, hn⟩)
  | n + 1, hn =>
    if (n + 1) % 8 = 0 then k0_pay2 k0_pay1 (iblk V c 2 ⟨n + 1, hn⟩) (iblk V c 3 ⟨n + 1, hn⟩)
    else k0_pay2 (rowAfter c n (Nat.lt_of_succ_lt hn)) (iblk V c 2 ⟨n + 1, hn⟩) (iblk V c 3 ⟨n + 1, hn⟩)

theorem rowAfter_first (c : Dev nD) (t : Fin cfg0.N) (h0 : t.val % 8 = 0) :
    rowAfter V c t.val t.isLt = k0_pay2 k0_pay1 (iblk V c 2 t) (iblk V c 3 t) := by
  obtain ⟨n, hn⟩ := t
  cases n with
  | zero => exact rfl
  | succ n => exact (if_pos h0).trans rfl

theorem rowAfter_next (c : Dev nD) (t : Fin cfg0.N) (h0 : ¬t.val % 8 = 0) :
    rowAfter V c t.val t.isLt = k0_pay2 (rowAfter V c (t.val - 1) (Nat.lt_of_le_of_lt (Nat.sub_le _ _) t.isLt)) (iblk V c 2 t) (iblk V c 3 t) := by
  obtain ⟨n, hn⟩ := t
  cases n with
  | zero => exact absurd (Nat.zero_mod _) h0
  | succ n => exact (if_neg h0).trans rfl

/-- The scratch row the steps leave IS the running sum: by induction on the position, each kind of step read by its
    value. -/
theorem accAt_eq (c : Dev nD) : ∀ (n : ℕ) (hn : n < cfg0.N), accAt V c n hn = rowAfter V c n hn
  | 0, hn =>
    (accAt_first V c ⟨0, hn⟩ (Nat.zero_mod _) (show ¬(0 : ℕ) % 8 = 7 by decide)).trans
      (firstAcc_eq c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) _ _ (iblk V c 0 ⟨0, hn⟩) (iblk V c 1 ⟨0, hn⟩) (iblk V c 2 ⟨0, hn⟩) (iblk V c 3 ⟨0, hn⟩))
  | n + 1, hn => by
    by_cases h0 : (n + 1) % 8 = 0
    · have h1 : ¬(n + 1) % 8 = 7 := by omega
      exact (accAt_first V c ⟨n + 1, hn⟩ h0 h1).trans
        ((firstAcc_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) _ _ (iblk V c 0 ⟨n + 1, hn⟩) (iblk V c 1 ⟨n + 1, hn⟩) (iblk V c 2 ⟨n + 1, hn⟩) (iblk V c 3 ⟨n + 1, hn⟩)).trans
          (rowAfter_first V c ⟨n + 1, hn⟩ h0).symm)
    · have ih : accAt V c n (Nat.lt_of_succ_lt hn) = rowAfter V c n (Nat.lt_of_succ_lt hn) := accAt_eq c n _
      refine Eq.trans ?_ ((congrArg (fun r => k0_pay2 r (iblk V c 2 ⟨n + 1, hn⟩) (iblk V c 3 ⟨n + 1, hn⟩)) ih).trans
        (rowAfter_next V c ⟨n + 1, hn⟩ h0).symm)
      by_cases h1 : (n + 1) % 8 = 7
      · exact (accAt_last V c ⟨n + 1, hn⟩ h0 h1).trans
          (lastAcc_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) _ _ (iblk V c 0 ⟨n + 1, hn⟩) (iblk V c 1 ⟨n + 1, hn⟩) (iblk V c 2 ⟨n + 1, hn⟩) (iblk V c 3 ⟨n + 1, hn⟩) (accAt V c n (Nat.lt_of_succ_lt hn)))
      · exact (accAt_mid V c ⟨n + 1, hn⟩ h0 h1).trans
          (midAcc_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) _ _ (iblk V c 0 ⟨n + 1, hn⟩) (iblk V c 1 ⟨n + 1, hn⟩) (iblk V c 2 ⟨n + 1, hn⟩) (iblk V c 3 ⟨n + 1, hn⟩) (accAt V c n (Nat.lt_of_succ_lt hn)))

/-- The output block a group's last step stores: (the finished row + bias) · scale, in the output's format. -/
theorem outAt_eq (c : Dev nD) (t : Fin cfg0.N) (h1 : t.val % 8 = 7) :
    outAt V c t = k0_pay3 (iblk V c 0 t) (iblk V c 1 t) (rowAfter V c t.val t.isLt) := by
  have h0 : ¬t.val % 8 = 0 := by omega
  unfold outAt
  rw [dif_pos h1]
  refine (lastOut_eq c (grid0.coords t) (ms0 t) (hs0 t) (ms1 t) (hs1 t) (ms2 t) (hs2 t) (ms3 t) (hs3 t) (ms4 t) (hs4 t) scM (Memref.isWhole_whole _) _ _ (iblk V c 0 t) (iblk V c 1 t) (iblk V c 2 t) (iblk V c 3 t) (accAt V c (t.val - 1) _)).trans ?_
  rw [rowAfter_next V c t h0, accAt_eq V c (t.val - 1)]

end Cert.KernelIdeal.Layer1

end
-- ==== Proof.Layer1Array.lean ====
/- The first layer's kernel, from blocks to arrays. The output array after the region is, column by column, the block
   stored by the last step of the group of eight steps that covers that column (the four written-back blocks tile the
   16384 columns); and each input block a step loads is a rectangle of its array, at the block index times the block
   size. -/
import proofs.«169360_j54606214201548_2_alg».proof.Proof.Layer1Value
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

-- the arrays as the region finds them, on each core
variable (V : (c : Dev nD) → (b : Ref sig .tc) → Buf (Elt F) ((c : Thread nD τ).loc b))

/-! ## The output array after the region -/

theorem hN : cfg0.N = 32 := N_0

/-- The output window's block index at a point: 0 on the row axis, the group's number on the column axis. -/
theorem idx4 : ∀ t : Fin cfg0.N, win0_4.index t (0 : Fin 2) = 0 ∧ win0_4.index t (1 : Fin 2) = t.val / 8 :=
  (by decide +kernel : ∀ t : Fin grid0.N, _)

/-- The last step of the group of eight whose output block holds column `n`. -/
def lastPt (n : ℕ) (hn : n < 16384) : Fin cfg0.N := ⟨8 * (n / 4096) + 7, by rw [hN]; omega⟩

/-- Column `n`'s place inside that block. -/
def colIn (n : ℕ) : S1x4096.Idx := ix2 (0 : Fin 1) (⟨n % 4096, Nat.mod_lt _ (by decide)⟩ : Fin 4096)

/-- The output array after the region, column by column: the block the covering group's last step stored, at the
    column's place in it. -/
def outRow (c : Dev nD) : Buf (Elt F) ((c : Thread nD τ).loc main_v53) := fun i =>
  outAt V c (lastPt (i 1).val (i 1).isLt) (colIn (i 1).val)

/-- In the body's arithmetic: (the finished row of the covering group + bias) · scale at the column's place. -/
theorem outRow_apply (c : Dev nD) (i : S1x16384.Idx) :
    outRow V c i = k0_pay3 (iblk V c 0 (lastPt (i 1).val (i 1).isLt)) (iblk V c 1 (lastPt (i 1).val (i 1).isLt))
      (rowAfter V c (lastPt (i 1).val (i 1).isLt).val (lastPt (i 1).val (i 1).isLt).isLt) (colIn (i 1).val) := by
  have h7 : (lastPt (i 1).val (i 1).isLt).val % 8 = 7 := by show (8 * ((i 1).val / 4096) + 7) % 8 = 7; omega
  show outAt V c (lastPt (i 1).val (i 1).isLt) (colIn (i 1).val) = _
  rw [outAt_eq V c _ h7]

/-- What a group's last step writes back is its block of that function. -/
theorem flushed_eq (c : Dev nD) (t : Fin cfg0.N) (hf : (cfg0.win 4).flush t = true) :
    (dat V c).flushed 4 t = ((cfg0.win 4).blk t).view.read (Elt F) (outRow V c) := by
  have h7 : t.val % 8 = 7 := (flush0_4 t).mp hf
  have ht : t.val < 32 := hN ▸ t.isLt
  obtain ⟨e0, e1⟩ := idx4 t
  show (cfg0.win 4).cut (grid0.coords t) ((dat V c).after 4 t) = _
  rw [after4]
  funext j
  rw [View.read_apply]
  have hj : (j 1).val < 4096 := (j 1).isLt
  have hj0 : (j 0).val < 1 := (j 0).isLt
  have hE : ((((cfg0.win 4).blk t).view.emb j) 1 : ℕ) = t.val / 8 * 4096 + (j 1).val := by
    show win0_4.index t 1 * 4096 + 1 * (j 1).val = _; rw [e1]; omega
  show outAt V c t _ = outAt V c (lastPt ((((cfg0.win 4).blk t).view.emb j) 1).val _) (colIn ((((cfg0.win 4).blk t).view.emb j) 1).val)
  have hpt : lastPt ((((cfg0.win 4).blk t).view.emb j) 1).val ((((cfg0.win 4).blk t).view.emb j) 1).isLt = t :=
    Fin.ext (by show 8 * (((((cfg0.win 4).blk t).view.emb j) 1).val / 4096) + 7 = t.val; rw [hE]; omega)
  rw [hpt]
  refine congrArg (outAt V c t) (funext fun a => Fin.ext ?_)
  match a with
  | ⟨0, _⟩ => show (j 0).val = 0; omega
  | ⟨1, _⟩ => show (j 1).val = ((((cfg0.win 4).blk t).view.emb j) 1).val % 4096; rw [hE]; omega

/-- A column of the array is in a point's block iff each coordinate is in the block's range on its axis. -/
theorem mem_blk4 (t : Fin cfg0.N) (i : S1x16384.Idx) :
    i ∈ ((cfg0.win 4).blk t).view.set ↔ ∀ a : Fin 2, win0_4.index t a * S1x4096.size a ≤ (i a).val ∧ (i a).val < win0_4.index t a * S1x4096.size a + S1x4096.size a := by
  show i ∈ ((View.whole main_v53).slice (win0_4.rect t)).set ↔ _
  rw [View.set_slice_whole, Rect.mem_set_unit]
  exact Iff.rfl

/-- THE OUTPUT ARRAY after the region: the four written-back blocks tile the 16384 columns. -/
theorem arrAt_out (c : Dev nD) : (dat V c).arrAt 4 cfg0.N = outRow V c :=
  (dat V c).arrAt_eq_of_cover 4 (outRow V c) (flushed_eq V c) fun i => by
    have hi0 : (i 0).val < 1 := (i 0).isLt
    have hi1 : (i 1).val < 16384 := (i 1).isLt
    refine ⟨lastPt (i 1).val hi1, (flush0_4 _).mpr (by show (8 * ((i 1).val / 4096) + 7) % 8 = 7; omega), ?_⟩
    obtain ⟨e0, e1⟩ := idx4 (lastPt (i 1).val hi1)
    have e1' : win0_4.index (lastPt (i 1).val hi1) (1 : Fin 2) = (i 1).val / 4096 := by
      rw [e1]; show (8 * ((i 1).val / 4096) + 7) / 8 = _; omega
    rw [mem_blk4]
    intro a
    match a with
    | ⟨0, _⟩ => show win0_4.index (lastPt (i 1).val hi1) (0 : Fin 2) * 1 ≤ (i 0).val ∧ (i 0).val < win0_4.index (lastPt (i 1).val hi1) (0 : Fin 2) * 1 + 1; rw [e0]; omega
    | ⟨1, _⟩ => show win0_4.index (lastPt (i 1).val hi1) (1 : Fin 2) * 4096 ≤ (i 1).val ∧ (i 1).val < win0_4.index (lastPt (i 1).val hi1) (1 : Fin 2) * 4096 + 4096; rw [e1']; omega

/-! ## The input blocks, read off their arrays -/

/-- The input windows' block indices at a point: bias and scale never move; the vector's slice follows the reduction
    step; the matrix's block follows the reduction step on its rows and the group on its columns. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)

/-- The bias block is the bias array. -/
theorem iblk0_eq (c : Dev nD) (t : Fin cfg0.N) :
    (iblk V c 0 t : Vec F S1x1 .f32) = (V c main_v52 : S1x1.Idx → Elt F .f32) := by
  obtain ⟨e0, e1⟩ := idx0 t
  funext y
  unfold iblk
  rw [View.read_apply]
  show V c main_v52 _ = V c main_v52 y
  refine congrArg (V c main_v52) (funext fun a => Fin.ext ?_)
  match a with
  | ⟨0, _⟩ => show win0_0.index t (0 : Fin 2) * 1 + 1 * (y 0).val = (y 0).val; rw [e0]; omega
  | ⟨1, _⟩ => show win0_0.index t (1 : Fin 2) * 1 + 1 * (y 1).val = (y 1).val; rw [e1]; omega

/-- The scale block is the scale array. -/
theorem iblk1_eq (c : Dev nD) (t : Fin cfg0.N) :
    (iblk V c 1 t : Vec F S1x1 .f32) = (V c main_arg6 : S1x1.Idx → Elt F .f32) := by
  obtain ⟨e0, e1⟩ := idx1 t
  funext y
  unfold iblk
  rw [View.read_apply]
  show V c main_arg6 _ = V c main_arg6 y
  refine congrArg (V c main_arg6) (funext fun a => Fin.ext ?_)
  match a with
  | ⟨0, _⟩ => show win0_1.index t (0 : Fin 2) * 1 + 1 * (y 0).val = (y 0).val; rw [e0]; omega
  | ⟨1, _⟩ => show win0_1.index t (1 : Fin 2) * 1 + 1 * (y 1).val = (y 1).val; rw [e1]; omega

/-- The vector's slice at a point: entries 2048·k … 2048·k + 2047 of the vector, k the reduction step. -/
theorem iblk2_apply (c : Dev nD) (t : Fin cfg0.N) (k : Fin 2048) :
    (iblk V c 2 t : Vec F S1x2048 .bf16) (ix2 (0 : Fin 1) k)
      = (V c main_v51 : S1x16384.Idx → Elt F .bf16) (ix2 (0 : Fin 1) (⟨2048 * (t.val % 8) + k.val, by omega⟩ : Fin 16384)) := by
  obtain ⟨e0, e1⟩ := idx2 t
  unfold iblk
  rw [View.read_apply]
  show V c main_v51 _ = V c main_v51 _
  refine congrArg (V c main_v51) (funext fun a => Fin.ext ?_)
  match a with
  | ⟨0, _⟩ => show win0_2.index t (0 : Fin 2) * 1 + 1 * 0 = 0; rw [e0]
  | ⟨1, _⟩ => show win0_2.index t (1 : Fin 2) * 2048 + 1 * k.val = 2048 * (t.val % 8) + k.val; rw [e1]; omega

/-- The matrix's block at a point: rows 2048·k …, columns 4096·g …, k the reduction step and g the group. -/
theorem iblk3_apply (c : Dev nD) (t : Fin cfg0.N) (r : Fin 2048) (j : Fin 4096) :
    (iblk V c 3 t : Vec F S2048x4096 .bf16) (ix2 r j)
      = (V c main_v48 : S16384x16384.Idx → Elt F .bf16) (ix2 (⟨2048 * (t.val % 8) + r.val, by omega⟩ : Fin 16384) (⟨4096 * (t.val / 8) + j.val, by have ht : t.val < 32 := hN ▸ t.isLt; omega⟩ : Fin 16384)) := by
  obtain ⟨e0, e1⟩ := idx3 t
  unfold iblk
  rw [View.read_apply]
  show V c main_v48 _ = V c main_v48 _
  refine congrArg (V c main_v48) (funext fun a => Fin.ext ?_)
  match a with
  | ⟨0, _⟩ => show win0_3.index t (0 : Fin 2) * 2048 + 1 * r.val = 2048 * (t.val % 8) + r.val; rw [e0]; omega
  | ⟨1, _⟩ => show win0_3.index t (1 : Fin 2) * 4096 + 1 * j.val = 4096 * (t.val / 8) + j.val; rw [e1]; omega

end Cert.KernelIdeal.Layer1

end
-- ==== Proof.GcnSpec.lean ====
/-
  The two-layer graph convolution as ONE function of its argument arrays, over the extended reals.

  The graph has 16384 nodes and 1064960 weighted edges: the 1048576 edges listed in the two rows of the
  edge table (row 0 the source, row 1 the target, weight from the edge-weight column), followed by one
  self loop of weight one on every node. With  deg i  the total weight of the edges whose target is i  and
  dinv = deg^(-1/2)  (zero where the degree is not positive), an edge e from r to c carries the symmetric
  normalisation  norm e = dinv r * w e * dinv c , and one layer sends a node vector h to
      i  ↦  (∑ over the edges e with target i of  h (source e) * norm e)  +  bias .
  The result is the second layer applied to the first: the first layer acts on  x · W1 , the second on the
  first layer's output times the 1×1 matrix W2.

  Every piece is written index by index over literal index types. Edge ends are kept as the 32-bit words
  the table holds: the segment sums select an edge by its target read as a SIGNED integer (an edge whose
  target is not a node contributes to no sum), while a value looked up at an edge end is looked up at the
  end wrapped (a negative end counts from the back) and then clamped into the node range. When every end
  is a node, both readings are the end itself; the last section proves that.
-/
import Idealize.ShloMosaic.PureOps.Ideal
import Idealize.ShloMosaic.Lib.ValueIdx

noncomputable section

open scoped BigOperators

namespace Cert.GcnSpec

open Idealize.ShloMosaic Idealize.ShloMosaic.ValueIdx

/-! ## Edges -/

/-- The word naming the SOURCE of edge e: row 0 of the edge table for the listed edges, the node itself
    for the self loop of node e − 1048576. -/
def rowW (ei : (⟨2, ![2, 1048576]⟩ : Shape).Idx → BitVec 32) (e : Fin 1064960) : BitVec 32 :=
  if h : e.val < 1048576 then ei (ix2 (0 : Fin 2) (⟨e.val, h⟩ : Fin 1048576)) else BitVec.ofNat 32 (e.val - 1048576)

/-- The word naming the TARGET of edge e: row 1 of the edge table, or the self loop's node. -/
def colW (ei : (⟨2, ![2, 1048576]⟩ : Shape).Idx → BitVec 32) (e : Fin 1064960) : BitVec 32 :=
  if h : e.val < 1048576 then ei (ix2 (1 : Fin 2) (⟨e.val, h⟩ : Fin 1048576)) else BitVec.ofNat 32 (e.val - 1048576)

/-- The source of edge e as a signed integer. -/
def rowI (ei : (⟨2, ![2, 1048576]⟩ : Shape).Idx → BitVec 32) (e : Fin 1064960) : ℤ := (rowW ei e).toInt

/-- The target of edge e as a signed integer. -/
def colI (ei : (⟨2, ![2, 1048576]⟩ : Shape).Idx → BitVec 32) (e : Fin 1064960) : ℤ := (colW ei e).toInt

/-- The weight of edge e: the listed weight, or one (the word 0x3F800000) for a self loop. -/
def w2 (ea : (⟨2, ![1048576, 1]⟩ : Shape).Idx → EReal) (e : Fin 1064960) : EReal :=
  if h : e.val < 1048576 then ea (ix2 (⟨e.val, h⟩ : Fin 1048576) (0 : Fin 1)) else Ideal.ofBits .f32 0x3F800000#32

/-- An edge end as a lookup reads it: a negative word wraps around by the number of nodes. -/
def wrap (w : BitVec 32) : BitVec 32 := Scalar.select (IntOp.cmpi .slt w 0#32) (IntOp.addi w 16384#32) w

/-- The node a lookup at the edge end w reads: the wrapped end, read signed and clamped into the node range. -/
def node (w : BitVec 32) : Fin 16384 := ⟨min (wrap w).toInt.toNat 16383, by omega⟩

/-- The node at which a value is looked up for the source of edge e. -/
def rowN (ei : (⟨2, ![2, 1048576]⟩ : Shape).Idx → BitVec 32) (e : Fin 1064960) : Fin 16384 := node (rowW ei e)

/-- The node at which a value is looked up for the target of edge e. -/
def colN (ei : (⟨2, ![2, 1048576]⟩ : Shape).Idx → BitVec 32) (e : Fin 1064960) : Fin 16384 := node (colW ei e)

/-! ## The normalisation -/

/-- The weighted in-degree of node i: the total weight of the edges whose target is i. -/
def deg (ei : (⟨2, ![2, 1048576]⟩ : Shape).Idx → BitVec 32) (ea : (⟨2, ![1048576, 1]⟩ : Shape).Idx → EReal)
    (i : Fin 16384) : EReal :=
  0 + ∑ e ∈ Finset.univ.filter (fun e : Fin 1064960 => colI ei e = (i.val : ℤ)), w2 ea e

/-- deg^(-1/2), and zero where the degree is not positive. -/
def dinv (ei : (⟨2, ![2, 1048576]⟩ : Shape).Idx → BitVec 32) (ea : (⟨2, ![1048576, 1]⟩ : Shape).Idx → EReal)
    (i : Fin 16384) : EReal :=
  Scalar.select (Ideal.cmp .ogt (deg ei ea i) (Ideal.ofBits .f32 0x00000000#32)) (Ideal.rsqrt (deg ei ea i))
    (Ideal.ofBits .f32 0x00000000#32)

/-- The symmetric normalisation of edge e: dinv at its source, times its weight, times dinv at its target. -/
def norm (ei : (⟨2, ![2, 1048576]⟩ : Shape).Idx → BitVec 32) (ea : (⟨2, ![1048576, 1]⟩ : Shape).Idx → EReal)
    (e : Fin 1064960) : EReal :=
  dinv ei ea (rowN ei e) * w2 ea e * dinv ei ea (colN ei e)

/-! ## The layers -/

/-- The aggregation of a node vector h: at node i, the sum over the edges with target i of h at the
    edge's source times the edge's normalisation. -/
def agg (ei : (⟨2, ![2, 1048576]⟩ : Shape).Idx → BitVec 32) (ea : (⟨2, ![1048576, 1]⟩ : Shape).Idx → EReal)
    (h : Fin 16384 → EReal) (i : Fin 16384) : EReal :=
  0 + ∑ e ∈ Finset.univ.filter (fun e : Fin 1064960 => colI ei e = (i.val : ℤ)), h (rowN ei e) * norm ei ea e

/-- x · W1 at node i. -/
def v1 (x : (⟨2, ![16384, 128]⟩ : Shape).Idx → EReal) (W1 : (⟨2, ![128, 1]⟩ : Shape).Idx → EReal)
    (i : Fin 16384) : EReal :=
  ∑ k : Fin 128, x (ix2 i k) * W1 (ix2 k (0 : Fin 1))

/-- The first layer's output at node i. -/
def out1 (x : (⟨2, ![16384, 128]⟩ : Shape).Idx → EReal) (ei : (⟨2, ![2, 1048576]⟩ : Shape).Idx → BitVec 32)
    (ea : (⟨2, ![1048576, 1]⟩ : Shape).Idx → EReal) (W1 : (⟨2, ![128, 1]⟩ : Shape).Idx → EReal)
    (b1 : (⟨1, ![1]⟩ : Shape).Idx → EReal) (i : Fin 16384) : EReal :=
  agg ei ea (v1 x W1) i + b1 (ix1 (0 : Fin 1))

/-- The first layer's output times the 1×1 matrix W2, at node i (a contraction over one index). -/
def h2 (x : (⟨2, ![16384, 128]⟩ : Shape).Idx → EReal) (ei : (⟨2, ![2, 1048576]⟩ : Shape).Idx → BitVec 32)
    (ea : (⟨2, ![1048576, 1]⟩ : Shape).Idx → EReal) (W1 : (⟨2, ![128, 1]⟩ : Shape).Idx → EReal)
    (b1 : (⟨1, ![1]⟩ : Shape).Idx → EReal) (W2 : (⟨2, ![1, 1]⟩ : Shape).Idx → EReal) (i : Fin 16384) : EReal :=
  ∑ k : Fin 1, out1 x ei ea W1 b1 i * W2 (ix2 k (0 : Fin 1))

/-- The second layer's output at node i. -/
def out2 (x : (⟨2, ![16384, 128]⟩ : Shape).Idx → EReal) (ei : (⟨2, ![2, 1048576]⟩ : Shape).Idx → BitVec 32)
    (ea : (⟨2, ![1048576, 1]⟩ : Shape).Idx → EReal) (W1 : (⟨2, ![128, 1]⟩ : Shape).Idx → EReal)
    (b1 : (⟨1, ![1]⟩ : Shape).Idx → EReal) (W2 : (⟨2, ![1, 1]⟩ : Shape).Idx → EReal)
    (b2 : (⟨1, ![1]⟩ : Shape).Idx → EReal) (i : Fin 16384) : EReal :=
  agg ei ea (h2 x ei ea W1 b1 W2) i + b2 (ix1 (0 : Fin 1))

/-- THE RESULT, a 16384 × 1 array: the second layer's output at the row. -/
def result (x : (⟨2, ![16384, 128]⟩ : Shape).Idx → EReal) (ei : (⟨2, ![2, 1048576]⟩ : Shape).Idx → BitVec 32)
    (ea : (⟨2, ![1048576, 1]⟩ : Shape).Idx → EReal) (W1 : (⟨2, ![128, 1]⟩ : Shape).Idx → EReal)
    (b1 : (⟨1, ![1]⟩ : Shape).Idx → EReal) (W2 : (⟨2, ![1, 1]⟩ : Shape).Idx → EReal)
    (b2 : (⟨1, ![1]⟩ : Shape).Idx → EReal) (j : (⟨2, ![16384, 1]⟩ : Shape).Idx) : EReal :=
  out2 x ei ea W1 b1 W2 b2 ⟨(j 0).val, idx2_lt0 j⟩

theorem result_ix2 (x : (⟨2, ![16384, 128]⟩ : Shape).Idx → EReal) (ei : (⟨2, ![2, 1048576]⟩ : Shape).Idx → BitVec 32)
    (ea : (⟨2, ![1048576, 1]⟩ : Shape).Idx → EReal) (W1 : (⟨2, ![128, 1]⟩ : Shape).Idx → EReal)
    (b1 : (⟨1, ![1]⟩ : Shape).Idx → EReal) (W2 : (⟨2, ![1, 1]⟩ : Shape).Idx → EReal)
    (b2 : (⟨1, ![1]⟩ : Shape).Idx → EReal) (i : Fin 16384) (q : Fin 1) :
    result x ei ea W1 b1 W2 b2 (ix2 i q) = out2 x ei ea W1 b1 W2 b2 i := rfl

/-- The contraction over one index is the product. -/
theorem h2_eq (x : (⟨2, ![16384, 128]⟩ : Shape).Idx → EReal) (ei : (⟨2, ![2, 1048576]⟩ : Shape).Idx → BitVec 32)
    (ea : (⟨2, ![1048576, 1]⟩ : Shape).Idx → EReal) (W1 : (⟨2, ![128, 1]⟩ : Shape).Idx → EReal)
    (b1 : (⟨1, ![1]⟩ : Shape).Idx → EReal) (W2 : (⟨2, ![1, 1]⟩ : Shape).Idx → EReal) (i : Fin 16384) :
    h2 x ei ea W1 b1 W2 i = out1 x ei ea W1 b1 i * W2 (ix2 (0 : Fin 1) (0 : Fin 1)) := by
  unfold h2
  rw [Fin.sum_univ_one]

/-! ## When every edge end is a node

Under the hypothesis that every word of the edge table, read signed, lies in [0, 16384), so does every
edge end (a self loop's end is its node), wrapping and clamping change nothing, and the node a lookup
reads is the end itself. -/

/-- A non-negative end is not wrapped. -/
theorem wrap_of_nonneg (w : BitVec 32) (h : 0 ≤ w.toInt) : wrap w = w := by
  unfold wrap IntOp.cmpi
  have : w.slt 0#32 = false := by
    rw [BitVec.slt_eq_decide]
    simpa using h
  simp only [this, BitVec.ofBool_false]
  exact select_zero _ _

/-- The node a lookup reads at an end that is a node is that node. -/
theorem node_val (w : BitVec 32) (h0 : 0 ≤ w.toInt) (h1 : w.toInt < 16384) : ((node w).val : ℤ) = w.toInt := by
  show ((min (wrap w).toInt.toNat 16383 : ℕ) : ℤ) = w.toInt
  rw [wrap_of_nonneg w h0]
  omega

/-- A self loop's end, read signed, is its node. -/
theorem loop_toInt (n : ℕ) (h : n < 16384) : (BitVec.ofNat 32 n).toInt = (n : ℤ) := by
  have h32 : n < 2 ^ 32 := lt_trans h (by norm_num)
  have h31 : 2 * n < 2 ^ 32 := by
    have : (2 : ℕ) ^ 32 = 4294967296 := by norm_num
    omega
  have hn : (BitVec.ofNat 32 n).toNat = n := by
    rw [BitVec.toNat_ofNat]
    exact Nat.mod_eq_of_lt h32
  rw [BitVec.toInt_eq_toNat_cond, hn, if_pos h31]

section InRange
variable (ei : (⟨2, ![2, 1048576]⟩ : Shape).Idx → BitVec 32)
  (hei : ∀ j, 0 ≤ (ei j).toInt ∧ (ei j).toInt < 16384)
include hei

theorem rowI_range (e : Fin 1064960) : 0 ≤ rowI ei e ∧ rowI ei e < 16384 := by
  unfold rowI rowW
  split
  · exact hei _
  · rw [loop_toInt _ (by omega)]; omega

theorem colI_range (e : Fin 1064960) : 0 ≤ colI ei e ∧ colI ei e < 16384 := by
  unfold colI colW
  split
  · exact hei _
  · rw [loop_toInt _ (by omega)]; omega

/-- The node looked up for the source of an edge is the source. -/
theorem rowN_val (e : Fin 1064960) : ((rowN ei e).val : ℤ) = rowI ei e :=
  node_val _ (rowI_range ei hei e).1 (rowI_range ei hei e).2

/-- The node looked up for the target of an edge is the target. -/
theorem colN_val (e : Fin 1064960) : ((colN ei e).val : ℤ) = colI ei e :=
  node_val _ (colI_range ei hei e).1 (colI_range ei hei e).2

/-- Selecting the edges by the target read signed is selecting them by the node looked up for the target. -/
theorem colI_eq_iff (e : Fin 1064960) (i : Fin 16384) : colI ei e = (i.val : ℤ) ↔ colN ei e = i := by
  rw [← colN_val ei hei e]
  constructor
  · intro h; exact Fin.ext (by exact_mod_cast h)
  · intro h; rw [h]

end InRange

end Cert.GcnSpec

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.ScatterRead.lean ====
/-
  The accumulating scatters and the gathers of the two programs, read at an index at the ideal instance:
  each scatter's element is the operand's plus the sum of the updates of the edges whose start index
  (or pair of start indices) names it; each gather's element is the operand's at the clamped start index.
-/
import proofs.«169360_j54606214201548_2_alg».proof.KernelIdeal
import proofs.«169360_j54606214201548_2_alg».proof.ReferenceIdeal
import proofs.«169360_j54606214201548_2_alg».proof.Proof.LibScatterRead

open scoped BigOperators

namespace Cert.ScatterRead

open Idealize.ShloMosaic Idealize.ShloMosaic.ValueIdx Cert.LibScatterRead

/-! ## The reference program's -/

section Reference
variable [Cert.ReferenceIdeal.Facts₀] {φ : FTy} {α : Type}

/-- The one-index accumulating scatter into the `[16384]` array, read at node `i`: the operand there plus the
    updates of the edges `e` with `idx[e, 0] = i` (read signed; an edge whose index names no node adds nothing). -/
theorem ref_scatter1_apply (x : FVec Ideal ⟨1, ![16384]⟩ φ) (idx : IVec ⟨2, ![1064960, 1]⟩ 32)
    (upd : FVec Ideal ⟨1, ![1064960]⟩ φ) (i : Fin 16384) :
    Host.scatterAdd (F := Ideal) Cert.ReferenceIdeal.scatter_S16384_S1064960x1_S1064960_n_0_0_1 x idx upd (ix1 i)
      = x (ix1 i) + ∑ e ∈ Finset.univ.filter (fun e : Fin 1064960 => (idx (ix2 e 0)).toInt = (i.val : ℤ)), upd (ix1 e) :=
  scatterAdd1_apply Cert.ReferenceIdeal.Facts₀.scatter_S16384_S1064960x1_S1064960_n_0_0_1_wf x idx upd i

/-- The same read when every `idx[e, 0]` is the node `col e`: the edges summed are those with `col e = i`. -/
theorem ref_scatter1_apply_of_nodes (x : FVec Ideal ⟨1, ![16384]⟩ φ) (idx : IVec ⟨2, ![1064960, 1]⟩ 32)
    (upd : FVec Ideal ⟨1, ![1064960]⟩ φ) (col : Fin 1064960 → Fin 16384)
    (hcol : ∀ e, (idx (ix2 e 0)).toInt = ((col e).val : ℤ)) (i : Fin 16384) :
    Host.scatterAdd (F := Ideal) Cert.ReferenceIdeal.scatter_S16384_S1064960x1_S1064960_n_0_0_1 x idx upd (ix1 i)
      = x (ix1 i) + ∑ e ∈ Finset.univ.filter (fun e : Fin 1064960 => col e = i), upd (ix1 e) :=
  scatterAdd1_apply_of_nodes Cert.ReferenceIdeal.Facts₀.scatter_S16384_S1064960x1_S1064960_n_0_0_1_wf x idx upd col hcol i

/-- The one-index accumulating scatter into the `[16384, 1]` array, read at `(i, 0)`: the operand there plus the
    updates `(e, 0)` of the edges `e` with `idx[e, 0] = i` (read signed). -/
theorem ref_scatter1Col_apply (x : FVec Ideal ⟨2, ![16384, 1]⟩ φ) (idx : IVec ⟨2, ![1064960, 1]⟩ 32)
    (upd : FVec Ideal ⟨2, ![1064960, 1]⟩ φ) (i : Fin 16384) :
    Host.scatterAdd (F := Ideal) Cert.ReferenceIdeal.scatter_S16384x1_S1064960x1_S1064960x1_1_0_0_1 x idx upd (ix2 i 0)
      = x (ix2 i 0) + ∑ e ∈ Finset.univ.filter (fun e : Fin 1064960 => (idx (ix2 e 0)).toInt = (i.val : ℤ)), upd (ix2 e 0) :=
  scatterAdd1Col_apply Cert.ReferenceIdeal.Facts₀.scatter_S16384x1_S1064960x1_S1064960x1_1_0_0_1_wf x idx upd i

/-- The same read when every `idx[e, 0]` is the node `col e`: the edges summed are those with `col e = i`. -/
theorem ref_scatter1Col_apply_of_nodes (x : FVec Ideal ⟨2, ![16384, 1]⟩ φ) (idx : IVec ⟨2, ![1064960, 1]⟩ 32)
    (upd : FVec Ideal ⟨2, ![1064960, 1]⟩ φ) (col : Fin 1064960 → Fin 16384)
    (hcol : ∀ e, (idx (ix2 e 0)).toInt = ((col e).val : ℤ)) (i : Fin 16384) :
    Host.scatterAdd (F := Ideal) Cert.ReferenceIdeal.scatter_S16384x1_S1064960x1_S1064960x1_1_0_0_1 x idx upd (ix2 i 0)
      = x (ix2 i 0) + ∑ e ∈ Finset.univ.filter (fun e : Fin 1064960 => col e = i), upd (ix2 e 0) :=
  scatterAdd1Col_apply_of_nodes Cert.ReferenceIdeal.Facts₀.scatter_S16384x1_S1064960x1_S1064960x1_1_0_0_1_wf x idx upd col hcol i

/-- The gather from the `[16384]` array, read at edge `e`: the operand at `idx[e, 0]`, read signed and clamped
    into `[0, 16383]`. -/
theorem ref_gather1_apply (x : (⟨1, ![16384]⟩ : Shape).Idx → α) (idx : IVec ⟨2, ![1064960, 1]⟩ 32) (e : Fin 1064960) :
    Host.gather Cert.ReferenceIdeal.gather_S16384_S1064960x1_S1064960_n_0_n_n_0_1_1 x idx (ix1 e)
      = x (ix1 ⟨min (idx (ix2 e 0)).toInt.toNat 16383, by omega⟩) :=
  gather1_apply Cert.ReferenceIdeal.Facts₀.gather_S16384_S1064960x1_S1064960_n_0_n_n_0_1_1_wf (by decide) x idx e

/-- The same read when `idx[e, 0]` names a node: the operand at that node. -/
theorem ref_gather1_apply_of_inRange (x : (⟨1, ![16384]⟩ : Shape).Idx → α) (idx : IVec ⟨2, ![1064960, 1]⟩ 32)
    (e : Fin 1064960) (h0 : 0 ≤ (idx (ix2 e 0)).toInt) (h1 : (idx (ix2 e 0)).toInt < 16384) :
    Host.gather Cert.ReferenceIdeal.gather_S16384_S1064960x1_S1064960_n_0_n_n_0_1_1 x idx (ix1 e)
      = x (ix1 ⟨(idx (ix2 e 0)).toInt.toNat, by omega⟩) :=
  gather1_apply_of_inRange Cert.ReferenceIdeal.Facts₀.gather_S16384_S1064960x1_S1064960_n_0_n_n_0_1_1_wf x idx e h0 (by exact_mod_cast h1)

/-- The gather from the `[16384, 1]` array, read at `(e, 0)`: the operand at `(idx[e, 0], 0)`, the start index read
    signed and clamped into `[0, 16383]`. -/
theorem ref_gather1Col_apply (x : (⟨2, ![16384, 1]⟩ : Shape).Idx → α) (idx : IVec ⟨2, ![1064960, 1]⟩ 32) (e : Fin 1064960) :
    Host.gather Cert.ReferenceIdeal.gather_S16384x1_S1064960x1_S1064960x1_1_0_n_n_0_1_11 x idx (ix2 e 0)
      = x (ix2 ⟨min (idx (ix2 e 0)).toInt.toNat 16383, by omega⟩ 0) :=
  gather1Col_apply Cert.ReferenceIdeal.Facts₀.gather_S16384x1_S1064960x1_S1064960x1_1_0_n_n_0_1_11_wf (by decide) x idx e

/-- The same read when `idx[e, 0]` names a node: the operand at `(that node, 0)`. -/
theorem ref_gather1Col_apply_of_inRange (x : (⟨2, ![16384, 1]⟩ : Shape).Idx → α) (idx : IVec ⟨2, ![1064960, 1]⟩ 32)
    (e : Fin 1064960) (h0 : 0 ≤ (idx (ix2 e 0)).toInt) (h1 : (idx (ix2 e 0)).toInt < 16384) :
    Host.gather Cert.ReferenceIdeal.gather_S16384x1_S1064960x1_S1064960x1_1_0_n_n_0_1_11 x idx (ix2 e 0)
      = x (ix2 ⟨(idx (ix2 e 0)).toInt.toNat, by omega⟩ 0) :=
  gather1Col_apply_of_inRange Cert.ReferenceIdeal.Facts₀.gather_S16384x1_S1064960x1_S1064960x1_1_0_n_n_0_1_11_wf x idx e h0 (by exact_mod_cast h1)

end Reference

/-! ## The kernel program's -/

section Kernel
variable [Cert.KernelIdeal.Facts₀] {φ : FTy} {α : Type}

/-- The one-index accumulating scatter into the `[16384]` array, read at node `i`: the operand there plus the
    updates of the edges `e` with `idx[e, 0] = i` (read signed; an edge whose index names no node adds nothing). -/
theorem ker_scatter1_apply (x : FVec Ideal ⟨1, ![16384]⟩ φ) (idx : IVec ⟨2, ![1064960, 1]⟩ 32)
    (upd : FVec Ideal ⟨1, ![1064960]⟩ φ) (i : Fin 16384) :
    Host.scatterAdd (F := Ideal) Cert.KernelIdeal.scatter_S16384_S1064960x1_S1064960_n_0_0_1 x idx upd (ix1 i)
      = x (ix1 i) + ∑ e ∈ Finset.univ.filter (fun e : Fin 1064960 => (idx (ix2 e 0)).toInt = (i.val : ℤ)), upd (ix1 e) :=
  scatterAdd1_apply Cert.KernelIdeal.Facts₀.scatter_S16384_S1064960x1_S1064960_n_0_0_1_wf x idx upd i

/-- The same read when every `idx[e, 0]` is the node `col e`: the edges summed are those with `col e = i`. -/
theorem ker_scatter1_apply_of_nodes (x : FVec Ideal ⟨1, ![16384]⟩ φ) (idx : IVec ⟨2, ![1064960, 1]⟩ 32)
    (upd : FVec Ideal ⟨1, ![1064960]⟩ φ) (col : Fin 1064960 → Fin 16384)
    (hcol : ∀ e, (idx (ix2 e 0)).toInt = ((col e).val : ℤ)) (i : Fin 16384) :
    Host.scatterAdd (F := Ideal) Cert.KernelIdeal.scatter_S16384_S1064960x1_S1064960_n_0_0_1 x idx upd (ix1 i)
      = x (ix1 i) + ∑ e ∈ Finset.univ.filter (fun e : Fin 1064960 => col e = i), upd (ix1 e) :=
  scatterAdd1_apply_of_nodes Cert.KernelIdeal.Facts₀.scatter_S16384_S1064960x1_S1064960_n_0_0_1_wf x idx upd col hcol i

/-- The two-index accumulating scatter into the `[16384, 16384]` array, read at `(j, i)`: the operand there plus the
    updates of the edges `e` with `idx[e, 0] = j` and `idx[e, 1] = i` (both read signed; an edge either of whose
    indices names no node adds nothing). -/
theorem ker_scatter2_apply (x : FVec Ideal ⟨2, ![16384, 16384]⟩ φ) (idx : IVec ⟨2, ![1064960, 2]⟩ 32)
    (upd : FVec Ideal ⟨1, ![1064960]⟩ φ) (j i : Fin 16384) :
    Host.scatterAdd (F := Ideal) Cert.KernelIdeal.scatter_S16384x16384_S1064960x2_S1064960_n_01_01_1 x idx upd (ix2 j i)
      = x (ix2 j i) + ∑ e ∈ Finset.univ.filter (fun e : Fin 1064960 =>
          (idx (ix2 e 0)).toInt = (j.val : ℤ) ∧ (idx (ix2 e 1)).toInt = (i.val : ℤ)), upd (ix1 e) :=
  scatterAdd2_apply Cert.KernelIdeal.Facts₀.scatter_S16384x16384_S1064960x2_S1064960_n_01_01_1_wf x idx upd j i

/-- The same read when every `idx[e, 0]` is the node `row e` and every `idx[e, 1]` the node `col e`: the edges
    summed are those with `row e = j ∧ col e = i`. -/
theorem ker_scatter2_apply_of_nodes (x : FVec Ideal ⟨2, ![16384, 16384]⟩ φ) (idx : IVec ⟨2, ![1064960, 2]⟩ 32)
    (upd : FVec Ideal ⟨1, ![1064960]⟩ φ) (row col : Fin 1064960 → Fin 16384)
    (hrow : ∀ e, (idx (ix2 e 0)).toInt = ((row e).val : ℤ)) (hcol : ∀ e, (idx (ix2 e 1)).toInt = ((col e).val : ℤ))
    (j i : Fin 16384) :
    Host.scatterAdd (F := Ideal) Cert.KernelIdeal.scatter_S16384x16384_S1064960x2_S1064960_n_01_01_1 x idx upd (ix2 j i)
      = x (ix2 j i) + ∑ e ∈ Finset.univ.filter (fun e : Fin 1064960 => row e = j ∧ col e = i), upd (ix1 e) :=
  scatterAdd2_apply_of_nodes Cert.KernelIdeal.Facts₀.scatter_S16384x16384_S1064960x2_S1064960_n_01_01_1_wf x idx upd row col hrow hcol j i

/-- The gather from the `[16384]` array, read at edge `e`: the operand at `idx[e, 0]`, read signed and clamped
    into `[0, 16383]`. -/
theorem ker_gather1_apply (x : (⟨1, ![16384]⟩ : Shape).Idx → α) (idx : IVec ⟨2, ![1064960, 1]⟩ 32) (e : Fin 1064960) :
    Host.gather Cert.KernelIdeal.gather_S16384_S1064960x1_S1064960_n_0_n_n_0_1_1 x idx (ix1 e)
      = x (ix1 ⟨min (idx (ix2 e 0)).toInt.toNat 16383, by omega⟩) :=
  gather1_apply Cert.KernelIdeal.Facts₀.gather_S16384_S1064960x1_S1064960_n_0_n_n_0_1_1_wf (by decide) x idx e

/-- The same read when `idx[e, 0]` names a node: the operand at that node. -/
theorem ker_gather1_apply_of_inRange (x : (⟨1, ![16384]⟩ : Shape).Idx → α) (idx : IVec ⟨2, ![1064960, 1]⟩ 32)
    (e : Fin 1064960) (h0 : 0 ≤ (idx (ix2 e 0)).toInt) (h1 : (idx (ix2 e 0)).toInt < 16384) :
    Host.gather Cert.KernelIdeal.gather_S16384_S1064960x1_S1064960_n_0_n_n_0_1_1 x idx (ix1 e)
      = x (ix1 ⟨(idx (ix2 e 0)).toInt.toNat, by omega⟩) :=
  gather1_apply_of_inRange Cert.KernelIdeal.Facts₀.gather_S16384_S1064960x1_S1064960_n_0_n_n_0_1_1_wf x idx e h0 (by exact_mod_cast h1)

end Kernel

end Cert.ScatterRead
-- ==== Proof.RefStages.lean ====
/-
  The reference program's normalisation stages, read at an index. The three joined arrays are the edge
  ends and the edge weights with the self loops appended; the first accumulating scatter is the weighted
  in-degree; the compare, the inverse square root and the select are its power -1/2; every select on the
  sign of an edge end is the wrap of that end; the two lookups and the two products are the edge
  normalisation; and the first matrix product is x · W1. Each statement identifies one stage of the
  program, as a function of the argument arrays, with the piece of Cert.GcnSpec of the same name.
-/
import proofs.«169360_j54606214201548_2_alg».proof.Proof.Gen.ReferenceIdeal.Read
import proofs.«169360_j54606214201548_2_alg».proof.Proof.GcnSpec
import proofs.«169360_j54606214201548_2_alg».proof.Proof.ScatterRead
import Idealize.ShloMosaic.PureOps.Ideal.Laws

noncomputable section

open scoped BigOperators

namespace Cert.RefStages

open Cert.ReferenceIdeal Cert.ReferenceIdeal.Gen Cert.ReferenceIdeal.Read Idealize.ShloMosaic Idealize.ShloMosaic.ValueIdx
open Cert.GcnSpec Cert.ScatterRead

/-! ## The joined arrays -/

/-- Two arrays of 1048576 and 16384 entries joined end to end, read at entry e: the first array at e, or the
    second at e − 1048576. -/
theorem join_apply {α : Type} (a : S1048576.Idx → α) (b : S16384.Idx → α)
    (h : Shape.Concatenates [S1048576, S16384] S1064960 0) (e : Fin 1064960) :
    concatenate S1064960 0 [⟨S1048576, a⟩, ⟨S16384, b⟩] h (ix1 e)
      = if h' : e.val < 1048576 then a (ix1 (⟨e.val, h'⟩ : Fin 1048576))
        else b (ix1 (⟨e.val - 1048576, by have := e.isLt; omega⟩ : Fin 16384)) := by
  by_cases h' : e.val < 1048576
  · rw [dif_pos h']
    exact concatenate_pair_apply_left (0 : Fin 1) a b h (ix1 e) rfl (ix1 (⟨e.val, h'⟩ : Fin 1048576))
      (fun b => by match b with | ⟨0, _⟩ => rfl)
  · rw [dif_neg h']
    exact concatenate_pair_apply_right (0 : Fin 1) a b h (ix1 e) rfl rfl
      (ix1 (⟨e.val - 1048576, by have := e.isLt; omega⟩ : Fin 16384))
      (fun b hb => absurd (Subsingleton.elim _ _) hb)
      (by show e.val - 1048576 + 1048576 = e.val; omega)

/-- The joined source array at edge e is the source word of e. -/
theorem row_word (x1 : (⟨S2x1048576, .i32⟩ : BufTy).Contents (Elt Ideal)) (e : Fin 1064960) :
    val_main_v6 (F := Ideal) x1 (ix1 e) = rowW x1 e := by
  unfold val_main_v6 rowW
  rw [join_apply]
  by_cases h' : e.val < 1048576
  · rw [dif_pos h', dif_pos h', val_main_v1_apply, val_main_v0_apply]
    refine congrArg x1 (funext fun a => Fin.ext ?_)
    match a with
    | ⟨0, _⟩ => rfl
    | ⟨1, _⟩ => exact Nat.mod_eq_of_lt h'
  · rw [dif_neg h', dif_neg h', val_main_v5_apply]

/-- The joined target array at edge e is the target word of e. -/
theorem col_word (x1 : (⟨S2x1048576, .i32⟩ : BufTy).Contents (Elt Ideal)) (e : Fin 1064960) :
    val_main_v7 (F := Ideal) x1 (ix1 e) = colW x1 e := by
  unfold val_main_v7 colW
  rw [join_apply]
  by_cases h' : e.val < 1048576
  · rw [dif_pos h', dif_pos h', val_main_v3_apply, val_main_v2_apply]
    refine congrArg x1 (funext fun a => Fin.ext ?_)
    match a with
    | ⟨0, _⟩ => rfl
    | ⟨1, _⟩ => exact Nat.mod_eq_of_lt h'
  · rw [dif_neg h', dif_neg h', val_main_v5_apply]

/-- The joined weight array at edge e is the weight of e. -/
theorem weight (x2 : (⟨S1048576x1, .f32⟩ : BufTy).Contents (Elt Ideal)) (e : Fin 1064960) :
    val_main_v9 (F := Ideal) x2 (ix1 e) = w2 x2 e := by
  unfold val_main_v9 w2
  rw [join_apply]
  by_cases h' : e.val < 1048576
  · rw [dif_pos h', dif_pos h', val_main_v4_apply]
    refine congrArg x2 (funext fun a => Fin.ext ?_)
    match a with
    | ⟨0, _⟩ => exact Nat.div_one _
    | ⟨1, _⟩ => rfl
  · rw [dif_neg h', dif_neg h', val_main_v8_apply, val_main_cst_apply]
    rfl

/-! ## The normalisation -/

/-- The index array of the three accumulating scatters at edge e is the target word of e. -/
theorem scatter_index (x1 : (⟨S2x1048576, .i32⟩ : BufTy).Contents (Elt Ideal)) (e : Fin 1064960) :
    val_main_v11 (F := Ideal) x1 (ix2 e 0) = colW x1 e := by
  rw [val_main_v11_apply]
  exact (congrArg (val_main_v7 (F := Ideal) x1) (funext fun a => by match a with | ⟨0, _⟩ => rfl)).trans (col_word x1 e)

/-- The first accumulating scatter is the weighted in-degree. -/
theorem degree (x1 : (⟨S2x1048576, .i32⟩ : BufTy).Contents (Elt Ideal))
    (x2 : (⟨S1048576x1, .f32⟩ : BufTy).Contents (Elt Ideal)) (i : Fin 16384) :
    val_main_v12 (F := Ideal) x1 x2 (ix1 i) = deg x1 x2 i := by
  unfold val_main_v12 deg
  refine (ref_scatter1_apply _ _ _ i).trans ?_
  rewrite [val_main_v10_apply, val_main_cst_0_apply]
  have hz : FloatOps.ofBits (F := Ideal) .f32 0x00000000#32 = (0 : EReal) := Ideal.ofBits_zero_f32
  rewrite [hz]
  refine congrArg (fun s => (0 : EReal) + s)
    (Finset.sum_congr (Finset.filter_congr fun e _ => ?_) fun e _ => weight x2 e)
  rewrite [scatter_index]
  exact Iff.rfl

/-- The compare, the inverse square root and the select are the power -1/2 of the degree. -/
theorem inv_sqrt_degree (x1 : (⟨S2x1048576, .i32⟩ : BufTy).Contents (Elt Ideal))
    (x2 : (⟨S1048576x1, .f32⟩ : BufTy).Contents (Elt Ideal)) (i : Fin 16384) :
    val_main_v16 (F := Ideal) x1 x2 (ix1 i) = dinv x1 x2 i := by
  rewrite [val_main_v16_apply, val_main_v14_apply, val_main_v15_apply, degree, val_main_v13_apply, val_main_cst_1_apply,
    val_main_call0_v1_apply, val_main_call0_v0_apply, val_main_cst_2_apply]
  unfold dinv
  simp only [Ideal.cmpf_def, Ideal.ofBits_def, Ideal.hostUnary_rsqrt_def]

/-- The wrapped source word of edge e, as the first lookup of the normalisation reads it. -/
theorem wrapped_row_v21 (x1 : (⟨S2x1048576, .i32⟩ : BufTy).Contents (Elt Ideal)) (e : Fin 1064960) :
    val_main_v21 (F := Ideal) x1 (ix1 e) = wrap (rowW x1 e) := by
  rw [val_main_v21_apply, val_main_v18_apply, val_main_v20_apply, val_main_v17_apply, val_main_c_apply,
    val_main_v19_apply, val_main_c_3_apply, row_word]
  rfl

/-- The wrapped target word of edge e, as the second lookup of the normalisation reads it. -/
theorem wrapped_col_v29 (x1 : (⟨S2x1048576, .i32⟩ : BufTy).Contents (Elt Ideal)) (e : Fin 1064960) :
    val_main_v29 (F := Ideal) x1 (ix1 e) = wrap (colW x1 e) := by
  rw [val_main_v29_apply, val_main_v26_apply, val_main_v28_apply, val_main_v25_apply, val_main_c_4_apply,
    val_main_v27_apply, val_main_c_5_apply, col_word]
  rfl

/-- The wrapped source word of edge e, as the first layer's lookup reads it. -/
theorem wrapped_row_v38 (x1 : (⟨S2x1048576, .i32⟩ : BufTy).Contents (Elt Ideal)) (e : Fin 1064960) :
    val_main_v38 (F := Ideal) x1 (ix1 e) = wrap (rowW x1 e) := by
  rw [val_main_v38_apply, val_main_v35_apply, val_main_v37_apply, val_main_v34_apply, val_main_c_6_apply,
    val_main_v36_apply, val_main_c_7_apply, row_word]
  rfl

/-- The wrapped source word of edge e, as the second layer's lookup reads it. -/
theorem wrapped_row_v54 (x1 : (⟨S2x1048576, .i32⟩ : BufTy).Contents (Elt Ideal)) (e : Fin 1064960) :
    val_main_v54 (F := Ideal) x1 (ix1 e) = wrap (rowW x1 e) := by
  rw [val_main_v54_apply, val_main_v51_apply, val_main_v53_apply, val_main_v50_apply, val_main_c_9_apply,
    val_main_v52_apply, val_main_c_10_apply, row_word]
  rfl

/-- A lookup index clamped into the node range is the node of the word it wraps. -/
theorem clamp_wrap (w v : BitVec 32) (h : v = wrap w) :
    (⟨min v.toInt.toNat 16383, by omega⟩ : Fin 16384) = node w := by
  subst h; rfl

/-- dinv looked up at the source of edge e. -/
theorem dinv_row (x1 : (⟨S2x1048576, .i32⟩ : BufTy).Contents (Elt Ideal))
    (x2 : (⟨S1048576x1, .f32⟩ : BufTy).Contents (Elt Ideal)) (e : Fin 1064960) :
    val_main_v23 (F := Ideal) x1 x2 (ix1 e) = dinv x1 x2 (rowN x1 e) := by
  unfold val_main_v23
  refine (ref_gather1_apply _ _ e).trans ?_
  rw [inv_sqrt_degree]
  refine congrArg (dinv x1 x2) (clamp_wrap _ _ ?_)
  rw [val_main_v22_apply]
  exact (congrArg (val_main_v21 (F := Ideal) x1) (funext fun a => by match a with | ⟨0, _⟩ => rfl)).trans (wrapped_row_v21 x1 e)

/-- dinv looked up at the target of edge e. -/
theorem dinv_col (x1 : (⟨S2x1048576, .i32⟩ : BufTy).Contents (Elt Ideal))
    (x2 : (⟨S1048576x1, .f32⟩ : BufTy).Contents (Elt Ideal)) (e : Fin 1064960) :
    val_main_v31 (F := Ideal) x1 x2 (ix1 e) = dinv x1 x2 (colN x1 e) := by
  unfold val_main_v31
  refine (ref_gather1_apply _ _ e).trans ?_
  rw [inv_sqrt_degree]
  refine congrArg (dinv x1 x2) (clamp_wrap _ _ ?_)
  rw [val_main_v30_apply]
  exact (congrArg (val_main_v29 (F := Ideal) x1) (funext fun a => by match a with | ⟨0, _⟩ => rfl)).trans (wrapped_col_v29 x1 e)

/-- THE EDGE NORMALISATION: the two lookups and the two products. -/
theorem normalisation (x1 : (⟨S2x1048576, .i32⟩ : BufTy).Contents (Elt Ideal))
    (x2 : (⟨S1048576x1, .f32⟩ : BufTy).Contents (Elt Ideal)) (e : Fin 1064960) :
    val_main_v32 (F := Ideal) x1 x2 (ix1 e) = norm x1 x2 e := by
  rw [val_main_v32_apply, val_main_v24_apply, dinv_row, dinv_col, weight]
  rfl

/-- x · W1 at node i. -/
theorem features (x0 : (⟨S16384x128, .f32⟩ : BufTy).Contents (Elt Ideal))
    (x4 : (⟨S128x1, .f32⟩ : BufTy).Contents (Elt Ideal)) (i : Fin 16384) (q : Fin 1) :
    val_main_v33 (F := Ideal) x0 x4 (ix2 i q) = v1 x0 x4 i := by
  obtain rfl : q = 0 := Subsingleton.elim _ _
  rw [val_main_v33_apply]
  unfold v1
  refine Finset.sum_congr rfl fun k _ => ?_
  congr 2
  · funext a; match a with | ⟨0, _⟩ => rfl | ⟨1, _⟩ => rfl
  · funext a; match a with | ⟨0, _⟩ => rfl | ⟨1, _⟩ => rfl

end Cert.RefStages

end
-- ==== Proof.KernelHostB.lean ====
/-
  The idealized kernel program's host side around its two regions, read at an index. Before the first
  region: the row vector x · W1 (a reshape of the matrix product to one row, the change of float format
  being the identity on extended reals), the first bias as a 1×1 array, and the 1×1 weight as launched.
  Between the regions: the first region's output row, the dense matrix unchanged, the second bias as a
  1×1 array and the unit scale. After the second region: the result column is the second region's output
  row reshaped, and the second result is the zero array.
-/
import proofs.«169360_j54606214201548_2_alg».proof.Proof.KernelRun
import proofs.«169360_j54606214201548_2_alg».proof.Proof.Layer1Array
import proofs.«169360_j54606214201548_2_alg».proof.Proof.RefStages
import Idealize.ShloMosaic.Lib.StableHlo.Run
import Idealize.ShloMosaic.Lib.Pipeline.Value

set_option maxRecDepth 16384

noncomputable section

namespace Cert.KernelIdeal.HostB

open Cert.KernelIdeal Cert.KernelIdeal.Gen Cert.KernelIdeal.Run
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## Before the first region -/

set_option maxHeartbeats 2000000 in
/-- The row vector the first region multiplies: the matrix product x · W1, reshaped to one row. -/
theorem row_vector_term (c : Dev nD) :
    (W3 m ρ c (Proc.devRef .tc main_v51) : S1x16384.Idx → EReal)
      = (truncf (F := Ideal) (φ := .f32) .bf16 (shapeCast S1x16384 (Cert.ReferenceIdeal.Read.val_main_v33 (F := Ideal)
          (m ((c.tc : Thread nD τ).loc main_arg0)) (m ((c.tc : Thread nD τ).loc main_arg4))) shapeCasts_S16384x1_S1x16384)
          bitsLt_bf16_f32 : S1x16384.Idx → EReal) := by
  dsimp only [W3, W2, W1, W0]
  simp only [hostOps0, hostOps0_1, hostOps0_2]
  after_results_simp <;> rfl

/-- (H2) The row vector at column j is x · W1 at node j. -/
theorem row_vector (c : Dev nD) (j : Fin 16384) :
    V3 m ρ c main_v51 (ix2 (0 : Fin 1) j)
      = Cert.GcnSpec.v1 (m ((c.tc : Thread nD τ).loc main_arg0)) (m ((c.tc : Thread nD τ).loc main_arg4)) j := by
  show (W3 m ρ c (Proc.devRef .tc main_v51) : S1x16384.Idx → EReal) (ix2 (0 : Fin 1) j) = _
  rw [row_vector_term]
  refine (truncf_apply (φ := .f32) (ψ := .bf16) _ bitsLt_bf16_f32 (ix2 (0 : Fin 1) j)).trans ?_
  rw [shapeCast_apply _ shapeCasts_S16384x1_S1x16384 (ix2 (0 : Fin 1) j) (ix2 j (0 : Fin 1))
    (by rewrite [Shape.rowMajor_val_two, Shape.rowMajor_val_two]; show j.val * 1 + 0 = 0 * 16384 + j.val; omega)]
  exact Cert.RefStages.features _ _ j 0

set_option maxHeartbeats 2000000 in
/-- The first bias as the first region finds it: the bias array reshaped to 1×1. -/
theorem bias1_term (c : Dev nD) :
    (W3 m ρ c (Proc.devRef .tc main_v52) : S1x1.Idx → EReal)
      = shapeCast S1x1 (m ((c.tc : Thread nD τ).loc main_arg5)) shapeCasts_S1_S1x1 := by
  dsimp only [W3, W2, W1, W0]
  simp only [hostOps0, hostOps0_1, hostOps0_2]
  after_results_simp <;> rfl

/-- (H3) The first region's bias is the first bias. -/
theorem bias1 (c : Dev nD) :
    V3 m ρ c main_v52 (ix2 (0 : Fin 1) (0 : Fin 1)) = m ((c.tc : Thread nD τ).loc main_arg5) (ix1 (0 : Fin 1)) := by
  show (W3 m ρ c (Proc.devRef .tc main_v52) : S1x1.Idx → EReal) (ix2 (0 : Fin 1) (0 : Fin 1)) = _
  rw [bias1_term]
  exact shapeCast_apply _ shapeCasts_S1_S1x1 (ix2 (0 : Fin 1) (0 : Fin 1)) (ix1 (0 : Fin 1))
    (by rewrite [Shape.rowMajor_val_one, Shape.rowMajor_val_two]; rfl)

/-- (H3) The first region's scale is the 1×1 weight as launched: no host operation before the region writes it. -/
theorem scale1 (c : Dev nD) : V3 m ρ c main_arg6 = m ((c.tc : Thread nD τ).loc main_arg6) :=
  calc W3 m ρ c (Proc.devRef .tc main_arg6)
    _ = W2 m ρ c (Proc.devRef .tc main_arg6) := StableHlo.after_of_writes_sub hostOps0_2 _ hostOps0_2_writes (by decide : main_arg6 ∉ hostOps0_2_W)
    _ = W1 m ρ c (Proc.devRef .tc main_arg6) := StableHlo.after_of_writes_sub hostOps0_1 _ hostOps0_1_writes (by decide : main_arg6 ∉ hostOps0_1_W)
    _ = W0 m ρ c (Proc.devRef .tc main_arg6) := StableHlo.after_of_writes_sub hostOps0 _ hostOps0_writes (by decide : main_arg6 ∉ hostOps0_W)
    _ = m ((c : Thread nD τ).loc main_arg6) := rfl

/-! ## Between the regions -/

/-- (H4) The second region's row vector is the first region's output row: the stretch between the regions does
    not write it, and it is the first region's output array. -/
theorem layer1_row (c : Dev nD) : V5 m ρ c main_v53 = Cert.KernelIdeal.Layer1.outRow (V3 m ρ) c :=
  calc W5 m ρ c (Proc.devRef .tc main_v53)
    _ = W4 m ρ c (Proc.devRef .tc main_v53) := StableHlo.after_of_writes_sub hostOps1 _ hostOps1_writes (by decide : main_v53 ∉ hostOps1_W)
    _ = (Layer1.dat (V3 m ρ) c).arrAt 4 cfg0.N := W4_arr m ρ c 4
    _ = Layer1.outRow (V3 m ρ) c := Layer1.arrAt_out (V3 m ρ) c

/-- (H4) The dense matrix reaches the second region as the first region found it: an input array of the first
    region, which the pipeline leaves as entered, and not written between the regions. -/
theorem dense_unchanged (c : Dev nD) : V5 m ρ c main_v48 = V3 m ρ c main_v48 :=
  calc W5 m ρ c (Proc.devRef .tc main_v48)
    _ = W4 m ρ c (Proc.devRef .tc main_v48) := StableHlo.after_of_writes_sub hostOps1 _ hostOps1_writes (by decide : main_v48 ∉ hostOps1_W)
    _ = W3 m ρ c (Proc.devRef .tc main_v48) := (W4_arr m ρ c 3).trans (((Layer1.dat (V3 m ρ) c).arrAt_in 3 rfl _).trans (Layer1.A_eq (V3 m ρ) c 3))

/-- The second bias array reaches the stretch between the regions as launched. -/
theorem arg7_at_W4 (c : Dev nD) : W4 m ρ c (Proc.devRef .tc main_arg7) = m ((c.tc : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide : main_arg7 ∉ hostOps0_2_W)
    _ = W1 m ρ c (Proc.devRef .tc main_arg7) := StableHlo.after_of_writes_sub hostOps0_1 _ hostOps0_1_writes (by decide : main_arg7 ∉ hostOps0_1_W)
    _ = W0 m ρ c (Proc.devRef .tc main_arg7) := StableHlo.after_of_writes_sub hostOps0 _ hostOps0_writes (by decide : main_arg7 ∉ hostOps0_W)
    _ = m ((c : Thread nD τ).loc main_arg7) := rfl

set_option maxHeartbeats 2000000 in
/-- The second bias as the second region finds it: the bias array reshaped to 1×1. -/
theorem bias2_term (c : Dev nD) :
    (W5 m ρ c (Proc.devRef .tc main_v54) : S1x1.Idx → EReal)
      = shapeCast S1x1 (W4 m ρ c (Proc.devRef .tc main_arg7) : S1.Idx → EReal) shapeCasts_S1_S1x1 := by
  dsimp only [W5]
  simp only [hostOps1]
  after_results_simp <;> rfl

/-- (H4) The second region's bias is the second bias. -/
theorem bias2 (c : Dev nD) :
    V5 m ρ c main_v54 (ix2 (0 : Fin 1) (0 : Fin 1)) = m ((c.tc : Thread nD τ).loc main_arg7) (ix1 (0 : Fin 1)) := by
  show (W5 m ρ c (Proc.devRef .tc main_v54) : S1x1.Idx → EReal) (ix2 (0 : Fin 1) (0 : Fin 1)) = _
  rw [bias2_term, arg7_at_W4]
  exact shapeCast_apply _ shapeCasts_S1_S1x1 (ix2 (0 : Fin 1) (0 : Fin 1)) (ix1 (0 : Fin 1))
    (by rewrite [Shape.rowMajor_val_one, Shape.rowMajor_val_two]; rfl)

set_option maxHeartbeats 2000000 in
/-- The second region's scale: the constant one, as a 1×1 array. -/
theorem scale2_term (c : Dev nD) :
    (W5 m ρ c (Proc.devRef .tc main_v55) : S1x1.Idx → EReal)
      = broadcastInDim S1x1 ![] bcast_S_S1x1 (constant (F := Ideal) S_ .f32 0x3F800000#32) := by
  dsimp only [W5]
  simp only [hostOps1]
  after_results_simp <;> rfl

/-- (H4) The second region's scale is one (the word 0x3F800000). -/
theorem scale2 (c : Dev nD) :
    V5 m ρ c main_v55 (ix2 (0 : Fin 1) (0 : Fin 1)) = Ideal.ofBits .f32 0x3F800000#32 := by
  show (W5 m ρ c (Proc.devRef .tc main_v55) : S1x1.Idx → EReal) (ix2 (0 : Fin 1) (0 : Fin 1)) = _
  rw [scale2_term]
  rfl

/-! ## After the second region -/

set_option maxHeartbeats 2000000 in
/-- The result column: the second region's output row, reshaped to one column. -/
theorem result_term (c : Dev nD) :
    (W7 m ρ c (Proc.devRef .tc main_v57) : S16384x1.Idx → EReal)
      = shapeCast S16384x1 (W6 m ρ c (Proc.devRef .tc main_v56) : S1x16384.Idx → EReal) shapeCasts_S1x16384_S16384x1 := by
  dsimp only [W7]
  simp only [hostOps2]
  after_results_simp <;> rfl

/-- (H5) The result at row i is the second region's output row at column i. -/
theorem result_col (c : Dev nD) (i : Fin 16384) :
    (W7 m ρ c (Proc.devRef .tc main_v57) : S16384x1.Idx → EReal) (ix2 i (0 : Fin 1))
      = ((Layer2.dat (V5 m ρ) c).arrAt 4 cfg1.N : S1x16384.Idx → EReal) (ix2 (0 : Fin 1) i) := by
  rw [result_term]
  rw [shapeCast_apply _ shapeCasts_S1x16384_S16384x1 (ix2 i (0 : Fin 1)) (ix2 (0 : Fin 1) i)
    (by rewrite [Shape.rowMajor_val_two, Shape.rowMajor_val_two]; show 0 * 16384 + i.val = i.val * 1 + 0; omega)]
  exact congrFun (W6_arr m ρ c 4) (ix2 (0 : Fin 1) i)

set_option maxHeartbeats 2000000 in
/-- (H5) The second result is the zero array. -/
theorem zero_term (c : Dev nD) :
    (W7 m ρ c (Proc.devRef .tc main_v58) : S1.Idx → EReal)
      = broadcastInDim S1 ![] bcast_S_S1 (constant (F := Ideal) S_ .f32 0x00000000#32) := by
  dsimp only [W7]
  simp only [hostOps2]
  after_results_simp <;> rfl

/-- (H5) The two programs' zero arrays are one array. -/
theorem zero_eq_reference :
    (broadcastInDim S1 ![] bcast_S_S1 (constant (F := Ideal) S_ .f32 0x00000000#32) : S1.Idx → EReal)
      = broadcastInDim Cert.ReferenceIdeal.S1 ![] Cert.ReferenceIdeal.Facts₀.bcast_S_S1
          (constant (F := Ideal) Cert.ReferenceIdeal.S_ .f32 0x00000000#32) := rfl

end Cert.KernelIdeal.HostB

end
-- ==== Proof.LibAdjacencySum.lean ====
/-
  Finite sums of real numbers read as extended reals, and the regrouping of a weighted
  "adjacency" sum: summing, over the rows j, v j times the total weight of the kept edges
  whose row is j equals summing v (row e) * weight e over the kept edges e.
-/
import Mathlib.Data.EReal.Basic
import Mathlib.Algebra.BigOperators.Ring.Finset
import Mathlib.Algebra.BigOperators.Group.Finset.Sigma
import Mathlib.Data.Fintype.BigOperators

open scoped BigOperators

namespace Cert.LibAdjacencySum

/-- The inclusion of the reals in the extended reals commutes with finite sums:
    the extended real of `∑ i ∈ s, f i` is `∑ i ∈ s` of the extended reals `f i`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The regrouping over the reals: each kept edge `e` lies in exactly one fibre `r e = j`, so
    `∑ j, v j * ∑ (e kept, r e = j), nrm e = ∑ (e kept), v (r e) * nrm e`. -/
theorem real_regroup {J E : Type*} [Fintype J] [DecidableEq J] [Fintype E]
    (r : E → J) (keep : E → Prop) [DecidablePred keep] (v : J → ℝ) (nrm : E → ℝ) :
    ∑ j, v j * ∑ e ∈ Finset.univ.filter (fun e => r e = j ∧ keep e), nrm e
      = ∑ e ∈ Finset.univ.filter keep, v (r e) * nrm e := by
  rw [← Finset.sum_fiberwise (Finset.univ.filter keep) r (fun e => v (r e) * nrm e)]
  refine Finset.sum_congr rfl fun j _ => ?_
  rw [Finset.mul_sum, Finset.filter_filter]
  refine Finset.sum_congr (Finset.filter_congr fun e _ => and_comm) fun e he => ?_
  rw [(Finset.mem_filter.1 he).2.2]

/-- THE REGROUPING IDENTITY over the extended reals, in the shape the two programs' terms have (every
    sum seeded with `0 +`): the dense product `∑ j, v j * G j`, where `G j = 0 + ∑ (e kept, r e = j), nrm e` is the
    accumulated weight of row `j`, equals the segment sum `0 + ∑ (e kept), v (r e) * nrm e`. All the values are
    real, so no `⊤ + ⊥` or `0 * ⊤` arises and the identity is the real one under the inclusion. -/
theorem sum_mul_adjacency {J E : Type*} [Fintype J] [DecidableEq J] [Fintype E]
    (r : E → J) (keep : E → Prop) [DecidablePred keep] (v : J → ℝ) (nrm : E → ℝ) :
    ∑ j, (v j : EReal) * ((0 : EReal) + ∑ e ∈ Finset.univ.filter (fun e => r e = j ∧ keep e), (nrm e : EReal))
      = (0 : EReal) + ∑ e ∈ Finset.univ.filter keep, (v (r e) : EReal) * (nrm e : EReal) := by
  simp only [zero_add, ← coe_sum, ← EReal.coe_mul]
  rw [real_regroup]

/-- The same identity with the kept edges given as a finite set `S` of edges. -/
theorem sum_mul_adjacency_finset {J E : Type*} [Fintype J] [DecidableEq J] [Fintype E] [DecidableEq E]
    (r : E → J) (S : Finset E) (v : J → ℝ) (nrm : E → ℝ) :
    ∑ j, (v j : EReal) * ((0 : EReal) + ∑ e ∈ S.filter (fun e => r e = j), (nrm e : EReal))
      = (0 : EReal) + ∑ e ∈ S, (v (r e) : EReal) * (nrm e : EReal) := by
  have h := sum_mul_adjacency r (fun e => e ∈ S) v nrm
  have hS : Finset.univ.filter (fun e => e ∈ S) = S := by ext e; simp
  rw [hS] at h
  rw [← h]
  refine Finset.sum_congr rfl fun j _ => ?_
  congr 2
  refine Finset.sum_congr ?_ fun _ _ => rfl
  ext e; simp [and_comm]

end Cert.LibAdjacencySum
-- ==== Proof.GcnAlgebra.lean ====
/-
  The algebra of the two-layer graph convolution over the extended reals, for real inputs and an edge
  table all of whose ends are nodes. Every intermediate quantity is then a real number, so the extended
  reals' arithmetic is the reals'; the product of a node vector with the dense matrix of accumulated edge
  normalisations is the segment sum over the edges; and each layer, written with that dense product,
  is the layer of the specification.
-/
import proofs.«169360_j54606214201548_2_alg».proof.Proof.GcnSpec
import proofs.«169360_j54606214201548_2_alg».proof.Proof.LibAdjacencySum
import Idealize.ShloMosaic.Lib.IdealHost

noncomputable section

open scoped BigOperators

namespace Cert.GcnAlgebra

open Idealize.ShloMosaic Idealize.ShloMosaic.ValueIdx Cert.GcnSpec Cert.LibAdjacencySum

/-! ## Extended reals that are real numbers -/

/-- Zero is a real number. -/
theorem real_zero : ∃ r : ℝ, (0 : EReal) = (r : EReal) := ⟨0, rfl⟩

/-- One is a real number. -/
theorem real_one : ∃ r : ℝ, (1 : EReal) = (r : EReal) := ⟨1, rfl⟩

/-- The sum of two real numbers is one. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two real numbers is one. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of real numbers is one. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self _ _)) (ih fun i hi => hf i (Finset.mem_insert_of_mem hi))

/-- The comparison "greater than" answers one exactly when the order says so. -/
theorem cmp_ogt_eq_one_iff (a b : EReal) : Ideal.cmp .ogt a b = 1 ↔ b < a := by
  show BitVec.ofBool (decide (b < a)) = 1#1 ↔ b < a
  by_cases h : b < a <;> simp [h]

/-! ## Every piece is a real number -/

/-- An edge's weight is real: a listed weight, or one. -/
theorem w2_real (ea : (⟨2, ![1048576, 1]⟩ : Shape).Idx → EReal) (hea : ∀ j, ∃ r : ℝ, ea j = (r : EReal)) (e : Fin 1064960) : ∃ r : ℝ, w2 ea e = (r : EReal) := by
  unfold w2
  split
  · exact hea _
  · rw [Ideal.ofBits_one_f32]
    exact real_one

/-- A node's weighted in-degree is real. -/
theorem deg_real (ei : (⟨2, ![2, 1048576]⟩ : Shape).Idx → BitVec 32) (ea : (⟨2, ![1048576, 1]⟩ : Shape).Idx → EReal) (hea : ∀ j, ∃ r : ℝ, ea j = (r : EReal)) (i : Fin 16384) : ∃ r : ℝ, deg ei ea i = (r : EReal) := by
  unfold deg
  exact real_add real_zero (real_sum _ _ fun e _ => w2_real ea hea e)

/-- deg^(-1/2) is real: where the degree is positive it is the inverse square root of a positive real, and
    elsewhere it is zero. -/
theorem dinv_real (ei : (⟨2, ![2, 1048576]⟩ : Shape).Idx → BitVec 32) (ea : (⟨2, ![1048576, 1]⟩ : Shape).Idx → EReal) (hea : ∀ j, ∃ r : ℝ, ea j = (r : EReal)) (i : Fin 16384) : ∃ r : ℝ, dinv ei ea i = (r : EReal) := by
  obtain ⟨d, hd⟩ := deg_real ei ea hea i
  unfold dinv
  rw [hd, Ideal.ofBits_zero_f32]
  unfold Scalar.select
  split
  · rename_i hc
    have hpos : 0 < d := by
      have := (cmp_ogt_eq_one_iff _ _).1 hc
      exact_mod_cast this
    rw [Ideal.rsqrt_coe, if_neg (not_lt.2 hpos.le), if_neg hpos.ne']
    exact ⟨_, rfl⟩
  · exact real_zero

/-- An edge's normalisation is real. -/
theorem norm_real (ei : (⟨2, ![2, 1048576]⟩ : Shape).Idx → BitVec 32) (ea : (⟨2, ![1048576, 1]⟩ : Shape).Idx → EReal) (hea : ∀ j, ∃ r : ℝ, ea j = (r : EReal)) (e : Fin 1064960) : ∃ r : ℝ, GcnSpec.norm ei ea e = (r : EReal) := by
  unfold GcnSpec.norm
  exact real_mul (real_mul (dinv_real ei ea hea _) (w2_real ea hea e)) (dinv_real ei ea hea _)

/-- x · W1 is real at every node. -/
theorem v1_real (x : (⟨2, ![16384, 128]⟩ : Shape).Idx → EReal) (W1 : (⟨2, ![128, 1]⟩ : Shape).Idx → EReal) (hx : ∀ j, ∃ r : ℝ, x j = (r : EReal)) (hW1 : ∀ j, ∃ r : ℝ, W1 j = (r : EReal)) (i : Fin 16384) : ∃ r : ℝ, v1 x W1 i = (r : EReal) := by
  unfold v1
  exact real_sum _ _ fun k _ => real_mul (hx _) (hW1 _)

/-- The aggregation of a real node vector is real at every node. -/
theorem agg_real (ei : (⟨2, ![2, 1048576]⟩ : Shape).Idx → BitVec 32) (ea : (⟨2, ![1048576, 1]⟩ : Shape).Idx → EReal) (hea : ∀ j, ∃ r : ℝ, ea j = (r : EReal)) (h : Fin 16384 → EReal) (hh : ∀ j, ∃ r : ℝ, h j = (r : EReal))
    (i : Fin 16384) : ∃ r : ℝ, agg ei ea h i = (r : EReal) := by
  unfold agg
  exact real_add real_zero (real_sum _ _ fun e _ => real_mul (hh _) (norm_real ei ea hea e))

/-- The first layer's output is real at every node. -/
theorem out1_real (x : (⟨2, ![16384, 128]⟩ : Shape).Idx → EReal) (ei : (⟨2, ![2, 1048576]⟩ : Shape).Idx → BitVec 32) (ea : (⟨2, ![1048576, 1]⟩ : Shape).Idx → EReal) (W1 : (⟨2, ![128, 1]⟩ : Shape).Idx → EReal) (b1 : (⟨1, ![1]⟩ : Shape).Idx → EReal) (hx : ∀ j, ∃ r : ℝ, x j = (r : EReal)) (hea : ∀ j, ∃ r : ℝ, ea j = (r : EReal)) (hW1 : ∀ j, ∃ r : ℝ, W1 j = (r : EReal)) (hb1 : ∀ j, ∃ r : ℝ, b1 j = (r : EReal))
    (i : Fin 16384) : ∃ r : ℝ, out1 x ei ea W1 b1 i = (r : EReal) := by
  unfold out1
  exact real_add (agg_real ei ea hea _ (v1_real x W1 hx hW1) i) (hb1 _)

/-- The first layer's output times W2 is real at every node. -/
theorem h2_real (x : (⟨2, ![16384, 128]⟩ : Shape).Idx → EReal) (ei : (⟨2, ![2, 1048576]⟩ : Shape).Idx → BitVec 32) (ea : (⟨2, ![1048576, 1]⟩ : Shape).Idx → EReal) (W1 : (⟨2, ![128, 1]⟩ : Shape).Idx → EReal) (b1 : (⟨1, ![1]⟩ : Shape).Idx → EReal) (W2 : (⟨2, ![1, 1]⟩ : Shape).Idx → EReal) (hx : ∀ j, ∃ r : ℝ, x j = (r : EReal)) (hea : ∀ j, ∃ r : ℝ, ea j = (r : EReal)) (hW1 : ∀ j, ∃ r : ℝ, W1 j = (r : EReal)) (hb1 : ∀ j, ∃ r : ℝ, b1 j = (r : EReal)) (hW2 : ∀ j, ∃ r : ℝ, W2 j = (r : EReal))
    (i : Fin 16384) : ∃ r : ℝ, h2 x ei ea W1 b1 W2 i = (r : EReal) := by
  rw [h2_eq]
  exact real_mul (out1_real x ei ea W1 b1 hx hea hW1 hb1 i) (hW2 _)

/-- The second layer's output is real at every node. -/
theorem out2_real (x : (⟨2, ![16384, 128]⟩ : Shape).Idx → EReal) (ei : (⟨2, ![2, 1048576]⟩ : Shape).Idx → BitVec 32) (ea : (⟨2, ![1048576, 1]⟩ : Shape).Idx → EReal) (W1 : (⟨2, ![128, 1]⟩ : Shape).Idx → EReal) (b1 : (⟨1, ![1]⟩ : Shape).Idx → EReal) (W2 : (⟨2, ![1, 1]⟩ : Shape).Idx → EReal) (b2 : (⟨1, ![1]⟩ : Shape).Idx → EReal) (hx : ∀ j, ∃ r : ℝ, x j = (r : EReal)) (hea : ∀ j, ∃ r : ℝ, ea j = (r : EReal)) (hW1 : ∀ j, ∃ r : ℝ, W1 j = (r : EReal)) (hb1 : ∀ j, ∃ r : ℝ, b1 j = (r : EReal)) (hW2 : ∀ j, ∃ r : ℝ, W2 j = (r : EReal)) (hb2 : ∀ j, ∃ r : ℝ, b2 j = (r : EReal))
    (i : Fin 16384) : ∃ r : ℝ, out2 x ei ea W1 b1 W2 b2 i = (r : EReal) := by
  unfold out2
  exact real_add (agg_real ei ea hea _ (h2_real x ei ea W1 b1 W2 hx hea hW1 hb1 hW2) i) (hb2 _)

/-! ## The dense matrix of accumulated normalisations -/

/-- The dense matrix: at `(j, i)`, the total normalisation of the edges looked up from source `j` to target `i`. -/
def Gd (ei : (⟨2, ![2, 1048576]⟩ : Shape).Idx → BitVec 32) (ea : (⟨2, ![1048576, 1]⟩ : Shape).Idx → EReal) (j i : Fin 16384) : EReal :=
  0 + ∑ e ∈ Finset.univ.filter (fun e : Fin 1064960 => rowN ei e = j ∧ colN ei e = i), GcnSpec.norm ei ea e

/-- The dense matrix's entries are real. -/
theorem Gd_real (ei : (⟨2, ![2, 1048576]⟩ : Shape).Idx → BitVec 32) (ea : (⟨2, ![1048576, 1]⟩ : Shape).Idx → EReal) (hea : ∀ j, ∃ r : ℝ, ea j = (r : EReal)) (j i : Fin 16384) : ∃ r : ℝ, Gd ei ea j i = (r : EReal) := by
  unfold Gd
  exact real_add real_zero (real_sum _ _ fun e _ => norm_real ei ea hea e)

/-- THE DENSE PRODUCT IS THE SEGMENT SUM: a real node vector times column `i` of the dense matrix is its
    aggregation at node `i`. Each edge with target `i` lies in exactly one row of the matrix, its source's; and when
    every edge end is a node, selecting the edges by the target read signed selects them by the node looked up. -/
theorem dense_eq_agg (ei : (⟨2, ![2, 1048576]⟩ : Shape).Idx → BitVec 32) (hei : ∀ j, 0 ≤ (ei j).toInt ∧ (ei j).toInt < 16384) (ea : (⟨2, ![1048576, 1]⟩ : Shape).Idx → EReal) (hea : ∀ j, ∃ r : ℝ, ea j = (r : EReal))
    (h : Fin 16384 → EReal) (hh : ∀ j, ∃ r : ℝ, h j = (r : EReal)) (i : Fin 16384) :
    ∑ j, h j * Gd ei ea j i = agg ei ea h i := by
  choose hv hhv using hh
  choose nrm hnrm using norm_real ei ea hea
  have hf : Finset.univ.filter (fun e : Fin 1064960 => colI ei e = (i.val : ℤ))
      = Finset.univ.filter (fun e : Fin 1064960 => colN ei e = i) :=
    Finset.filter_congr fun e _ => colI_eq_iff ei hei e i
  unfold Gd agg
  simp only [hhv, hnrm]
  rw [hf]
  exact sum_mul_adjacency (rowN ei) (fun e => colN ei e = i) hv nrm

/-! ## The two layers written with the dense product -/

/-- THE FIRST LAYER: the dense product of x · W1 seeded with the zero literal, plus the bias, times W2, is
    the specification's first layer times W2. -/
theorem layer1_closed (x : (⟨2, ![16384, 128]⟩ : Shape).Idx → EReal) (ei : (⟨2, ![2, 1048576]⟩ : Shape).Idx → BitVec 32) (hei : ∀ j, 0 ≤ (ei j).toInt ∧ (ei j).toInt < 16384) (ea : (⟨2, ![1048576, 1]⟩ : Shape).Idx → EReal) (W1 : (⟨2, ![128, 1]⟩ : Shape).Idx → EReal) (b1 : (⟨1, ![1]⟩ : Shape).Idx → EReal) (W2 : (⟨2, ![1, 1]⟩ : Shape).Idx → EReal)
    (hx : ∀ j, ∃ r : ℝ, x j = (r : EReal)) (hea : ∀ j, ∃ r : ℝ, ea j = (r : EReal)) (hW1 : ∀ j, ∃ r : ℝ, W1 j = (r : EReal)) (i : Fin 16384) :
    (((Ideal.ofBits .f32 0x00000000#32 : EReal) + ∑ j, v1 x W1 j * Gd ei ea j i) + b1 (ix1 (0 : Fin 1)))
        * W2 (ix2 (0 : Fin 1) (0 : Fin 1))
      = h2 x ei ea W1 b1 W2 i := by
  rw [dense_eq_agg ei hei ea hea (v1 x W1) (v1_real x W1 hx hW1) i, Ideal.ofBits_zero_f32, zero_add, h2_eq]
  rfl

/-- THE SECOND LAYER: the dense product of the first layer's output times W2, seeded with the zero literal, plus
    the bias, times the literal one, is the specification's second layer. -/
theorem layer2_closed (x : (⟨2, ![16384, 128]⟩ : Shape).Idx → EReal) (ei : (⟨2, ![2, 1048576]⟩ : Shape).Idx → BitVec 32) (hei : ∀ j, 0 ≤ (ei j).toInt ∧ (ei j).toInt < 16384) (ea : (⟨2, ![1048576, 1]⟩ : Shape).Idx → EReal) (W1 : (⟨2, ![128, 1]⟩ : Shape).Idx → EReal) (b1 : (⟨1, ![1]⟩ : Shape).Idx → EReal) (W2 : (⟨2, ![1, 1]⟩ : Shape).Idx → EReal) (b2 : (⟨1, ![1]⟩ : Shape).Idx → EReal)
    (hx : ∀ j, ∃ r : ℝ, x j = (r : EReal)) (hea : ∀ j, ∃ r : ℝ, ea j = (r : EReal)) (hW1 : ∀ j, ∃ r : ℝ, W1 j = (r : EReal)) (hb1 : ∀ j, ∃ r : ℝ, b1 j = (r : EReal)) (hW2 : ∀ j, ∃ r : ℝ, W2 j = (r : EReal)) (i : Fin 16384) :
    (((Ideal.ofBits .f32 0x00000000#32 : EReal) + ∑ j, h2 x ei ea W1 b1 W2 j * Gd ei ea j i) + b2 (ix1 (0 : Fin 1)))
        * (Ideal.ofBits .f32 0x3F800000#32 : EReal)
      = out2 x ei ea W1 b1 W2 b2 i := by
  rw [dense_eq_agg ei hei ea hea (h2 x ei ea W1 b1 W2) (h2_real x ei ea W1 b1 W2 hx hea hW1 hb1 hW2) i,
    Ideal.ofBits_zero_f32, zero_add, Ideal.ofBits_one_f32, mul_one]
  rfl

end Cert.GcnAlgebra

end
-- ==== Proof.KernelHost.lean ====
/-
  The kernel program's host side up to the first layer's region, at the ideal instance: the per-edge
  normalisation and the two arrays of wrapped edge ends are the reference program's stages of the same
  arguments, and the dense matrix the first region reads is, entry by entry, the accumulated normalisation
  of the edges from one node to another.

  Each stretch of host operations is first read from an ARBITRARY valuation of the buffers at its start:
  the buffers earlier stretches wrote stay atoms, so each reading is a small term. The atoms are then
  identified with the reference program's stage functions of the arguments.
-/
import proofs.«169360_j54606214201548_2_alg».proof.Proof.KernelRun
import proofs.«169360_j54606214201548_2_alg».proof.Proof.RefStages
import proofs.«169360_j54606214201548_2_alg».proof.Proof.GcnAlgebra
import proofs.«169360_j54606214201548_2_alg».proof.Proof.ScatterRead
import Idealize.ShloMosaic.Lib.StableHlo.Run
import Idealize.ShloMosaic.Lib.Pipeline.Value

set_option maxRecDepth 16384

noncomputable section

open scoped BigOperators

namespace Cert.KernelIdeal.Host

open Cert.KernelIdeal Cert.KernelIdeal.Gen Cert.KernelIdeal.Run
open Idealize.ShloMosaic Idealize.ShloMosaic.TcCoe Idealize.SL.Sem Idealize.ShloMosaic.StableHlo
open Idealize.ShloMosaic.ValueIdx

/-! ## The stretches read from an arbitrary valuation -/

/-- A word array with every negative word moved up by the number of nodes: what each of the four
    compare-add-select groups on an array of edge ends computes. -/
abbrev wrapAll (a : IVec S1064960 32) : IVec S1064960 32 :=
  select (cmpi .slt a (broadcastInDim S1064960 ![] bcast_S_S1064960 (constantI S_ 32 0#32)))
    (addi a (broadcastInDim S1064960 ![] bcast_S_S1064960 (constantI S_ 32 16384#32))) a

section Generic
variable (V : Valuation τ sig (Elt Ideal))

set_option maxHeartbeats 2000000 in
/-- The outlined select: the inverse square root where the compare says so, else the broadcast zero. -/
theorem after1_v16 :
    (after hostOps0_1 V (Proc.devRef .tc main_v16) : FVec Ideal S16384 .f32)
      = select (s := S16384) (V (Proc.devRef .tc main_v14)) (V (Proc.devRef .tc main_v15) : FVec Ideal S16384 .f32)
          (broadcastInDim S16384 ![] bcast_S_S16384 (id (V (Proc.devRef .tc main_cst_2) : FVec Ideal S_ .f32))) := by
  simp only [hostOps0_1]
  after_results_simp
  all_goals rfl

set_option maxHeartbeats 2000000 in
/-- The per-edge update: the looked-up value at the wrapped source, times the weight, times the looked-up value
    at the wrapped target. -/
theorem after2_v32 :
    (after hostOps0_2 V (Proc.devRef .tc main_v32) : FVec Ideal S1064960 .f32)
      = mulf (F := Ideal) (s := S1064960) (φ := .f32)
          (mulf (F := Ideal) (s := S1064960) (φ := .f32)
            (Host.gather gather_S16384_S1064960x1_S1064960_n_0_n_n_0_1_1 (V (Proc.devRef .tc main_v16) : FVec Ideal S16384 .f32)
              (broadcastInDim S1064960x1 ![0] bcast_S1064960_S1064960x1_0 (wrapAll (V (Proc.devRef .tc main_v6)))))
            (V (Proc.devRef .tc main_v9)))
          (Host.gather gather_S16384_S1064960x1_S1064960_n_0_n_n_0_1_1 (V (Proc.devRef .tc main_v16) : FVec Ideal S16384 .f32)
            (broadcastInDim S1064960x1 ![0] bcast_S1064960_S1064960x1_0 (wrapAll (V (Proc.devRef .tc main_v7))))) := by
  simp only [hostOps0_2]
  after_results_simp
  all_goals rfl

set_option maxHeartbeats 2000000 in
/-- The wrapped sources the dense accumulation scatters by. -/
theorem after2_v38 :
    (after hostOps0_2 V (Proc.devRef .tc main_v38) : IVec S1064960 32) = wrapAll (V (Proc.devRef .tc main_v6)) := by
  simp only [hostOps0_2]
  after_results_simp
  all_goals rfl

set_option maxHeartbeats 2000000 in
/-- The wrapped targets the dense accumulation scatters by. -/
theorem after2_v43 :
    (after hostOps0_2 V (Proc.devRef .tc main_v43) : IVec S1064960 32) = wrapAll (V (Proc.devRef .tc main_v7)) := by
  simp only [hostOps0_2]
  after_results_simp
  all_goals rfl

set_option maxHeartbeats 2000000 in
/-- The pairs of start indices: the wrapped sources and the wrapped targets side by side. -/
theorem after2_v46 :
    (after hostOps0_2 V (Proc.devRef .tc main_v46) : IVec S1064960x2 32)
      = concatenate S1064960x2 1
          [⟨S1064960x1, broadcastInDim S1064960x1 ![0] bcast_S1064960_S1064960x1_0 (wrapAll (V (Proc.devRef .tc main_v6)))⟩,
           ⟨S1064960x1, broadcastInDim S1064960x1 ![0] bcast_S1064960_S1064960x1_0 (wrapAll (V (Proc.devRef .tc main_v7)))⟩]
          concatenates_S1064960x1_S1064960x1_S1064960x2_d1 := by
  simp only [hostOps0_2]
  after_results_simp
  all_goals rfl

set_option maxHeartbeats 2000000 in
/-- The dense matrix: the accumulating scatter of the per-edge updates into zeros by the pairs of start indices,
    then the change of format. -/
theorem after2_v48 :
    (after hostOps0_2 V (Proc.devRef .tc main_v48) : FVec Ideal S16384x16384 .bf16)
      = truncf (F := Ideal) .bf16
          (Host.scatterAdd (F := Ideal) (φ := .f32) scatter_S16384x16384_S1064960x2_S1064960_n_01_01_1
            (broadcastInDim S16384x16384 ![] bcast_S_S16384x16384 (constant (F := Ideal) S_ .f32 0x00000000#32))
            (after hostOps0_2 V (Proc.devRef .tc main_v46) : IVec S1064960x2 32)
            (after hostOps0_2 V (Proc.devRef .tc main_v32) : FVec Ideal S1064960 .f32))
          bitsLt_bf16_f32 := by
  simp only [hostOps0_2]
  after_results_simp
  all_goals rfl

end Generic

/-! ## The first stretch's buffers as the reference program's stages -/

variable (m : (ℓ : Loc nD τ sig) → Buf (Elt Ideal) ℓ) (ρ : Dev nD → PrngReg)

/-- The edge table the program was launched with. -/
abbrev EI (c : Dev nD) : (⟨S2x1048576, .i32⟩ : BufTy).Contents (Elt Ideal) := m ((c.tc : Thread nD τ).loc main_arg1)
/-- The edge weights the program was launched with. -/
abbrev EA (c : Dev nD) : (⟨S1048576x1, .f32⟩ : BufTy).Contents (Elt Ideal) := m ((c.tc : Thread nD τ).loc main_arg2)

set_option maxHeartbeats 2000000 in
theorem W1_v6 (c : Dev nD) :
    (W1 m ρ c (Proc.devRef .tc main_v6) : IVec S1064960 32) = Cert.ReferenceIdeal.Read.val_main_v6 (F := Ideal) (EI m c) := by
  dsimp only [W1, W0]
  simp only [hostOps0]
  after_results_simp <;> rfl

set_option maxHeartbeats 2000000 in
theorem W1_v7 (c : Dev nD) :
    (W1 m ρ c (Proc.devRef .tc main_v7) : IVec S1064960 32) = Cert.ReferenceIdeal.Read.val_main_v7 (F := Ideal) (EI m c) := by
  dsimp only [W1, W0]
  simp only [hostOps0]
  after_results_simp <;> rfl

set_option maxHeartbeats 2000000 in
theorem W1_v9 (c : Dev nD) :
    (W1 m ρ c (Proc.devRef .tc main_v9) : FVec Ideal S1064960 .f32) = Cert.ReferenceIdeal.Read.val_main_v9 (F := Ideal) (EA m c) := by
  dsimp only [W1, W0]
  simp only [hostOps0]
  after_results_simp <;> rfl

set_option maxHeartbeats 2000000 in
theorem W1_v14 (c : Dev nD) :
    (W1 m ρ c (Proc.devRef .tc main_v14) : IVec S16384 1) = Cert.ReferenceIdeal.Read.val_main_v14 (F := Ideal) (EI m c) (EA m c) := by
  dsimp only [W1, W0]
  simp only [hostOps0]
  after_results_simp <;> rfl

set_option maxHeartbeats 2000000 in
theorem W1_v15 (c : Dev nD) :
    (W1 m ρ c (Proc.devRef .tc main_v15) : FVec Ideal S16384 .f32) = Cert.ReferenceIdeal.Read.val_main_v15 (F := Ideal) (EI m c) (EA m c) := by
  dsimp only [W1, W0]
  simp only [hostOps0]
  after_results_simp <;> rfl

set_option maxHeartbeats 2000000 in
theorem W1_cst_2 (c : Dev nD) :
    (W1 m ρ c (Proc.devRef .tc main_cst_2) : FVec Ideal S_ .f32) = Cert.ReferenceIdeal.Read.val_main_cst_2 (F := Ideal) := by
  dsimp only [W1, W0]
  simp only [hostOps0]
  after_results_simp <;> rfl

/-! ## Through the outlined select -/

theorem W2_v6 (c : Dev nD) :
    (W2 m ρ c (Proc.devRef .tc main_v6) : IVec S1064960 32) = Cert.ReferenceIdeal.Read.val_main_v6 (F := Ideal) (EI m c) :=
  (StableHlo.after_of_writes_sub hostOps0_1 _ hostOps0_1_writes (by decide : main_v6 ∉ hostOps0_1_W)).trans (W1_v6 m ρ c)

theorem W2_v7 (c : Dev nD) :
    (W2 m ρ c (Proc.devRef .tc main_v7) : IVec S1064960 32) = Cert.ReferenceIdeal.Read.val_main_v7 (F := Ideal) (EI m c) :=
  (StableHlo.after_of_writes_sub hostOps0_1 _ hostOps0_1_writes (by decide : main_v7 ∉ hostOps0_1_W)).trans (W1_v7 m ρ c)

theorem W2_v9 (c : Dev nD) :
    (W2 m ρ c (Proc.devRef .tc main_v9) : FVec Ideal S1064960 .f32) = Cert.ReferenceIdeal.Read.val_main_v9 (F := Ideal) (EA m c) :=
  (StableHlo.after_of_writes_sub hostOps0_1 _ hostOps0_1_writes (by decide : main_v9 ∉ hostOps0_1_W)).trans (W1_v9 m ρ c)

/-- deg^(-1/2): the kernel's outlined select is the reference's. -/
theorem W2_v16 (c : Dev nD) :
    (W2 m ρ c (Proc.devRef .tc main_v16) : FVec Ideal S16384 .f32) = Cert.ReferenceIdeal.Read.val_main_v16 (F := Ideal) (EI m c) (EA m c) := by
  refine (after1_v16 (W1 m ρ c)).trans ?_
  rw [W1_v14 m ρ c, W1_v15 m ρ c, W1_cst_2 m ρ c]
  rfl

/-! ## The third stretch's buffers as the reference program's stages -/

/-- THE PER-EDGE UPDATE is the reference's edge normalisation stage. -/
theorem W3_v32 (c : Dev nD) :
    (W3 m ρ c (Proc.devRef .tc main_v32) : FVec Ideal S1064960 .f32) = Cert.ReferenceIdeal.Read.val_main_v32 (F := Ideal) (EI m c) (EA m c) := by
  refine (after2_v32 (W2 m ρ c)).trans ?_
  rw [W2_v16 m ρ c, W2_v6 m ρ c, W2_v7 m ρ c, W2_v9 m ρ c]
  rfl

/-- The wrapped sources are the reference's (its first layer's lookup indices). -/
theorem W3_v38 (c : Dev nD) :
    (W3 m ρ c (Proc.devRef .tc main_v38) : IVec S1064960 32) = Cert.ReferenceIdeal.Read.val_main_v38 (F := Ideal) (EI m c) := by
  refine (after2_v38 (W2 m ρ c)).trans ?_
  rw [W2_v6 m ρ c]
  rfl

/-- The wrapped targets are the reference's (its normalisation's second lookup indices). -/
theorem W3_v43 (c : Dev nD) :
    (W3 m ρ c (Proc.devRef .tc main_v43) : IVec S1064960 32) = Cert.ReferenceIdeal.Read.val_main_v29 (F := Ideal) (EI m c) := by
  refine (after2_v43 (W2 m ρ c)).trans ?_
  rw [W2_v7 m ρ c]
  rfl

/-! ## The dense matrix -/

/-- The pairs of start indices, over the reference's stages. -/
theorem W3_v46 (c : Dev nD) :
    (W3 m ρ c (Proc.devRef .tc main_v46) : IVec S1064960x2 32)
      = concatenate S1064960x2 1
          [⟨S1064960x1, broadcastInDim S1064960x1 ![0] bcast_S1064960_S1064960x1_0 (Cert.ReferenceIdeal.Read.val_main_v38 (F := Ideal) (EI m c))⟩,
           ⟨S1064960x1, broadcastInDim S1064960x1 ![0] bcast_S1064960_S1064960x1_0 (Cert.ReferenceIdeal.Read.val_main_v29 (F := Ideal) (EI m c))⟩]
          concatenates_S1064960x1_S1064960x1_S1064960x2_d1 := by
  refine (after2_v46 (W2 m ρ c)).trans ?_
  rw [W2_v6 m ρ c, W2_v7 m ρ c]
  rfl

/-- Component 0 of edge e's pair of start indices is its wrapped source word. -/
theorem v46_row (c : Dev nD) (e : Fin 1064960) :
    (W3 m ρ c (Proc.devRef .tc main_v46) : IVec S1064960x2 32) (ix2 e (0 : Fin 2))
      = Cert.GcnSpec.wrap (Cert.GcnSpec.rowW (EI m c) e) := by
  refine (congrFun (W3_v46 m ρ c) (ix2 e (0 : Fin 2))).trans ?_
  refine (concatenate_pair_apply_left (t := S1064960x2) (s₁ := S1064960x1) (s₂ := S1064960x1) (1 : Fin 2) _ _ concatenates_S1064960x1_S1064960x1_S1064960x2_d1 (ix2 e (0 : Fin 2)) rfl
    (ix2 e (0 : Fin 1)) (fun b => by match b with | ⟨0, _⟩ => rfl | ⟨1, _⟩ => rfl)).trans ?_
  refine (broadcastInDim_apply _ bcast_S1064960_S1064960x1_0 _ (ix2 e (0 : Fin 1)) (ix1 e) (fun a => by
    match a with
    | ⟨0, _⟩ => show e.val = if (1064960 : Nat) = 1 then 0 else e.val; rw [if_neg (by decide)])).trans ?_
  exact Cert.RefStages.wrapped_row_v38 (EI m c) e

/-- Component 1 of edge e's pair of start indices is its wrapped target word. -/
theorem v46_col (c : Dev nD) (e : Fin 1064960) :
    (W3 m ρ c (Proc.devRef .tc main_v46) : IVec S1064960x2 32) (ix2 e (1 : Fin 2))
      = Cert.GcnSpec.wrap (Cert.GcnSpec.colW (EI m c) e) := by
  refine (congrFun (W3_v46 m ρ c) (ix2 e (1 : Fin 2))).trans ?_
  refine (concatenate_pair_apply_right (t := S1064960x2) (s₁ := S1064960x1) (s₂ := S1064960x1) (1 : Fin 2) _ _ concatenates_S1064960x1_S1064960x1_S1064960x2_d1 (ix2 e (1 : Fin 2)) rfl rfl
    (ix2 e (0 : Fin 1)) (fun b hb => by
      match b, hb with
      | ⟨0, _⟩, _ => rfl
      | ⟨1, _⟩, hb => exact absurd rfl hb) rfl).trans ?_
  refine (broadcastInDim_apply _ bcast_S1064960_S1064960x1_0 _ (ix2 e (0 : Fin 1)) (ix1 e) (fun a => by
    match a with
    | ⟨0, _⟩ => show e.val = if (1064960 : Nat) = 1 then 0 else e.val; rw [if_neg (by decide)])).trans ?_
  exact Cert.RefStages.wrapped_col_v29 (EI m c) e

/-- The per-edge update at edge e is the edge's normalisation. -/
theorem v32_apply (c : Dev nD) (e : Fin 1064960) :
    (W3 m ρ c (Proc.devRef .tc main_v32) : FVec Ideal S1064960 .f32) (ix1 e) = Cert.GcnSpec.norm (EI m c) (EA m c) e :=
  (congrFun (W3_v32 m ρ c) (ix1 e)).trans (Cert.RefStages.normalisation (EI m c) (EA m c) e)

/-- THE DENSE MATRIX the first region reads, entry by entry: when every end in the edge table is a node, entry
    (j, i) is the accumulated normalisation of the edges looked up from source j to target i. The matrix is the
    accumulating scatter of the per-edge normalisations into zeros by the pairs (wrapped source, wrapped target);
    a non-negative end is not wrapped, so an edge lands on (j, i) exactly when its source is j and its target is i;
    and the change of format is the identity on extended reals. -/
theorem dense (c : Dev nD) (hei : ∀ j : S2x1048576.Idx, 0 ≤ (EI m c j).toInt ∧ (EI m c j).toInt < 16384) (j i : Fin 16384) :
    (V3 m ρ c main_v48 : FVec Ideal S16384x16384 .bf16) (ix2 j i) = Cert.GcnAlgebra.Gd (EI m c) (EA m c) j i := by
  have hrow : ∀ e : Fin 1064960,
      ((W3 m ρ c (Proc.devRef .tc main_v46) : IVec S1064960x2 32) (ix2 e (0 : Fin 2))).toInt
        = ((Cert.GcnSpec.rowN (EI m c) e).val : ℤ) := fun e => by
    rw [v46_row m ρ c e, Cert.GcnSpec.wrap_of_nonneg _ (Cert.GcnSpec.rowI_range _ hei e).1]
    exact (Cert.GcnSpec.rowN_val _ hei e).symm
  have hcol : ∀ e : Fin 1064960,
      ((W3 m ρ c (Proc.devRef .tc main_v46) : IVec S1064960x2 32) (ix2 e (1 : Fin 2))).toInt
        = ((Cert.GcnSpec.colN (EI m c) e).val : ℤ) := fun e => by
    rw [v46_col m ρ c e, Cert.GcnSpec.wrap_of_nonneg _ (Cert.GcnSpec.colI_range _ hei e).1]
    exact (Cert.GcnSpec.colN_val _ hei e).symm
  have hX : (broadcastInDim S16384x16384 ![] bcast_S_S16384x16384 (constant (F := Ideal) S_ .f32 0x00000000#32)
      : FVec Ideal S16384x16384 .f32) (ix2 j i) = (0 : EReal) := by
    rw [broadcastInDim_apply _ bcast_S_S16384x16384 _ (ix2 j i) (fun a => a.elim0) (fun a => a.elim0)]
    exact Ideal.ofBits_zero_f32
  refine (congrFun (after2_v48 (W2 m ρ c)) (ix2 j i)).trans ?_
  refine (truncf_apply (φ := .f32) (ψ := .bf16) _ bitsLt_bf16_f32 (ix2 j i)).trans ?_
  refine (Cert.ScatterRead.ker_scatter2_apply_of_nodes _ _ _ (Cert.GcnSpec.rowN (EI m c)) (Cert.GcnSpec.colN (EI m c))
    hrow hcol j i).trans ?_
  rw [hX]
  unfold Cert.GcnAlgebra.Gd
  exact congrArg (fun s => (0 : EReal) + s) (Finset.sum_congr rfl fun e _ => v32_apply m ρ c e)

/-- The dense matrix, entry by entry, with the argument buffers written out. -/
theorem dense_matrix (m : (ℓ : Loc nD τ sig) → Buf (Elt Ideal) ℓ) (ρ : Dev nD → PrngReg) (c : Dev nD)
    (hei : ∀ j, 0 ≤ (m ((c.tc : Thread nD τ).loc main_arg1) j).toInt ∧ (m ((c.tc : Thread nD τ).loc main_arg1) j).toInt < 16384) (j i : Fin 16384) :
    V3 m ρ c main_v48 (ix2 j i) = Cert.GcnAlgebra.Gd (m ((c.tc : Thread nD τ).loc main_arg1)) (m ((c.tc : Thread nD τ).loc main_arg2)) j i :=
  dense m ρ c hei j i

end Cert.KernelIdeal.Host

end
-- ==== Proof.Layer1PayIdeal.lean ====
/- The first layer's kernel body as arithmetic on the extended reals, one output column at a time: the zero row, the
   accumulation step (the row found plus the sum over the contraction positions of vector entry times matrix entry), and
   the epilogue ((row + bias) · scale). -/
import proofs.«169360_j54606214201548_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Idealize.ShloMosaic.Pipeline (Dat Cfg Window BodyObligation cellOf)

/-! ## The body's arithmetic at an index, over the extended reals -/

/-- The row product's operand indices. At output index `i` and contraction index `q` the left factor sits at row
    `i 0` and column `q`, -/
theorem lhs_0 (i : S1x4096.Idx) (q : dot_S1x2048_S2048x4096_S1x4096_1_0_0_1_n_n.contr.Idx) :
    (dot_S1x2048_S2048x4096_S1x4096_1_0_0_1_n_n.lhsIdx i q 0).val = (i 0).val := by
  unfold DotDims.lhsIdx
  rw [dif_neg (show ¬(0 : Fin S1x2048.rank) ∈ dot_S1x2048_S2048x4096_S1x4096_1_0_0_1_n_n.lhsBatch by decide), dif_pos (show (0 : Fin S1x2048.rank) ∈ dot_S1x2048_S2048x4096_S1x4096_1_0_0_1_n_n.lhsNonContracting by decide)]
  rfl
theorem lhs_1 (i : S1x4096.Idx) (q : dot_S1x2048_S2048x4096_S1x4096_1_0_0_1_n_n.contr.Idx) :
    (dot_S1x2048_S2048x4096_S1x4096_1_0_0_1_n_n.lhsIdx i q 1).val = (q ⟨0, by decide⟩).val :=
  dot_S1x2048_S2048x4096_S1x4096_1_0_0_1_n_n.lhsIdx_val_of_single rfl i q
/-- and the right factor at row `q` and column `i 1`. -/
theorem rhs_0 (i : S1x4096.Idx) (q : dot_S1x2048_S2048x4096_S1x4096_1_0_0_1_n_n.contr.Idx) :
    (dot_S1x2048_S2048x4096_S1x4096_1_0_0_1_n_n.rhsIdx i q 0).val = (q ⟨0, by decide⟩).val :=
  dot_S1x2048_S2048x4096_S1x4096_1_0_0_1_n_n.rhsIdx_val_of_single rfl i q
theorem rhs_1 (i : S1x4096.Idx) (q : dot_S1x2048_S2048x4096_S1x4096_1_0_0_1_n_n.contr.Idx) :
    (dot_S1x2048_S2048x4096_S1x4096_1_0_0_1_n_n.rhsIdx i q 1).val = (i 1).val := by
  unfold DotDims.rhsIdx
  rw [dif_neg (show ¬(1 : Fin S2048x4096.rank) ∈ dot_S1x2048_S2048x4096_S1x4096_1_0_0_1_n_n.rhsBatch by decide), dif_pos (show (1 : Fin S2048x4096.rank) ∈ dot_S1x2048_S2048x4096_S1x4096_1_0_0_1_n_n.rhsNonContracting by decide)]
  rfl

/-- The product of the vector's slice with the matrix's block into a zero accumulator, at column `j`: the sum over the
    2048 contraction positions of entry times entry. -/
theorem matmul_row_apply (x4 : FVec Ideal S1x2048 .bf16) (x5 : FVec Ideal S2048x4096 .bf16) (j : Fin 4096) :
    matmul dot_S1x2048_S2048x4096_S1x4096_1_0_0_1_n_n none x4 x5 (constant (F := Ideal) S1x4096 .f32 0x00000000#32) (ix2 (0 : Fin 1) j)
      = ∑ k : Fin 2048, x4 (ix2 (0 : Fin 1) k) * x5 (ix2 k j) := by
  simp only [matmul]
  rw [Ideal.matmul_constant_zero_apply, ← Equiv.sum_comp (contrEquiv1 dot_S1x2048_S2048x4096_S1x4096_1_0_0_1_n_n 2048 rfl rfl).symm]
  refine Finset.sum_congr rfl fun k _ => ?_
  have hk := contrEquiv1_symm_val dot_S1x2048_S2048x4096_S1x4096_1_0_0_1_n_n 2048 rfl rfl k
  have el : dot_S1x2048_S2048x4096_S1x4096_1_0_0_1_n_n.lhsIdx (ix2 (0 : Fin 1) j) ((contrEquiv1 dot_S1x2048_S2048x4096_S1x4096_1_0_0_1_n_n 2048 rfl rfl).symm k) = ix2 (0 : Fin 1) k := funext fun a => Fin.ext (by
    match a with
    | ⟨0, _⟩ => exact lhs_0 _ _
    | ⟨1, _⟩ => exact (lhs_1 _ _).trans hk)
  have er : dot_S1x2048_S2048x4096_S1x4096_1_0_0_1_n_n.rhsIdx (ix2 (0 : Fin 1) j) ((contrEquiv1 dot_S1x2048_S2048x4096_S1x4096_1_0_0_1_n_n 2048 rfl rfl).symm k) = ix2 k j := funext fun a => Fin.ext (by
    match a with
    | ⟨0, _⟩ => exact (rhs_0 _ _).trans hk
    | ⟨1, _⟩ => exact rhs_1 _ _)
  rw [el, er]

/-- The accumulation step at column `j`: the row it found there plus that sum. -/
theorem pay2_apply (xs : FVec Ideal S1x4096 .f32) (x4 : FVec Ideal S1x2048 .bf16) (x5 : FVec Ideal S2048x4096 .bf16) (j : Fin 4096) :
    k0_pay2 (F := Ideal) xs x4 x5 (ix2 (0 : Fin 1) j) = xs (ix2 (0 : Fin 1) j) + ∑ k : Fin 2048, x4 (ix2 (0 : Fin 1) k) * x5 (ix2 k j) := by
  have e : k0_pay2 (F := Ideal) xs x4 x5 = addf xs (matmul dot_S1x2048_S2048x4096_S1x4096_1_0_0_1_n_n none x4 x5 (constant (F := Ideal) S1x4096 .f32 0x00000000#32)) := by
    unfold k0_pay2; simp only [shapeCast_self]
  rw [e]
  exact (addf_apply _ _ _).trans (congrArg (xs (ix2 (0 : Fin 1) j) + ·) (matmul_row_apply x4 x5 j))

/-- The zero row at any column: the zero literal. -/
theorem pay1_apply (y : S1x4096.Idx) : k0_pay1 (F := Ideal) y = Ideal.ofBits .f32 0x00000000#32 := by
  have e : k0_pay1 (F := Ideal) = broadcast S1x4096 (Scalar.ofBits (F := Ideal) .f32 0x00000000#32) := by
    unfold k0_pay1; simp only [shapeCast_self]
  rw [e]; rfl

/-- The epilogue at a column: (row + bias) · scale; the change of format is the identity on the extended reals. -/
theorem pay3_apply (x2 x3 : FVec Ideal S1x1 .f32) (r : FVec Ideal S1x4096 .f32) (y : S1x4096.Idx) :
    k0_pay3 (F := Ideal) x2 x3 r y = (r y + x2 (ix2 (0 : Fin 1) (0 : Fin 1))) * x3 (ix2 (0 : Fin 1) (0 : Fin 1)) := by
  have h0 : (fun a => ⟨(![0, 0] : Fin 2 → ℕ) a, inpos_S1x1_p0_0 a⟩ : S1x1.Idx) = ix2 (0 : Fin 1) (0 : Fin 1) :=
    funext fun a => Fin.ext (by match a with | ⟨0, _⟩ => rfl | ⟨1, _⟩ => rfl)
  unfold k0_pay3
  show (r y + extractAt ![0, 0] x2 inpos_S1x1_p0_0) * extractAt ![0, 0] x3 inpos_S1x1_p0_0 = _
  unfold extractAt
  rw [h0]

end Cert.KernelIdeal.Layer1

end
-- ==== Proof.LibTileFold.lean ====
import Mathlib.Data.EReal.Basic
import Mathlib.Algebra.BigOperators.Fin
import Mathlib.Tactic

/-!
# Sums accumulated tile by tile, with one term taken back

General facts about finite sums on the extended reals, used to read a column that a kernel carries across a row of
tiles: reset at the first tile, a tile's partial sum added at every tile, one distinguished term subtracted on one
tile. On the extended reals addition is commutative and associative without any finiteness, so the column ends at
the sum of all the partial sums plus the negated term; cancelling that term against its own copy inside the sum is the
one step that needs it finite.
-/

namespace Cert.LibTileFold

open Finset

/-- A column carried across rows of `n` tiles, at the positions below `M`. Position `t` is tile `t % n` of row `t / n`. At the
    first tile of a row the column restarts from `z + T`; at every other tile it gains `T`; on the tile `t % n = t / n` it also
    gains `N` (the negated distinguished term). Then at every position the column is `z` plus the partial sums so far plus,
    once the diagonal tile is passed, `N`. -/
theorem fold_tiles {n : ℕ} (hn : 0 < n) (M : ℕ) (z : EReal) (T : ℕ → ℕ → EReal) (N : ℕ → EReal) (acc : ℕ → EReal)
    (h0 : ∀ t, t < M → t % n = 0 → acc t = (z + T (t / n) 0) + (if t / n = t % n then N (t / n) else 0))
    (hs : ∀ t, t < M → t % n ≠ 0 → acc t = (acc (t - 1) + T (t / n) (t % n)) + (if t / n = t % n then N (t / n) else 0)) :
    ∀ t, t < M → acc t = (z + ∑ k ∈ range (t % n + 1), T (t / n) k) + (if t / n ≤ t % n then N (t / n) else 0) := by
  suffices H : ∀ q r, r < n → n * q + r < M → acc (n * q + r) = (z + ∑ k ∈ range (r + 1), T q k) + (if q ≤ r then N q else 0) by
    intro t ht
    have h := H (t / n) (t % n) (Nat.mod_lt t hn) (by rw [Nat.div_add_mod]; exact ht)
    rwa [Nat.div_add_mod] at h
  intro q r
  induction r with
  | zero =>
    intro _ hM
    have hd : (n * q + 0) / n = q := by rw [Nat.add_zero, Nat.mul_div_cancel_left q hn]
    have hm : (n * q + 0) % n = 0 := by rw [Nat.add_zero, Nat.mul_mod_right]
    rw [h0 _ hM hm, hd, hm]
    simp only [zero_add, range_one, sum_singleton, Nat.le_zero]
  | succ r ih =>
    intro hr hM
    have hr' : r < n := Nat.lt_of_succ_lt hr
    have hM' : n * q + r < M := Nat.lt_of_succ_lt hM
    have hd : (n * q + (r + 1)) / n = q := by rw [Nat.mul_add_div hn, Nat.div_eq_of_lt hr, Nat.add_zero]
    have hm : (n * q + (r + 1)) % n = r + 1 := by rw [Nat.mul_add_mod, Nat.mod_eq_of_lt hr]
    have hp : n * q + (r + 1) - 1 = n * q + r := rfl
    rw [hs _ hM (by rw [hm]; exact Nat.succ_ne_zero r), hd, hm, hp, ih hr' hM', sum_range_succ (fun k => T q k) (r + 1)]
    by_cases hq : q = r + 1
    · have h1 : ¬ q ≤ r := by omega
      have h2 : q ≤ r + 1 := by omega
      rw [if_neg h1, if_pos hq, if_pos h2, add_zero]
      ac_rfl
    · by_cases hle : q ≤ r
      · have h2 : q ≤ r + 1 := by omega
        rw [if_pos hle, if_neg hq, if_pos h2, add_zero]
        ac_rfl
      · have h2 : ¬ q ≤ r + 1 := by omega
        rw [if_neg hle, if_neg hq, if_neg h2, add_zero, add_zero, add_zero]
        ac_rfl

/-- A sum over `m` tiles of `n` is the sum over `m * n`, position `k` of tile `j` being `n * j + k`. -/
theorem sum_tiles {M : Type*} [AddCommMonoid M] (m n : ℕ) (f : ℕ → M) :
    ∑ j ∈ range m, ∑ k ∈ range n, f (n * j + k) = ∑ i ∈ range (m * n), f i := by
  induction m with
  | zero => simp
  | succ m ih =>
    rw [sum_range_succ, ih, Nat.succ_mul, sum_range_add, Nat.mul_comm m n]

/-- A finite term inside a sum cancels against its negation: the sum over all indices plus the negated term at `i` is
    the sum over the other indices. -/
theorem sum_add_neg_eq_sum_erase {ι : Type*} [DecidableEq ι] (s : Finset ι) (f : ι → EReal) {i : ι} (hi : i ∈ s)
    (r : ℝ) (hr : f i = (r : EReal)) : (∑ j ∈ s, f j) + -(f i) = ∑ j ∈ s.erase i, f j := by
  rw [← add_sum_erase s f hi, hr, add_comm ((r : EReal)) _, add_assoc]
  have : ((r : EReal)) + -((r : EReal)) = 0 := by
    rw [← EReal.coe_neg, ← EReal.coe_add, add_neg_cancel, EReal.coe_zero]
  rw [this, add_zero]

end Cert.LibTileFold
-- ==== Proof.Layer1Ideal.lean ====
/- The first layer's output array over the extended reals, column by column. Within the group of eight reduction steps
   that covers a column, each step adds to the column's place in the scratch row the product of the vector's slice with
   the block's column, which is 2048 consecutive terms of the product of the whole vector with the matrix's column; the
   eight steps together give all 16384 terms, and the epilogue adds the bias and multiplies by the scale. Sums of
   extended reals are commutative and associative, so the order of accumulation does not matter. -/
import proofs.«169360_j54606214201548_2_alg».proof.Proof.Layer1Array
import proofs.«169360_j54606214201548_2_alg».proof.Proof.Layer1PayIdeal
import proofs.«169360_j54606214201548_2_alg».proof.Proof.LibTileFold
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Finset (range)
open Idealize.ShloMosaic.Pipeline (Dat Cfg Window BodyObligation cellOf)

-- the arrays as the region finds them, on each core, over the extended reals
variable (V : (c : Dev nD) → (b : Ref sig .tc) → Buf (Elt Ideal) ((c : Thread nD τ).loc b))

/-! ## The arrays and blocks as functions into the extended reals -/

/-- The row vector, the matrix, the bias and the scale as the region finds them. -/
abbrev vecR (c : Dev nD) : S1x16384.Idx → EReal := V c main_v51
abbrev matR (c : Dev nD) : S16384x16384.Idx → EReal := V c main_v48
abbrev biasR (c : Dev nD) : S1x1.Idx → EReal := V c main_v52
abbrev scaleR (c : Dev nD) : S1x1.Idx → EReal := V c main_arg6
/-- The vector's slice and the matrix's block a step loads. -/
abbrev blkV (c : Dev nD) (t : Fin cfg0.N) : FVec Ideal S1x2048 .bf16 := iblk V c 2 t
abbrev blkG (c : Dev nD) (t : Fin cfg0.N) : FVec Ideal S2048x4096 .bf16 := iblk V c 3 t

theorem blkV_apply (c : Dev nD) (t : Fin cfg0.N) (k : Fin 2048) :
    blkV V c t (ix2 (0 : Fin 1) k) = vecR V c (ix2 (0 : Fin 1) (⟨2048 * (t.val % 8) + k.val, by omega⟩ : Fin 16384)) :=
  iblk2_apply V c t k
theorem blkG_apply (c : Dev nD) (t : Fin cfg0.N) (r : Fin 2048) (j : Fin 4096) :
    blkG V c t (ix2 r j) = matR V c (ix2 (⟨2048 * (t.val % 8) + r.val, by omega⟩ : Fin 16384) (⟨4096 * (t.val / 8) + j.val, by have ht : t.val < 32 := hN ▸ t.isLt; omega⟩ : Fin 16384)) :=
  iblk3_apply V c t r j

/-! ## One column of the vector–matrix product, term by term -/

/-- Term `i` of the product of a row vector with column `n` of a matrix: entry `i` of the vector times entry (i, n) of
    the matrix; zero beyond the 16384 entries. -/
def term (v : S1x16384.Idx → EReal) (G : S16384x16384.Idx → EReal) (n : Fin 16384) (i : ℕ) : EReal :=
  if h : i < 16384 then v (ix2 (0 : Fin 1) (⟨i, h⟩ : Fin 16384)) * G (ix2 (⟨i, h⟩ : Fin 16384) n) else 0

/-- The part of that product the reduction step `kb` contributes: its 2048 terms from `2048 · kb` on. -/
def tileSum (v : S1x16384.Idx → EReal) (G : S16384x16384.Idx → EReal) (n : Fin 16384) (kb : ℕ) : EReal :=
  ∑ k ∈ range 2048, term v G n (2048 * kb + k)

/-- What a step adds to column `n`'s place in the scratch row: the slice of the vector times the block's column, which
    is the step's part of the whole product (the step's group is the one that covers column `n`). -/
theorem stepSum_eq (c : Dev nD) (n : Fin 16384) (t : Fin cfg0.N) (hg : t.val / 8 = n.val / 4096) :
    ∑ k : Fin 2048, blkV V c t (ix2 (0 : Fin 1) k) * blkG V c t (ix2 k (⟨n.val % 4096, Nat.mod_lt _ (by decide)⟩ : Fin 4096))
      = tileSum (vecR V c) (matR V c) n (t.val % 8) := by
  unfold tileSum
  rw [← Fin.sum_univ_eq_sum_range (fun k => term (vecR V c) (matR V c) n (2048 * (t.val % 8) + k)) 2048]
  refine Finset.sum_congr rfl fun k _ => ?_
  have hk : k.val < 2048 := k.isLt
  have hn : n.val < 16384 := n.isLt
  have hlt : 2048 * (t.val % 8) + k.val < 16384 := by omega
  have hcol : (⟨4096 * (t.val / 8) + n.val % 4096, by omega⟩ : Fin 16384) = n := Fin.ext (by show 4096 * (t.val / 8) + n.val % 4096 = n.val; omega)
  rw [blkV_apply, blkG_apply]
  unfold term
  rw [dif_pos hlt]
  exact congrArg (fun m => vecR V c (ix2 (0 : Fin 1) (⟨2048 * (t.val % 8) + k.val, hlt⟩ : Fin 16384))
    * matR V c (ix2 (⟨2048 * (t.val % 8) + k.val, hlt⟩ : Fin 16384) m)) hcol

/-! ## The scratch row and the output at a column -/

/-- After a group's first step, column `n`'s place holds the zero literal plus the first part of the product. -/
theorem rowAfter_first_apply (c : Dev nD) (n : Fin 16384) (t : Fin cfg0.N) (h0 : t.val % 8 = 0) (hg : t.val / 8 = n.val / 4096) :
    rowAfter V c t.val t.isLt (colIn n.val)
      = Ideal.ofBits .f32 0x00000000#32 + tileSum (vecR V c) (matR V c) n 0 := by
  rw [rowAfter_first V c t h0]
  refine (pay2_apply k0_pay1 (blkV V c t) (blkG V c t) (⟨n.val % 4096, Nat.mod_lt _ (by decide)⟩ : Fin 4096)).trans ?_
  rw [pay1_apply, stepSum_eq V c n t hg, h0]

/-- After any other step, it holds what it held plus the step's part. -/
theorem rowAfter_next_apply (c : Dev nD) (n : Fin 16384) (t : Fin cfg0.N) (h0 : ¬t.val % 8 = 0) (hg : t.val / 8 = n.val / 4096) :
    rowAfter V c t.val t.isLt (colIn n.val)
      = rowAfter V c (t.val - 1) (Nat.lt_of_le_of_lt (Nat.sub_le _ _) t.isLt) (colIn n.val) + tileSum (vecR V c) (matR V c) n (t.val % 8) := by
  rw [rowAfter_next V c t h0]
  refine (pay2_apply (rowAfter V c (t.val - 1) (Nat.lt_of_le_of_lt (Nat.sub_le _ _) t.isLt)) (blkV V c t) (blkG V c t) (⟨n.val % 4096, Nat.mod_lt _ (by decide)⟩ : Fin 4096)).trans ?_
  rw [stepSum_eq V c n t hg]
  rfl

/-- So after step `p` of the group that covers column `n`, the column's place holds the zero literal plus the parts of
    the steps so far: by induction on the position. -/
theorem rowAfter_apply (c : Dev nD) (n : Fin 16384) : ∀ (p : ℕ) (hp : p < cfg0.N), p / 8 = n.val / 4096 →
    rowAfter V c p hp (colIn n.val)
      = Ideal.ofBits .f32 0x00000000#32 + ∑ kb ∈ range (p % 8 + 1), tileSum (vecR V c) (matR V c) n kb := by
  intro p
  induction p with
  | zero =>
    intro hp hg
    refine (rowAfter_first_apply V c n ⟨0, hp⟩ (Nat.zero_mod _) hg).trans ?_
    rw [Nat.zero_mod, Finset.sum_range_one]
  | succ q ih =>
    intro hp hg
    by_cases h0 : (q + 1) % 8 = 0
    · refine (rowAfter_first_apply V c n ⟨q + 1, hp⟩ h0 hg).trans ?_
      rw [h0, Finset.sum_range_one]
    · have hq : q / 8 = n.val / 4096 := by omega
      have hm : (q + 1) % 8 = q % 8 + 1 := by omega
      refine (rowAfter_next_apply V c n ⟨q + 1, hp⟩ h0 hg).trans ?_
      show rowAfter V c q _ (colIn n.val) + tileSum _ _ n ((q + 1) % 8) = _
      rw [ih (Nat.lt_of_succ_lt hp) hq, hm, Finset.sum_range_succ _ (q % 8 + 1), add_assoc]

/-- The eight parts are the whole product: 8 tiles of 2048 terms are the 16384 terms. -/
theorem sum_tiles_eq (v : S1x16384.Idx → EReal) (G : S16384x16384.Idx → EReal) (n : Fin 16384) :
    ∑ kb ∈ range 8, tileSum v G n kb = ∑ i : Fin 16384, v (ix2 (0 : Fin 1) i) * G (ix2 i n) := by
  unfold tileSum
  rw [Cert.LibTileFold.sum_tiles 8 2048 (term v G n), ← Fin.sum_univ_eq_sum_range (term v G n) (8 * 2048)]
  refine Finset.sum_congr rfl fun i _ => ?_
  unfold term
  rw [dif_pos i.isLt]

/-- THE OUTPUT ARRAY AT COLUMN `n`, over the extended reals: the zero literal plus the product of the vector with
    column `n` of the matrix, plus the bias, times the scale. -/
theorem outRow_eq_sum (c : Dev nD) (n : Fin 16384) :
    outRow V c (ix2 (0 : Fin 1) n)
      = ((Ideal.ofBits .f32 0x00000000#32 + ∑ i : Fin 16384, vecR V c (ix2 (0 : Fin 1) i) * matR V c (ix2 i n))
          + biasR V c (ix2 (0 : Fin 1) (0 : Fin 1))) * scaleR V c (ix2 (0 : Fin 1) (0 : Fin 1)) := by
  have hn : n.val < 16384 := n.isLt
  have h7 : (lastPt n.val n.isLt).val % 8 = 7 := by show (8 * (n.val / 4096) + 7) % 8 = 7; omega
  have hg : (lastPt n.val n.isLt).val / 8 = n.val / 4096 := by show (8 * (n.val / 4096) + 7) / 8 = n.val / 4096; omega
  refine (outRow_apply V c (ix2 (0 : Fin 1) n)).trans ?_
  refine (pay3_apply (iblk V c 0 (lastPt n.val n.isLt)) (iblk V c 1 (lastPt n.val n.isLt))
    (rowAfter V c (lastPt n.val n.isLt).val (lastPt n.val n.isLt).isLt) (colIn n.val)).trans ?_
  rw [rowAfter_apply V c n _ _ hg, h7, sum_tiles_eq, iblk0_eq, iblk1_eq]

/-- The same with the zero literal read as zero: (product + bias) · scale. -/
theorem outRow_eq (c : Dev nD) (n : Fin 16384) :
    outRow V c (ix2 (0 : Fin 1) n)
      = (∑ i : Fin 16384, vecR V c (ix2 (0 : Fin 1) i) * matR V c (ix2 i n)
          + biasR V c (ix2 (0 : Fin 1) (0 : Fin 1))) * scaleR V c (ix2 (0 : Fin 1) (0 : Fin 1)) := by
  rw [outRow_eq_sum, Ideal.ofBits_zero_f32, zero_add]

end Cert.KernelIdeal.Layer1

end
-- ==== Proof.Layer2Value.lean ====
/- The second layer's kernel, step by step, as values. Each kind of reduction step leaves in the scratch row (and, at a
   group's last step, in the output block) the body's arithmetic of what it loaded; so the scratch row after each grid
   point is a running sum of block products, and the output block a group's last step stores is the epilogue of the
   finished row. -/
import proofs.«169360_j54606214201548_2_alg».proof.Proof.Layer2Data
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-row rectangle, as the constant function the library's whole-buffer lemmas ask for. -/
theorem hz : (![0, 0] : Fin 2 → Nat) = fun _ => 0 := funext fun a => by fin_cases a <;> rfl

/-! ## What each kind of step leaves, as values of the body's arithmetic -/

/-- A middle step leaves in the scratch row the row it found plus the product of the vector's slice with the matrix's
    block: its one store covers the row, and its loads read the whole buffers. -/
theorem midAcc_eq (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : ¬isLast i) (x2 : Vec F S1x1 .f32) (x3 : Vec F S1x1 .f32) (x4 : Vec F S1x2048 .bf16) (x5 : Vec F S2048x4096 .bf16) (xs : Vec F S1x4096 .f32) :
    midAcc c i arg2 harg2 arg3 harg3 arg4 harg4 arg5 harg5 arg6 harg6 arg7 harg7 hc0 hc1 x2 x3 x4 x5 xs = k1_pay2 xs x4 x5 := by
  unfold midAcc
  rw [View.read_writes_eq_canon _ _ _ (midCover c i arg2 harg2 arg3 harg3 arg4 harg4 arg5 harg5 arg6 harg6 arg7 harg7 hc0 hc1 x2 x3 x4 x5 xs)]
  unfold midRun
  dsimp only
  rw [View.canon_unit_zero hz]
  simp only [View.readAt_eq_ld, harg7.read_unread, harg4.read_unread, harg5.read_unread, View.ld_unit_zero (S := S1x4096) hz, View.ld_unit_zero (S := S1x2048) hz, View.ld_unit_zero (S := S2048x4096) hz]

/-- A first step stores the zero row, reads it back, and leaves zeros plus the block's product: the later store
    covers the row, and the row it adds to is the earlier store's payload read back. -/
theorem firstAcc_eq (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : isFirst i) (hc1 : ¬isLast i) (x2 : Vec F S1x1 .f32) (x3 : Vec F S1x1 .f32) (x4 : Vec F S1x2048 .bf16) (x5 : Vec F S2048x4096 .bf16) :
    firstAcc c i arg2 harg2 arg3 harg3 arg4 harg4 arg5 harg5 arg6 harg6 arg7 harg7 hc0 hc1 x2 x3 x4 x5 = k1_pay2 k1_pay1 x4 x5 := by
  unfold firstAcc
  rw [View.read_writes_eq_canon _ _ _ (firstCover c i arg2 harg2 arg3 harg3 arg4 harg4 arg5 harg5 arg6 harg6 arg7 harg7 hc0 hc1 x2 x3 x4 x5)]
  unfold firstRun
  dsimp only
  sl_unfold_words
  rw [View.canon_cons_unit_zero (S := S1x4096) hz, View.readCov_unit_zero (S := S1x4096) _ hz]
  simp only [View.readAt_eq_ld, harg4.read_unread, harg5.read_unread, View.ld_unit_zero (S := S1x2048) hz, View.ld_unit_zero (S := S2048x4096) hz]

/-- A last step leaves in the scratch row the same sum as a middle step. -/
theorem lastAcc_eq (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : isLast i) (x2 : Vec F S1x1 .f32) (x3 : Vec F S1x1 .f32) (x4 : Vec F S1x2048 .bf16) (x5 : Vec F S2048x4096 .bf16) (xs : Vec F S1x4096 .f32) :
    lastAcc c i arg2 harg2 arg3 harg3 arg4 harg4 arg5 harg5 arg6 harg6 arg7 harg7 hc0 hc1 x2 x3 x4 x5 xs = k1_pay2 xs x4 x5 := by
  unfold lastAcc
  rw [View.read_writes_eq_canon _ _ _ (lastCoverS c i arg2 harg2 arg3 harg3 arg4 harg4 arg5 harg5 arg6 harg6 arg7 harg7 hc0 hc1 x2 x3 x4 x5 xs)]
  unfold lastRun
  dsimp only
  sl_unfold_words
  rw [View.canon_unit_zero hz]
  simp only [View.readAt_eq_ld, harg7.read_unread, harg4.read_unread, harg5.read_unread, View.ld_unit_zero (S := S1x4096) hz, View.ld_unit_zero (S := S1x2048) hz, View.ld_unit_zero (S := S2048x4096) hz]

/-- … and in the output block (the finished row + bias) · scale, the finished row being the scratch row's store read
    back. -/
theorem lastOut_eq (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x2048 .bf16) (harg4 : arg4.IsWhole) (arg5 : Memref sig .tc .vmem S2048x4096 .bf16) (harg5 : arg5.IsWhole) (arg6 : Memref sig .tc .vmem S1x4096 .f32) (harg6 : arg6.IsWhole) (arg7 : Memref sig .tc .vmem S1x4096 .f32) (harg7 : arg7.IsWhole) (hc0 : ¬isFirst i) (hc1 : isLast i) (x2 : Vec F S1x1 .f32) (x3 : Vec F S1x1 .f32) (x4 : Vec F S1x2048 .bf16) (x5 : Vec F S2048x4096 .bf16) (xs : Vec F S1x4096 .f32) :
    lastOut c i arg2 harg2 arg3 harg3 arg4 harg4 arg5 harg5 arg6 harg6 arg7 harg7 hc0 hc1 x2 x3 x4 x5 xs = k1_pay3 x2 x3 (k1_pay2 xs x4 x5) := by
  unfold lastOut
  rw [View.read_writes_eq_canon _ _ _ (lastCoverO c i arg2 harg2 arg3 harg3 arg4 harg4 arg5 harg5 arg6 harg6 arg7 harg7 hc0 hc1 x2 x3 x4 x5 xs)]
  unfold lastRun
  dsimp only
  sl_unfold_words
  rw [View.canon_unit_zero hz, View.readCov_unit_zero (S := S1x4096) _ hz]
  simp only [View.readAt_eq_ld, harg2.read_unread, harg3.read_unread, harg7.read_unread, harg4.read_unread, harg5.read_unread, View.ld_unit_zero (S := S1x1) hz, View.ld_unit_zero (S := S1x4096) hz, View.ld_unit_zero (S := S1x2048) hz, View.ld_unit_zero (S := S2048x4096) hz]

/-! ## The scratch row after each point, in the body's arithmetic -/

-- the arrays as the region finds them, on each core
variable (V : (c : Dev nD) → (b : Ref sig .tc) → Buf (Elt F) ((c : Thread nD τ).loc b))

/-- The scratch row after position `n`, as a running sum: at a group's first step the zero row plus the product of the
    vector's slice with the matrix's block at that point, otherwise the row after position `n - 1` plus that product. -/
def rowAfter (c : Dev nD) : (n : ℕ) → n < cfg1.N → Vec F S1x4096 .f32
  | 0, hn => k1_pay2 k1_pay1 (iblk V c 2 ⟨0, hn⟩) (iblk V c 3 ⟨0, hn⟩)
  | n + 1, hn =>
    if (n + 1) % 8 = 0 then k1_pay2 k1_pay1 (iblk V c 2 ⟨n + 1, hn⟩) (iblk V c 3 ⟨n + 1, hn⟩)
    else k1_pay2 (rowAfter c n (Nat.lt_of_succ_lt hn)) (iblk V c 2 ⟨n + 1, hn⟩) (iblk V c 3 ⟨n + 1, hn⟩)

theorem rowAfter_first (c : Dev nD) (t : Fin cfg1.N) (h0 : t.val % 8 = 0) :
    rowAfter V c t.val t.isLt = k1_pay2 k1_pay1 (iblk V c 2 t) (iblk V c 3 t) := by
  obtain ⟨n, hn⟩ := t
  cases n with
  | zero => exact rfl
  | succ n => exact (if_pos h0).trans rfl

theorem rowAfter_next (c : Dev nD) (t : Fin cfg1.N) (h0 : ¬t.val % 8 = 0) :
    rowAfter V c t.val t.isLt = k1_pay2 (rowAfter V c (t.val - 1) (Nat.lt_of_le_of_lt (Nat.sub_le _ _) t.isLt)) (iblk V c 2 t) (iblk V c 3 t) := by
  obtain ⟨n, hn⟩ := t
  cases n with
  | zero => exact absurd (Nat.zero_mod _) h0
  | succ n => exact (if_neg h0).trans rfl

/-- The scratch row the steps leave IS the running sum: by induction on the position, each kind of step read by its
    value. -/
theorem accAt_eq (c : Dev nD) : ∀ (n : ℕ) (hn : n < cfg1.N), accAt V c n hn = rowAfter V c n hn
  | 0, hn =>
    (accAt_first V c ⟨0, hn⟩ (Nat.zero_mod _) (show ¬(0 : ℕ) % 8 = 7 by decide)).trans
      (firstAcc_eq c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) _ _ (iblk V c 0 ⟨0, hn⟩) (iblk V c 1 ⟨0, hn⟩) (iblk V c 2 ⟨0, hn⟩) (iblk V c 3 ⟨0, hn⟩))
  | n + 1, hn => by
    by_cases h0 : (n + 1) % 8 = 0
    · have h1 : ¬(n + 1) % 8 = 7 := by omega
      exact (accAt_first V c ⟨n + 1, hn⟩ h0 h1).trans
        ((firstAcc_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) _ _ (iblk V c 0 ⟨n + 1, hn⟩) (iblk V c 1 ⟨n + 1, hn⟩) (iblk V c 2 ⟨n + 1, hn⟩) (iblk V c 3 ⟨n + 1, hn⟩)).trans
          (rowAfter_first V c ⟨n + 1, hn⟩ h0).symm)
    · have ih : accAt V c n (Nat.lt_of_succ_lt hn) = rowAfter V c n (Nat.lt_of_succ_lt hn) := accAt_eq c n _
      refine Eq.trans ?_ ((congrArg (fun r => k1_pay2 r (iblk V c 2 ⟨n + 1, hn⟩) (iblk V c 3 ⟨n + 1, hn⟩)) ih).trans
        (rowAfter_next V c ⟨n + 1, hn⟩ h0).symm)
      by_cases h1 : (n + 1) % 8 = 7
      · exact (accAt_last V c ⟨n + 1, hn⟩ h0 h1).trans
          (lastAcc_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) _ _ (iblk V c 0 ⟨n + 1, hn⟩) (iblk V c 1 ⟨n + 1, hn⟩) (iblk V c 2 ⟨n + 1, hn⟩) (iblk V c 3 ⟨n + 1, hn⟩) (accAt V c n (Nat.lt_of_succ_lt hn)))
      · exact (accAt_mid V c ⟨n + 1, hn⟩ h0 h1).trans
          (midAcc_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) _ _ (iblk V c 0 ⟨n + 1, hn⟩) (iblk V c 1 ⟨n + 1, hn⟩) (iblk V c 2 ⟨n + 1, hn⟩) (iblk V c 3 ⟨n + 1, hn⟩) (accAt V c n (Nat.lt_of_succ_lt hn)))

/-- The output block a group's last step stores: (the finished row + bias) · scale, in the output's format. -/
theorem outAt_eq (c : Dev nD) (t : Fin cfg1.N) (h1 : t.val % 8 = 7) :
    outAt V c t = k1_pay3 (iblk V c 0 t) (iblk V c 1 t) (rowAfter V c t.val t.isLt) := by
  have h0 : ¬t.val % 8 = 0 := by omega
  unfold outAt
  rw [dif_pos h1]
  refine (lastOut_eq c (grid1.coords t) (ms0 t) (hs0 t) (ms1 t) (hs1 t) (ms2 t) (hs2 t) (ms3 t) (hs3 t) (ms4 t) (hs4 t) scM (Memref.isWhole_whole _) _ _ (iblk V c 0 t) (iblk V c 1 t) (iblk V c 2 t) (iblk V c 3 t) (accAt V c (t.val - 1) _)).trans ?_
  rw [rowAfter_next V c t h0, accAt_eq V c (t.val - 1)]

end Cert.KernelIdeal.Layer2

end
-- ==== Proof.Layer2Array.lean ====
/- The second layer's kernel, from blocks to arrays. The output array after the region is, column by column, the block
   stored by the last step of the group of eight steps that covers that column (the four written-back blocks tile the
   16384 columns); and each input block a step loads is a rectangle of its array, at the block index times the block
   size. -/
import proofs.«169360_j54606214201548_2_alg».proof.Proof.Layer2Value
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

-- the arrays as the region finds them, on each core
variable (V : (c : Dev nD) → (b : Ref sig .tc) → Buf (Elt F) ((c : Thread nD τ).loc b))

/-! ## The output array after the region -/

theorem hN : cfg1.N = 32 := N_1

/-- The output window's block index at a point: 0 on the row axis, the group's number on the column axis. -/
theorem idx4 : ∀ t : Fin cfg1.N, win1_4.index t (0 : Fin 2) = 0 ∧ win1_4.index t (1 : Fin 2) = t.val / 8 :=
  (by decide +kernel : ∀ t : Fin grid1.N, _)

/-- The last step of the group of eight whose output block holds column `n`. -/
def lastPt (n : ℕ) (hn : n < 16384) : Fin cfg1.N := ⟨8 * (n / 4096) + 7, by rw [hN]; omega⟩

/-- Column `n`'s place inside that block. -/
def colIn (n : ℕ) : S1x4096.Idx := ix2 (0 : Fin 1) (⟨n % 4096, Nat.mod_lt _ (by decide)⟩ : Fin 4096)

/-- The output array after the region, column by column: the block the covering group's last step stored, at the
    column's place in it. -/
def outRow (c : Dev nD) : Buf (Elt F) ((c : Thread nD τ).loc main_v56) := fun i =>
  outAt V c (lastPt (i 1).val (i 1).isLt) (colIn (i 1).val)

/-- In the body's arithmetic: (the finished row of the covering group + bias) · scale at the column's place. -/
theorem outRow_apply (c : Dev nD) (i : S1x16384.Idx) :
    outRow V c i = k1_pay3 (iblk V c 0 (lastPt (i 1).val (i 1).isLt)) (iblk V c 1 (lastPt (i 1).val (i 1).isLt))
      (rowAfter V c (lastPt (i 1).val (i 1).isLt).val (lastPt (i 1).val (i 1).isLt).isLt) (colIn (i 1).val) := by
  have h7 : (lastPt (i 1).val (i 1).isLt).val % 8 = 7 := by show (8 * ((i 1).val / 4096) + 7) % 8 = 7; omega
  show outAt V c (lastPt (i 1).val (i 1).isLt) (colIn (i 1).val) = _
  rw [outAt_eq V c _ h7]

/-- What a group's last step writes back is its block of that function. -/
theorem flushed_eq (c : Dev nD) (t : Fin cfg1.N) (hf : (cfg1.win 4).flush t = true) :
    (dat V c).flushed 4 t = ((cfg1.win 4).blk t).view.read (Elt F) (outRow V c) := by
  have h7 : t.val % 8 = 7 := (flush1_4 t).mp hf
  have ht : t.val < 32 := hN ▸ t.isLt
  obtain ⟨e0, e1⟩ := idx4 t
  show (cfg1.win 4).cut (grid1.coords t) ((dat V c).after 4 t) = _
  rw [after4]
  funext j
  rw [View.read_apply]
  have hj : (j 1).val < 4096 := (j 1).isLt
  have hj0 : (j 0).val < 1 := (j 0).isLt
  have hE : ((((cfg1.win 4).blk t).view.emb j) 1 : ℕ) = t.val / 8 * 4096 + (j 1).val := by
    show win1_4.index t 1 * 4096 + 1 * (j 1).val = _; rw [e1]; omega
  show outAt V c t _ = outAt V c (lastPt ((((cfg1.win 4).blk t).view.emb j) 1).val _) (colIn ((((cfg1.win 4).blk t).view.emb j) 1).val)
  have hpt : lastPt ((((cfg1.win 4).blk t).view.emb j) 1).val ((((cfg1.win 4).blk t).view.emb j) 1).isLt = t :=
    Fin.ext (by show 8 * (((((cfg1.win 4).blk t).view.emb j) 1).val / 4096) + 7 = t.val; rw [hE]; omega)
  rw [hpt]
  refine congrArg (outAt V c t) (funext fun a => Fin.ext ?_)
  match a with
  | ⟨0, _⟩ => show (j 0).val = 0; omega
  | ⟨1, _⟩ => show (j 1).val = ((((cfg1.win 4).blk t).view.emb j) 1).val % 4096; rw [hE]; omega

/-- A column of the array is in a point's block iff each coordinate is in the block's range on its axis. -/
theorem mem_blk4 (t : Fin cfg1.N) (i : S1x16384.Idx) :
    i ∈ ((cfg1.win 4).blk t).view.set ↔ ∀ a : Fin 2, win1_4.index t a * S1x4096.size a ≤ (i a).val ∧ (i a).val < win1_4.index t a * S1x4096.size a + S1x4096.size a := by
  show i ∈ ((View.whole main_v56).slice (win1_4.rect t)).set ↔ _
  rw [View.set_slice_whole, Rect.mem_set_unit]
  exact Iff.rfl

/-- THE OUTPUT ARRAY after the region: the four written-back blocks tile the 16384 columns. -/
theorem arrAt_out (c : Dev nD) : (dat V c).arrAt 4 cfg1.N = outRow V c :=
  (dat V c).arrAt_eq_of_cover 4 (outRow V c) (flushed_eq V c) fun i => by
    have hi0 : (i 0).val < 1 := (i 0).isLt
    have hi1 : (i 1).val < 16384 := (i 1).isLt
    refine ⟨lastPt (i 1).val hi1, (flush1_4 _).mpr (by show (8 * ((i 1).val / 4096) + 7) % 8 = 7; omega), ?_⟩
    obtain ⟨e0, e1⟩ := idx4 (lastPt (i 1).val hi1)
    have e1' : win1_4.index (lastPt (i 1).val hi1) (1 : Fin 2) = (i 1).val / 4096 := by
      rw [e1]; show (8 * ((i 1).val / 4096) + 7) / 8 = _; omega
    rw [mem_blk4]
    intro a
    match a with
    | ⟨0, _⟩ => show win1_4.index (lastPt (i 1).val hi1) (0 : Fin 2) * 1 ≤ (i 0).val ∧ (i 0).val < win1_4.index (lastPt (i 1).val hi1) (0 : Fin 2) * 1 + 1; rw [e0]; omega
    | ⟨1, _⟩ => show win1_4.index (lastPt (i 1).val hi1) (1 : Fin 2) * 4096 ≤ (i 1).val ∧ (i 1).val < win1_4.index (lastPt (i 1).val hi1) (1 : Fin 2) * 4096 + 4096; rw [e1']; omega

/-! ## The input blocks, read off their arrays -/

/-- The input windows' block indices at a point: bias and scale never move; the vector's slice follows the reduction
    step; the matrix's block follows the reduction step on its rows and the group on its columns. -/
theorem idx0 : ∀ t : Fin cfg1.N, win1_0.index t (0 : Fin 2) = 0 ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = t.val % 8 :=
  (by decide +kernel : ∀ t : Fin grid1.N, _)
theorem idx3 : ∀ t : Fin cfg1.N, win1_3.index t (0 : Fin 2) = t.val % 8 ∧ win1_3.index t (1 : Fin 2) = t.val / 8 :=
  (by decide +kernel : ∀ t : Fin grid1.N, _)

/-- The bias block is the bias array. -/
theorem iblk0_eq (c : Dev nD) (t : Fin cfg1.N) :
    (iblk V c 0 t : Vec F S1x1 .f32) = (V c main_v54 : S1x1.Idx → Elt F .f32) := by
  obtain ⟨e0, e1⟩ := idx0 t
  funext y
  unfold iblk
  rw [View.read_apply]
  show V c main_v54 _ = V c main_v54 y
  refine congrArg (V c main_v54) (funext fun a => Fin.ext ?_)
  match a with
  | ⟨0, _⟩ => show win1_0.index t (0 : Fin 2) * 1 + 1 * (y 0).val = (y 0).val; rw [e0]; omega
  | ⟨1, _⟩ => show win1_0.index t (1 : Fin 2) * 1 + 1 * (y 1).val = (y 1).val; rw [e1]; omega

/-- The scale block is the scale array. -/
theorem iblk1_eq (c : Dev nD) (t : Fin cfg1.N) :
    (iblk V c 1 t : Vec F S1x1 .f32) = (V c main_v55 : S1x1.Idx → Elt F .f32) := by
  obtain ⟨e0, e1⟩ := idx1 t
  funext y
  unfold iblk
  rw [View.read_apply]
  show V c main_v55 _ = V c main_v55 y
  refine congrArg (V c main_v55) (funext fun a => Fin.ext ?_)
  match a with
  | ⟨0, _⟩ => show win1_1.index t (0 : Fin 2) * 1 + 1 * (y 0).val = (y 0).val; rw [e0]; omega
  | ⟨1, _⟩ => show win1_1.index t (1 : Fin 2) * 1 + 1 * (y 1).val = (y 1).val; rw [e1]; omega

/-- The vector's slice at a point: entries 2048·k … 2048·k + 2047 of the vector, k the reduction step. -/
theorem iblk2_apply (c : Dev nD) (t : Fin cfg1.N) (k : Fin 2048) :
    (iblk V c 2 t : Vec F S1x2048 .bf16) (ix2 (0 : Fin 1) k)
      = (V c main_v53 : S1x16384.Idx → Elt F .bf16) (ix2 (0 : Fin 1) (⟨2048 * (t.val % 8) + k.val, by omega⟩ : Fin 16384)) := by
  obtain ⟨e0, e1⟩ := idx2 t
  unfold iblk
  rw [View.read_apply]
  show V c main_v53 _ = V c main_v53 _
  refine congrArg (V c main_v53) (funext fun a => Fin.ext ?_)
  match a with
  | ⟨0, _⟩ => show win1_2.index t (0 : Fin 2) * 1 + 1 * 0 = 0; rw [e0]
  | ⟨1, _⟩ => show win1_2.index t (1 : Fin 2) * 2048 + 1 * k.val = 2048 * (t.val % 8) + k.val; rw [e1]; omega

/-- The matrix's block at a point: rows 2048·k …, columns 4096·g …, k the reduction step and g the group. -/
theorem iblk3_apply (c : Dev nD) (t : Fin cfg1.N) (r : Fin 2048) (j : Fin 4096) :
    (iblk V c 3 t : Vec F S2048x4096 .bf16) (ix2 r j)
      = (V c main_v48 : S16384x16384.Idx → Elt F .bf16) (ix2 (⟨2048 * (t.val % 8) + r.val, by omega⟩ : Fin 16384) (⟨4096 * (t.val / 8) + j.val, by have ht : t.val < 32 := hN ▸ t.isLt; omega⟩ : Fin 16384)) := by
  obtain ⟨e0, e1⟩ := idx3 t
  unfold iblk
  rw [View.read_apply]
  show V c main_v48 _ = V c main_v48 _
  refine congrArg (V c main_v48) (funext fun a => Fin.ext ?_)
  match a with
  | ⟨0, _⟩ => show win1_3.index t (0 : Fin 2) * 2048 + 1 * r.val = 2048 * (t.val % 8) + r.val; rw [e0]; omega
  | ⟨1, _⟩ => show win1_3.index t (1 : Fin 2) * 4096 + 1 * j.val = 4096 * (t.val / 8) + j.val; rw [e1]; omega

end Cert.KernelIdeal.Layer2

end
-- ==== Proof.Layer2PayIdeal.lean ====
/- The second layer's kernel body as arithmetic on the extended reals, one output column at a time: the zero row, the
   accumulation step (the row found plus the sum over the contraction positions of vector entry times matrix entry), and
   the epilogue ((row + bias) · scale). -/
import proofs.«169360_j54606214201548_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Idealize.ShloMosaic.Pipeline (Dat Cfg Window BodyObligation cellOf)

/-! ## The body's arithmetic at an index, over the extended reals -/

/-- The row product's operand indices. At output index `i` and contraction index `q` the left factor sits at row
    `i 0` and column `q`, -/
theorem lhs_0 (i : S1x4096.Idx) (q : dot_S1x2048_S2048x4096_S1x4096_1_0_0_1_n_n.contr.Idx) :
    (dot_S1x2048_S2048x4096_S1x4096_1_0_0_1_n_n.lhsIdx i q 0).val = (i 0).val := by
  unfold DotDims.lhsIdx
  rw [dif_neg (show ¬(0 : Fin S1x2048.rank) ∈ dot_S1x2048_S2048x4096_S1x4096_1_0_0_1_n_n.lhsBatch by decide), dif_pos (show (0 : Fin S1x2048.rank) ∈ dot_S1x2048_S2048x4096_S1x4096_1_0_0_1_n_n.lhsNonContracting by decide)]
  rfl
theorem lhs_1 (i : S1x4096.Idx) (q : dot_S1x2048_S2048x4096_S1x4096_1_0_0_1_n_n.contr.Idx) :
    (dot_S1x2048_S2048x4096_S1x4096_1_0_0_1_n_n.lhsIdx i q 1).val = (q ⟨0, by decide⟩).val :=
  dot_S1x2048_S2048x4096_S1x4096_1_0_0_1_n_n.lhsIdx_val_of_single rfl i q
/-- and the right factor at row `q` and column `i 1`. -/
theorem rhs_0 (i : S1x4096.Idx) (q : dot_S1x2048_S2048x4096_S1x4096_1_0_0_1_n_n.contr.Idx) :
    (dot_S1x2048_S2048x4096_S1x4096_1_0_0_1_n_n.rhsIdx i q 0).val = (q ⟨0, by decide⟩).val :=
  dot_S1x2048_S2048x4096_S1x4096_1_0_0_1_n_n.rhsIdx_val_of_single rfl i q
theorem rhs_1 (i : S1x4096.Idx) (q : dot_S1x2048_S2048x4096_S1x4096_1_0_0_1_n_n.contr.Idx) :
    (dot_S1x2048_S2048x4096_S1x4096_1_0_0_1_n_n.rhsIdx i q 1).val = (i 1).val := by
  unfold DotDims.rhsIdx
  rw [dif_neg (show ¬(1 : Fin S2048x4096.rank) ∈ dot_S1x2048_S2048x4096_S1x4096_1_0_0_1_n_n.rhsBatch by decide), dif_pos (show (1 : Fin S2048x4096.rank) ∈ dot_S1x2048_S2048x4096_S1x4096_1_0_0_1_n_n.rhsNonContracting by decide)]
  rfl

/-- The product of the vector's slice with the matrix's block into a zero accumulator, at column `j`: the sum over the
    2048 contraction positions of entry times entry. -/
theorem matmul_row_apply (x4 : FVec Ideal S1x2048 .bf16) (x5 : FVec Ideal S2048x4096 .bf16) (j : Fin 4096) :
    matmul dot_S1x2048_S2048x4096_S1x4096_1_0_0_1_n_n none x4 x5 (constant (F := Ideal) S1x4096 .f32 0x00000000#32) (ix2 (0 : Fin 1) j)
      = ∑ k : Fin 2048, x4 (ix2 (0 : Fin 1) k) * x5 (ix2 k j) := by
  simp only [matmul]
  rw [Ideal.matmul_constant_zero_apply, ← Equiv.sum_comp (contrEquiv1 dot_S1x2048_S2048x4096_S1x4096_1_0_0_1_n_n 2048 rfl rfl).symm]
  refine Finset.sum_congr rfl fun k _ => ?_
  have hk := contrEquiv1_symm_val dot_S1x2048_S2048x4096_S1x4096_1_0_0_1_n_n 2048 rfl rfl k
  have el : dot_S1x2048_S2048x4096_S1x4096_1_0_0_1_n_n.lhsIdx (ix2 (0 : Fin 1) j) ((contrEquiv1 dot_S1x2048_S2048x4096_S1x4096_1_0_0_1_n_n 2048 rfl rfl).symm k) = ix2 (0 : Fin 1) k := funext fun a => Fin.ext (by
    match a with
    | ⟨0, _⟩ => exact lhs_0 _ _
    | ⟨1, _⟩ => exact (lhs_1 _ _).trans hk)
  have er : dot_S1x2048_S2048x4096_S1x4096_1_0_0_1_n_n.rhsIdx (ix2 (0 : Fin 1) j) ((contrEquiv1 dot_S1x2048_S2048x4096_S1x4096_1_0_0_1_n_n 2048 rfl rfl).symm k) = ix2 k j := funext fun a => Fin.ext (by
    match a with
    | ⟨0, _⟩ => exact (rhs_0 _ _).trans hk
    | ⟨1, _⟩ => exact rhs_1 _ _)
  rw [el, er]

/-- The accumulation step at column `j`: the row it found there plus that sum. -/
theorem pay2_apply (xs : FVec Ideal S1x4096 .f32) (x4 : FVec Ideal S1x2048 .bf16) (x5 : FVec Ideal S2048x4096 .bf16) (j : Fin 4096) :
    k1_pay2 (F := Ideal) xs x4 x5 (ix2 (0 : Fin 1) j) = xs (ix2 (0 : Fin 1) j) + ∑ k : Fin 2048, x4 (ix2 (0 : Fin 1) k) * x5 (ix2 k j) := by
  have e : k1_pay2 (F := Ideal) xs x4 x5 = addf xs (matmul dot_S1x2048_S2048x4096_S1x4096_1_0_0_1_n_n none x4 x5 (constant (F := Ideal) S1x4096 .f32 0x00000000#32)) := by
    unfold k1_pay2; simp only [shapeCast_self]
  rw [e]
  exact (addf_apply _ _ _).trans (congrArg (xs (ix2 (0 : Fin 1) j) + ·) (matmul_row_apply x4 x5 j))

/-- The zero row at any column: the zero literal. -/
theorem pay1_apply (y : S1x4096.Idx) : k1_pay1 (F := Ideal) y = Ideal.ofBits .f32 0x00000000#32 := by
  have e : k1_pay1 (F := Ideal) = broadcast S1x4096 (Scalar.ofBits (F := Ideal) .f32 0x00000000#32) := by
    unfold k1_pay1; simp only [shapeCast_self]
  rw [e]; rfl

/-- The epilogue at a column: (row + bias) · scale. -/
theorem pay3_apply (x2 x3 : FVec Ideal S1x1 .f32) (r : FVec Ideal S1x4096 .f32) (y : S1x4096.Idx) :
    k1_pay3 (F := Ideal) x2 x3 r y = (r y + x2 (ix2 (0 : Fin 1) (0 : Fin 1))) * x3 (ix2 (0 : Fin 1) (0 : Fin 1)) := by
  have h0 : (fun a => ⟨(![0, 0] : Fin 2 → ℕ) a, inpos_S1x1_p0_0 a⟩ : S1x1.Idx) = ix2 (0 : Fin 1) (0 : Fin 1) :=
    funext fun a => Fin.ext (by match a with | ⟨0, _⟩ => rfl | ⟨1, _⟩ => rfl)
  unfold k1_pay3
  show (r y + extractAt ![0, 0] x2 inpos_S1x1_p0_0) * extractAt ![0, 0] x3 inpos_S1x1_p0_0 = _
  unfold extractAt
  rw [h0]

end Cert.KernelIdeal.Layer2

end
-- ==== Proof.Layer2Ideal.lean ====
/- The second layer's output array over the extended reals, column by column. Within the group of eight reduction steps
   that covers a column, each step adds to the column's place in the scratch row the product of the vector's slice with
   the block's column, which is 2048 consecutive terms of the product of the whole vector with the matrix's column; the
   eight steps together give all 16384 terms, and the epilogue adds the bias and multiplies by the scale. Sums of
   extended reals are commutative and associative, so the order of accumulation does not matter. -/
import proofs.«169360_j54606214201548_2_alg».proof.Proof.Layer2Array
import proofs.«169360_j54606214201548_2_alg».proof.Proof.Layer2PayIdeal
import proofs.«169360_j54606214201548_2_alg».proof.Proof.LibTileFold
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open scoped BigOperators
open Finset (range)
open Idealize.ShloMosaic.Pipeline (Dat Cfg Window BodyObligation cellOf)

-- the arrays as the region finds them, on each core, over the extended reals
variable (V : (c : Dev nD) → (b : Ref sig .tc) → Buf (Elt Ideal) ((c : Thread nD τ).loc b))

/-! ## The arrays and blocks as functions into the extended reals -/

/-- The row vector, the matrix, the bias and the scale as the region finds them. -/
abbrev vecR (c : Dev nD) : S1x16384.Idx → EReal := V c main_v53
abbrev matR (c : Dev nD) : S16384x16384.Idx → EReal := V c main_v48
abbrev biasR (c : Dev nD) : S1x1.Idx → EReal := V c main_v54
abbrev scaleR (c : Dev nD) : S1x1.Idx → EReal := V c main_v55
/-- The vector's slice and the matrix's block a step loads. -/
abbrev blkV (c : Dev nD) (t : Fin cfg1.N) : FVec Ideal S1x2048 .bf16 := iblk V c 2 t
abbrev blkG (c : Dev nD) (t : Fin cfg1.N) : FVec Ideal S2048x4096 .bf16 := iblk V c 3 t

theorem blkV_apply (c : Dev nD) (t : Fin cfg1.N) (k : Fin 2048) :
    blkV V c t (ix2 (0 : Fin 1) k) = vecR V c (ix2 (0 : Fin 1) (⟨2048 * (t.val % 8) + k.val, by omega⟩ : Fin 16384)) :=
  iblk2_apply V c t k
theorem blkG_apply (c : Dev nD) (t : Fin cfg1.N) (r : Fin 2048) (j : Fin 4096) :
    blkG V c t (ix2 r j) = matR V c (ix2 (⟨2048 * (t.val % 8) + r.val, by omega⟩ : Fin 16384) (⟨4096 * (t.val / 8) + j.val, by have ht : t.val < 32 := hN ▸ t.isLt; omega⟩ : Fin 16384)) :=
  iblk3_apply V c t r j

/-! ## One column of the vector–matrix product, term by term -/

/-- Term `i` of the product of a row vector with column `n` of a matrix: entry `i` of the vector times entry (i, n) of
    the matrix; zero beyond the 16384 entries. -/
def term (v : S1x16384.Idx → EReal) (G : S16384x16384.Idx → EReal) (n : Fin 16384) (i : ℕ) : EReal :=
  if h : i < 16384 then v (ix2 (0 : Fin 1) (⟨i, h⟩ : Fin 16384)) * G (ix2 (⟨i, h⟩ : Fin 16384) n) else 0

/-- The part of that product the reduction step `kb` contributes: its 2048 terms from `2048 · kb` on. -/
def tileSum (v : S1x16384.Idx → EReal) (G : S16384x16384.Idx → EReal) (n : Fin 16384) (kb : ℕ) : EReal :=
  ∑ k ∈ range 2048, term v G n (2048 * kb + k)

/-- What a step adds to column `n`'s place in the scratch row: the slice of the vector times the block's column, which
    is the step's part of the whole product (the step's group is the one that covers column `n`). -/
theorem stepSum_eq (c : Dev nD) (n : Fin 16384) (t : Fin cfg1.N) (hg : t.val / 8 = n.val / 4096) :
    ∑ k : Fin 2048, blkV V c t (ix2 (0 : Fin 1) k) * blkG V c t (ix2 k (⟨n.val % 4096, Nat.mod_lt _ (by decide)⟩ : Fin 4096))
      = tileSum (vecR V c) (matR V c) n (t.val % 8) := by
  unfold tileSum
  rw [← Fin.sum_univ_eq_sum_range (fun k => term (vecR V c) (matR V c) n (2048 * (t.val % 8) + k)) 2048]
  refine Finset.sum_congr rfl fun k _ => ?_
  have hk : k.val < 2048 := k.isLt
  have hn : n.val < 16384 := n.isLt
  have hlt : 2048 * (t.val % 8) + k.val < 16384 := by omega
  have hcol : (⟨4096 * (t.val / 8) + n.val % 4096, by omega⟩ : Fin 16384) = n := Fin.ext (by show 4096 * (t.val / 8) + n.val % 4096 = n.val; omega)
  rw [blkV_apply, blkG_apply]
  unfold term
  rw [dif_pos hlt]
  exact congrArg (fun m => vecR V c (ix2 (0 : Fin 1) (⟨2048 * (t.val % 8) + k.val, hlt⟩ : Fin 16384))
    * matR V c (ix2 (⟨2048 * (t.val % 8) + k.val, hlt⟩ : Fin 16384) m)) hcol

/-! ## The scratch row and the output at a column -/

/-- After a group's first step, column `n`'s place holds the zero literal plus the first part of the product. -/
theorem rowAfter_first_apply (c : Dev nD) (n : Fin 16384) (t : Fin cfg1.N) (h0 : t.val % 8 = 0) (hg : t.val / 8 = n.val / 4096) :
    rowAfter V c t.val t.isLt (colIn n.val)
      = Ideal.ofBits .f32 0x00000000#32 + tileSum (vecR V c) (matR V c) n 0 := by
  rw [rowAfter_first V c t h0]
  refine (pay2_apply k1_pay1 (blkV V c t) (blkG V c t) (⟨n.val % 4096, Nat.mod_lt _ (by decide)⟩ : Fin 4096)).trans ?_
  rw [pay1_apply, stepSum_eq V c n t hg, h0]

/-- After any other step, it holds what it held plus the step's part. -/
theorem rowAfter_next_apply (c : Dev nD) (n : Fin 16384) (t : Fin cfg1.N) (h0 : ¬t.val % 8 = 0) (hg : t.val / 8 = n.val / 4096) :
    rowAfter V c t.val t.isLt (colIn n.val)
      = rowAfter V c (t.val - 1) (Nat.lt_of_le_of_lt (Nat.sub_le _ _) t.isLt) (colIn n.val) + tileSum (vecR V c) (matR V c) n (t.val % 8) := by
  rw [rowAfter_next V c t h0]
  refine (pay2_apply (rowAfter V c (t.val - 1) (Nat.lt_of_le_of_lt (Nat.sub_le _ _) t.isLt)) (blkV V c t) (blkG V c t) (⟨n.val % 4096, Nat.mod_lt _ (by decide)⟩ : Fin 4096)).trans ?_
  rw [stepSum_eq V c n t hg]
  rfl

/-- So after step `p` of the group that covers column `n`, the column's place holds the zero literal plus the parts of
    the steps so far: by induction on the position. -/
theorem rowAfter_apply (c : Dev nD) (n : Fin 16384) : ∀ (p : ℕ) (hp : p < cfg1.N), p / 8 = n.val / 4096 →
    rowAfter V c p hp (colIn n.val)
      = Ideal.ofBits .f32 0x00000000#32 + ∑ kb ∈ range (p % 8 + 1), tileSum (vecR V c) (matR V c) n kb := by
  intro p
  induction p with
  | zero =>
    intro hp hg
    refine (rowAfter_first_apply V c n ⟨0, hp⟩ (Nat.zero_mod _) hg).trans ?_
    rw [Nat.zero_mod, Finset.sum_range_one]
  | succ q ih =>
    intro hp hg
    by_cases h0 : (q + 1) % 8 = 0
    · refine (rowAfter_first_apply V c n ⟨q + 1, hp⟩ h0 hg).trans ?_
      rw [h0, Finset.sum_range_one]
    · have hq : q / 8 = n.val / 4096 := by omega
      have hm : (q + 1) % 8 = q % 8 + 1 := by omega
      refine (rowAfter_next_apply V c n ⟨q + 1, hp⟩ h0 hg).trans ?_
      show rowAfter V c q _ (colIn n.val) + tileSum _ _ n ((q + 1) % 8) = _
      rw [ih (Nat.lt_of_succ_lt hp) hq, hm, Finset.sum_range_succ _ (q % 8 + 1), add_assoc]

/-- The eight parts are the whole product: 8 tiles of 2048 terms are the 16384 terms. -/
theorem sum_tiles_eq (v : S1x16384.Idx → EReal) (G : S16384x16384.Idx → EReal) (n : Fin 16384) :
    ∑ kb ∈ range 8, tileSum v G n kb = ∑ i : Fin 16384, v (ix2 (0 : Fin 1) i) * G (ix2 i n) := by
  unfold tileSum
  rw [Cert.LibTileFold.sum_tiles 8 2048 (term v G n), ← Fin.sum_univ_eq_sum_range (term v G n) (8 * 2048)]
  refine Finset.sum_congr rfl fun i _ => ?_
  unfold term
  rw [dif_pos i.isLt]

/-- THE OUTPUT ARRAY AT COLUMN `n`, over the extended reals: the zero literal plus the product of the vector with
    column `n` of the matrix, plus the bias, times the scale. -/
theorem outRow_eq_sum (c : Dev nD) (n : Fin 16384) :
    outRow V c (ix2 (0 : Fin 1) n)
      = ((Ideal.ofBits .f32 0x00000000#32 + ∑ i : Fin 16384, vecR V c (ix2 (0 : Fin 1) i) * matR V c (ix2 i n))
          + biasR V c (ix2 (0 : Fin 1) (0 : Fin 1))) * scaleR V c (ix2 (0 : Fin 1) (0 : Fin 1)) := by
  have hn : n.val < 16384 := n.isLt
  have h7 : (lastPt n.val n.isLt).val % 8 = 7 := by show (8 * (n.val / 4096) + 7) % 8 = 7; omega
  have hg : (lastPt n.val n.isLt).val / 8 = n.val / 4096 := by show (8 * (n.val / 4096) + 7) / 8 = n.val / 4096; omega
  refine (outRow_apply V c (ix2 (0 : Fin 1) n)).trans ?_
  refine (pay3_apply (iblk V c 0 (lastPt n.val n.isLt)) (iblk V c 1 (lastPt n.val n.isLt))
    (rowAfter V c (lastPt n.val n.isLt).val (lastPt n.val n.isLt).isLt) (colIn n.val)).trans ?_
  rw [rowAfter_apply V c n _ _ hg, h7, sum_tiles_eq, iblk0_eq, iblk1_eq]

/-- The same with the zero literal read as zero: (product + bias) · scale. -/
theorem outRow_eq (c : Dev nD) (n : Fin 16384) :
    outRow V c (ix2 (0 : Fin 1) n)
      = (∑ i : Fin 16384, vecR V c (ix2 (0 : Fin 1) i) * matR V c (ix2 i n)
          + biasR V c (ix2 (0 : Fin 1) (0 : Fin 1))) * scaleR V c (ix2 (0 : Fin 1) (0 : Fin 1)) := by
  rw [outRow_eq_sum, Ideal.ofBits_zero_f32, zero_add]

end Cert.KernelIdeal.Layer2

end
-- ==== Proof.PreDecode.lean ====
/-
  The precondition, decoded. The printed predicate is a conjunction, reduced to one bit, of "every entry of
  a float argument has absolute value below +∞" for each of the seven float arguments and "every entry e of
  the edge table satisfies 0 ≤ e < 16384 (signed)". Over the extended reals, |x| < ⊤ says x is neither ⊤ nor ⊥,
  that is, x is a real number; so the predicate being all ones gives a real number behind every float entry
  and the node range for every edge end.
-/
import proofs.«169360_j54606214201548_2_alg».proof.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx

/-- The scalar shape has one index. -/
instance : Subsingleton (⟨0, ![]⟩ : Shape).Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (−x) is below +∞ is a real number. -/
theorem real_of_abs_lt_top (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  induction x using EReal.rec with
  | bot => exact absurd h' (by simp [Ideal.cmp])
  | coe r => exact ⟨r, rfl⟩
  | top => exact absurd h' (by simp [Ideal.cmp])

/-- A word between the words 0 and 16384, compared signed, is a node. -/
theorem node_of_cmp (w : BitVec 32)
    (h : IntOp.andi (IntOp.cmpi .sge w 0#32) (IntOp.cmpi .slt w 16384#32) = 1#1) :
    0 ≤ w.toInt ∧ w.toInt < 16384 := by
  obtain ⟨h0, h1⟩ := IntOp.andi_eq_one.1 h
  have h0' := IntOp.cmpi_sge.1 h0
  have h1' := IntOp.cmpi_slt.1 h1
  have e0 : (0#32 : BitVec 32).toInt = 0 := by decide
  have e1 : (16384#32 : BitVec 32).toInt = 16384 := by decide
  rw [e0] at h0'
  rw [e1] at h1'
  exact ⟨h0', h1'⟩

/-- Real numbers behind every entry, chosen all at once. -/
theorem exists_real_fun {ι : Type} (a : ι → EReal) (h : ∀ i, ∃ r : ℝ, a i = (r : EReal)) :
    ∃ f : ι → ℝ, ∀ i, a i = (f i : EReal) := by
  choose f hf using h
  exact ⟨f, hf⟩

variable [Cert.Pre_finite_inputs.Facts]

/-- THE PRECONDITION DECODED: if the printed predicate of the eight argument arrays is all ones, then every
    entry of each of the seven float arrays is a real number and every entry of the edge table is a node. -/
theorem decode
    (a0 : (⟨2, ![16384, 128]⟩ : Shape).Idx → EReal) (a1 : (⟨2, ![2, 1048576]⟩ : Shape).Idx → BitVec 32)
    (a2 : (⟨2, ![1048576, 1]⟩ : Shape).Idx → EReal) (a3 : (⟨2, ![16384, 16384]⟩ : Shape).Idx → EReal)
    (a4 : (⟨2, ![128, 1]⟩ : Shape).Idx → EReal) (a5 : (⟨1, ![1]⟩ : Shape).Idx → EReal)
    (a6 : (⟨2, ![1, 1]⟩ : Shape).Idx → EReal) (a7 : (⟨1, ![1]⟩ : Shape).Idx → EReal)
    (h : Cert.Pre_finite_inputs.fn (F := Ideal) a0 a1 a2 a3 a4 a5 a6 a7 = (fun _ => 1#1)) :
    (∀ i, ∃ r : ℝ, a0 i = (r : EReal)) ∧ (∀ j, 0 ≤ (a1 j).toInt ∧ (a1 j).toInt < 16384)
      ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have e := congrFun h ix0
  dsimp only [Cert.Pre_finite_inputs.fn, Cert.Pre_finite_inputs.fn_part1, Cert.Pre_finite_inputs.fn_part2, andi] at e
  obtain ⟨e, h1⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  refine ⟨fun i => ?_, fun j => ?_, fun i => ?_, fun i => ?_, fun i => ?_, fun i => ?_, fun i => ?_, fun i => ?_⟩
  · exact real_of_abs_lt_top _ (Host.reduce_andi_all _ _ _ _ _ h0 i)
  · exact node_of_cmp _ (Host.reduce_andi_all _ _ _ _ _ h1 j)
  · exact real_of_abs_lt_top _ (Host.reduce_andi_all _ _ _ _ _ h2 i)
  · exact real_of_abs_lt_top _ (Host.reduce_andi_all _ _ _ _ _ h3 i)
  · exact real_of_abs_lt_top _ (Host.reduce_andi_all _ _ _ _ _ h4 i)
  · exact real_of_abs_lt_top _ (Host.reduce_andi_all _ _ _ _ _ h5 i)
  · exact real_of_abs_lt_top _ (Host.reduce_andi_all _ _ _ _ _ h6 i)
  · exact real_of_abs_lt_top _ (Host.reduce_andi_all _ _ _ _ _ h7 i)

end Cert.PreDecode

end
-- ==== Proof.KernelResult.lean ====
/- The idealized kernel's first result is the specification's. At the return the result buffer is the second layer's
   output row reshaped to a column; that row is, column by column, ((0 + Σ_j h j · G j i) + bias) · scale with h the first
   layer's output row, G the dense normalized adjacency, the bias the second layer's and the scale one; the first
   layer's row is the same form over the first vector x · W1 with the first layer's bias and the second layer's weight as
   scale. With every edge index in range and every float input finite, each form is the specification's: the dense
   column sum regroups into the edge-wise aggregate, giving h2 and then out2. -/
import proofs.«169360_j54606214201548_2_alg».proof.Defs
import proofs.«169360_j54606214201548_2_alg».proof.Proof.KernelHostB
import proofs.«169360_j54606214201548_2_alg».proof.Proof.KernelHost
import proofs.«169360_j54606214201548_2_alg».proof.Proof.Layer1Ideal
import proofs.«169360_j54606214201548_2_alg».proof.Proof.Layer2Ideal
import proofs.«169360_j54606214201548_2_alg».proof.Proof.GcnAlgebra
import proofs.«169360_j54606214201548_2_alg».proof.Proof.PreDecode
import proofs.«169360_j54606214201548_2_alg».proof.Proof.Gen.Pre_finite_inputs

set_option maxRecDepth 16384

noncomputable section

namespace Cert.KernelIdeal.Result

open Cert.KernelIdeal Cert.KernelIdeal.Gen Cert.KernelIdeal.Run
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first layer's output row is the specification's hidden vector, column by column: its vector is x · W1, its
    matrix the dense adjacency, its bias the first layer's, its scale the second layer's weight. -/
theorem layer1_is_h2 (c : Dev nD)
    (hei : ∀ j, 0 ≤ ((m ((c.tc : Thread nD τ).loc main_arg1)) j).toInt ∧ ((m ((c.tc : Thread nD τ).loc main_arg1)) j).toInt < 16384)
    (hx : ∀ j, ∃ r : ℝ, (m ((c.tc : Thread nD τ).loc main_arg0)) j = (r : EReal)) (hea : ∀ j, ∃ r : ℝ, (m ((c.tc : Thread nD τ).loc main_arg2)) j = (r : EReal))
    (hW1 : ∀ j, ∃ r : ℝ, (m ((c.tc : Thread nD τ).loc main_arg4)) j = (r : EReal)) (j : Fin 16384) :
    Layer1.outRow (V3 m ρ) c (ix2 (0 : Fin 1) j)
      = Cert.GcnSpec.h2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) j := by
  have hv : ∀ i : Fin 16384, Layer1.vecR (V3 m ρ) c (ix2 (0 : Fin 1) i) = Cert.GcnSpec.v1 (m ((c.tc : Thread nD τ).loc main_arg0)) (m ((c.tc : Thread nD τ).loc main_arg4)) i :=
    fun i => HostB.row_vector m ρ c i
  have hG : ∀ i : Fin 16384, Layer1.matR (V3 m ρ) c (ix2 i j) = Cert.GcnAlgebra.Gd (m ((c.tc : Thread nD τ).loc main_arg1)) (m ((c.tc : Thread nD τ).loc main_arg2)) i j :=
    fun i => Host.dense_matrix m ρ c hei i j
  have hb : Layer1.biasR (V3 m ρ) c (ix2 (0 : Fin 1) (0 : Fin 1)) = (m ((c.tc : Thread nD τ).loc main_arg5)) (ix1 (0 : Fin 1)) := HostB.bias1 m ρ c
  have hs : Layer1.scaleR (V3 m ρ) c = (m ((c.tc : Thread nD τ).loc main_arg6)) := HostB.scale1 m ρ c
  rw [Layer1.outRow_eq_sum (V3 m ρ) c j, hb, hs, Finset.sum_congr rfl (fun i _ => by rw [hv i, hG i])]
  exact Cert.GcnAlgebra.layer1_closed _ _ hei _ _ _ _ hx hea hW1 j

/-- The kernel's first result, as contents of the result buffer, is the specification's result at the kernel's
    argument buffers. -/
theorem kernel_result (hpre : Cert.Pre_KernelIdeal (hPre_finite_inputs := Cert.Pre_finite_inputs.Gen.facts) m) (c : Dev nD) :
    W7 m ρ c (Proc.devRef .tc main_v57) = Cert.GcnSpec.result (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  obtain ⟨hx, hei, hea, hadj, hW1, hb1, hW2, hb2⟩ := Cert.PreDecode.decode _ _ _ _ _ _ _ _ (hpre c)
  funext idx
  obtain ⟨i, q, rfl⟩ : ∃ (i : Fin 16384) (q : Fin 1), idx = ix2 i q := ⟨idx 0, idx 1, eq_ix2 idx⟩
  obtain rfl : q = 0 := Subsingleton.elim _ _
  rw [Cert.GcnSpec.result_ix2]
  refine (HostB.result_col m ρ c i).trans ?_
  have hv : ∀ j : Fin 16384, Layer2.vecR (V5 m ρ) c (ix2 (0 : Fin 1) j)
      = Cert.GcnSpec.h2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) j :=
    fun j => (congrFun (HostB.layer1_row m ρ c) _).trans (layer1_is_h2 m ρ c hei hx hea hW1 j)
  have hG : ∀ j : Fin 16384, Layer2.matR (V5 m ρ) c (ix2 j i) = Cert.GcnAlgebra.Gd (m ((c.tc : Thread nD τ).loc main_arg1)) (m ((c.tc : Thread nD τ).loc main_arg2)) j i :=
    fun j => (congrFun (HostB.dense_unchanged m ρ c) _).trans (Host.dense_matrix m ρ c hei j i)
  have hb : Layer2.biasR (V5 m ρ) c (ix2 (0 : Fin 1) (0 : Fin 1)) = (m ((c.tc : Thread nD τ).loc main_arg7)) (ix1 (0 : Fin 1)) := HostB.bias2 m ρ c
  have hs : Layer2.scaleR (V5 m ρ) c (ix2 (0 : Fin 1) (0 : Fin 1)) = Ideal.ofBits .f32 0x3F800000#32 := HostB.scale2 m ρ c
  rw [Layer2.arrAt_out (V5 m ρ) c, Layer2.outRow_eq_sum (V5 m ρ) c i, hb, hs, Finset.sum_congr rfl (fun j _ => by rw [hv j, hG j])]
  exact Cert.GcnAlgebra.layer2_closed _ _ hei _ _ _ _ _ hx hea hW1 hb1 hW2 i

end Cert.KernelIdeal.Result

end
-- ==== Proof.RefIsSpec.lean ====
/-
  The reference program computes the specification. Its result buffer, read operation by operation, is
  the two-layer graph convolution of Cert.GcnSpec at the program's argument arrays. The normalisation
  stages are read in Cert.RefStages; here are the two layers: a matrix product, a lookup of its rows at the
  edge sources, a product with the edge normalisation, an accumulating scatter over the edge targets from a
  zero array, and the bias; then the same with the 1×1 product in place of the first matrix product.
-/
import proofs.«169360_j54606214201548_2_alg».proof.Proof.RefStages

noncomputable section

open scoped BigOperators

namespace Cert.RefIsSpec

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.GcnSpec Cert.ScatterRead Cert.RefStages

/-! ## What both layers share -/

/-- The edge normalisation as the first layer multiplies by it, at edge e. -/
theorem norm_layer1 (x1 : (⟨S2x1048576, .i32⟩ : BufTy).Contents (Elt Ideal))
    (x2 : (⟨S1048576x1, .f32⟩ : BufTy).Contents (Elt Ideal)) (e : Fin 1064960) :
    val_main_v41 (F := Ideal) x1 x2 (ix2 e 0) = norm x1 x2 e := by
  rw [val_main_v41_apply]
  exact (congrArg (val_main_v32 (F := Ideal) x1 x2) (funext fun a => by match a with | ⟨0, _⟩ => rfl)).trans
    (normalisation x1 x2 e)

/-- The edge normalisation as the second layer multiplies by it, at edge e. -/
theorem norm_layer2 (x1 : (⟨S2x1048576, .i32⟩ : BufTy).Contents (Elt Ideal))
    (x2 : (⟨S1048576x1, .f32⟩ : BufTy).Contents (Elt Ideal)) (e : Fin 1064960) :
    val_main_v57 (F := Ideal) x1 x2 (ix2 e 0) = norm x1 x2 e := by
  rw [val_main_v57_apply]
  exact (congrArg (val_main_v32 (F := Ideal) x1 x2) (funext fun a => by match a with | ⟨0, _⟩ => rfl)).trans
    (normalisation x1 x2 e)

/-- The index array of the first layer's scatter at edge e is the target word of e. -/
theorem scatter_index_layer1 (x1 : (⟨S2x1048576, .i32⟩ : BufTy).Contents (Elt Ideal)) (e : Fin 1064960) :
    val_main_v44 (F := Ideal) x1 (ix2 e 0) = colW x1 e := by
  rw [val_main_v44_apply]
  exact (congrArg (val_main_v7 (F := Ideal) x1) (funext fun a => by match a with | ⟨0, _⟩ => rfl)).trans (col_word x1 e)

/-- The index array of the second layer's scatter at edge e is the target word of e. -/
theorem scatter_index_layer2 (x1 : (⟨S2x1048576, .i32⟩ : BufTy).Contents (Elt Ideal)) (e : Fin 1064960) :
    val_main_v60 (F := Ideal) x1 (ix2 e 0) = colW x1 e := by
  rw [val_main_v60_apply]
  exact (congrArg (val_main_v7 (F := Ideal) x1) (funext fun a => by match a with | ⟨0, _⟩ => rfl)).trans (col_word x1 e)

/-! ## The first layer -/

/-- x · W1 looked up at the source of edge e. -/
theorem features_row (x0 : (⟨S16384x128, .f32⟩ : BufTy).Contents (Elt Ideal))
    (x1 : (⟨S2x1048576, .i32⟩ : BufTy).Contents (Elt Ideal)) (x4 : (⟨S128x1, .f32⟩ : BufTy).Contents (Elt Ideal))
    (e : Fin 1064960) :
    val_main_v40 (F := Ideal) x0 x1 x4 (ix2 e 0) = v1 x0 x4 (rowN x1 e) := by
  unfold val_main_v40
  refine (ref_gather1Col_apply _ _ e).trans ?_
  rewrite [features]
  refine congrArg (v1 x0 x4) (clamp_wrap _ _ ?_)
  rw [val_main_v39_apply]
  exact (congrArg (val_main_v38 (F := Ideal) x1) (funext fun a => by match a with | ⟨0, _⟩ => rfl)).trans
    (wrapped_row_v38 x1 e)

/-- The first layer's accumulating scatter is the aggregation of x · W1. -/
theorem aggregate1 (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (i : Fin 16384) (q : Fin 1) :
    val_main_v45 (F := Ideal) x0 x1 x2 x4 (ix2 i q) = agg x1 x2 (v1 x0 x4) i := by
  obtain rfl : q = 0 := Subsingleton.elim _ _
  unfold val_main_v45 agg
  refine (ref_scatter1Col_apply _ _ _ i).trans ?_
  rewrite [val_main_v43_apply, val_main_cst_8_apply]
  have hz : FloatOps.ofBits (F := Ideal) .f32 0x00000000#32 = (0 : EReal) := Ideal.ofBits_zero_f32
  rewrite [hz]
  refine congrArg (fun s => (0 : EReal) + s)
    (Finset.sum_congr (Finset.filter_congr fun e _ => ?_) fun e _ => ?_)
  · rewrite [scatter_index_layer1]
    exact Iff.rfl
  · rewrite [val_main_v42_apply, features_row, norm_layer1]
    rfl

/-- The first layer: the aggregation plus the bias. -/
theorem layer1 (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (x5 : (⟨S1, .f32⟩ : BufTy).Contents (Elt Ideal))
    (i : Fin 16384) (q : Fin 1) :
    val_main_v48 (F := Ideal) x0 x1 x2 x4 x5 (ix2 i q) = out1 x0 x1 x2 x4 x5 i := by
  rewrite [val_main_v48_apply, aggregate1, val_main_v47_apply, val_main_v46_apply]
  unfold out1
  show agg x1 x2 (v1 x0 x4) i + x5 _ = agg x1 x2 (v1 x0 x4) i + x5 _
  refine congrArg (fun s => agg x1 x2 (v1 x0 x4) i + s) (congrArg x5 (funext fun a => ?_))
  match a with
  | ⟨0, _⟩ => rfl

/-! ## The second layer -/

/-- The 1×1 matrix product of the first layer's output. -/
theorem hidden (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (x5 : (⟨S1, .f32⟩ : BufTy).Contents (Elt Ideal))
    (x6 : (⟨S1x1, .f32⟩ : BufTy).Contents (Elt Ideal)) (i : Fin 16384) (q : Fin 1) :
    val_main_v49 (F := Ideal) x0 x1 x2 x4 x5 x6 (ix2 i q) = h2 x0 x1 x2 x4 x5 x6 i := by
  obtain rfl : q = 0 := Subsingleton.elim _ _
  rewrite [val_main_v49_apply]
  unfold h2
  refine Finset.sum_congr rfl fun k _ => ?_
  have hl : lidx_main_v49 (ix2 i (0 : Fin 1)) k = ix2 i k :=
    funext fun a => by match a with | ⟨0, _⟩ => rfl | ⟨1, _⟩ => rfl
  have hr : ridx_main_v49 (ix2 i (0 : Fin 1)) k = ix2 k (0 : Fin 1) :=
    funext fun a => by match a with | ⟨0, _⟩ => rfl | ⟨1, _⟩ => rfl
  rw [hl, hr, layer1]

/-- The 1×1 product looked up at the source of edge e. -/
theorem hidden_row (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (x5 : (⟨S1, .f32⟩ : BufTy).Contents (Elt Ideal))
    (x6 : (⟨S1x1, .f32⟩ : BufTy).Contents (Elt Ideal)) (e : Fin 1064960) :
    val_main_v56 (F := Ideal) x0 x1 x2 x4 x5 x6 (ix2 e 0) = h2 x0 x1 x2 x4 x5 x6 (rowN x1 e) := by
  unfold val_main_v56
  refine (ref_gather1Col_apply _ _ e).trans ?_
  rewrite [hidden]
  refine congrArg (h2 x0 x1 x2 x4 x5 x6) (clamp_wrap _ _ ?_)
  rw [val_main_v55_apply]
  exact (congrArg (val_main_v54 (F := Ideal) x1) (funext fun a => by match a with | ⟨0, _⟩ => rfl)).trans
    (wrapped_row_v54 x1 e)

/-- The second layer's accumulating scatter is the aggregation of the 1×1 product. -/
theorem aggregate2 (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (x5 : (⟨S1, .f32⟩ : BufTy).Contents (Elt Ideal))
    (x6 : (⟨S1x1, .f32⟩ : BufTy).Contents (Elt Ideal)) (i : Fin 16384) (q : Fin 1) :
    val_main_v61 (F := Ideal) x0 x1 x2 x4 x5 x6 (ix2 i q) = agg x1 x2 (h2 x0 x1 x2 x4 x5 x6) i := by
  obtain rfl : q = 0 := Subsingleton.elim _ _
  unfold val_main_v61 agg
  refine (ref_scatter1Col_apply _ _ _ i).trans ?_
  rewrite [val_main_v59_apply, val_main_cst_11_apply]
  have hz : FloatOps.ofBits (F := Ideal) .f32 0x00000000#32 = (0 : EReal) := Ideal.ofBits_zero_f32
  rewrite [hz]
  refine congrArg (fun s => (0 : EReal) + s)
    (Finset.sum_congr (Finset.filter_congr fun e _ => ?_) fun e _ => ?_)
  · rewrite [scatter_index_layer2]
    exact Iff.rfl
  · rewrite [val_main_v58_apply, hidden_row, norm_layer2]
    rfl

/-- The second layer: the aggregation plus the bias. -/
theorem layer2 (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (x5 : (⟨S1, .f32⟩ : BufTy).Contents (Elt Ideal))
    (x6 : (⟨S1x1, .f32⟩ : BufTy).Contents (Elt Ideal)) (x7 : (⟨S1, .f32⟩ : BufTy).Contents (Elt Ideal))
    (i : Fin 16384) (q : Fin 1) :
    val_main_v64 (F := Ideal) x0 x1 x2 x4 x5 x6 x7 (ix2 i q) = out2 x0 x1 x2 x4 x5 x6 x7 i := by
  rewrite [val_main_v64_apply, aggregate2, val_main_v63_apply, val_main_v62_apply]
  unfold out2
  show agg x1 x2 (h2 x0 x1 x2 x4 x5 x6) i + x7 _ = agg x1 x2 (h2 x0 x1 x2 x4 x5 x6) i + x7 _
  refine congrArg (fun s => agg x1 x2 (h2 x0 x1 x2 x4 x5 x6) i + s) (congrArg x7 (funext fun a => ?_))
  match a with
  | ⟨0, _⟩ => rfl

/-! ## The result -/

/-- The last stage of the program, as a function of the argument arrays, is the specification. -/
theorem stage_eq_result (x0 : (⟨S16384x128, .f32⟩ : BufTy).Contents (Elt Ideal))
    (x1 : (⟨S2x1048576, .i32⟩ : BufTy).Contents (Elt Ideal)) (x2 : (⟨S1048576x1, .f32⟩ : BufTy).Contents (Elt Ideal))
    (x4 : (⟨S128x1, .f32⟩ : BufTy).Contents (Elt Ideal)) (x5 : (⟨S1, .f32⟩ : BufTy).Contents (Elt Ideal))
    (x6 : (⟨S1x1, .f32⟩ : BufTy).Contents (Elt Ideal)) (x7 : (⟨S1, .f32⟩ : BufTy).Contents (Elt Ideal)) :
    val_main_v64 (F := Ideal) x0 x1 x2 x4 x5 x6 x7 = result x0 x1 x2 x4 x5 x6 x7 := by
  funext j
  obtain ⟨i, q, rfl⟩ : ∃ (i : Fin 16384) (q : Fin 1), j = ix2 i q := ⟨j 0, j 1, eq_ix2 j⟩
  rw [layer2, result_ix2]

/-- THE REFERENCE IS THE SPECIFICATION: on every device, the term the program's run leaves in its result
    buffer is the two-layer graph convolution of the argument arrays the launch memory holds. -/
theorem reference_is_spec (m : (ℓ : Loc nD τ sig) → Buf (Elt Ideal) ℓ) (c : Dev nD) :
    Cert.ReferenceIdeal.Value.res_main_v64 (F := Ideal) m c
      = result (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg6))
          (m ((c.tc : Thread nD τ).loc main_arg7)) :=
  (val_main_v64_eq m c).trans (stage_eq_result _ _ _ _ _ _ _)

end Cert.RefIsSpec

end
-- ==== Proof.lean ====
/- The claim for the two-layer graph convolution: a kernel that densifies the normalized adjacency
   G[j, i] = Σ over edges e with (row e, col e) = (j, i) of norm e and applies it twice as a row-vector times matrix
   product, tiled over a 4 × 8 grid with the partial products summed in a scratch row, against a reference that
   aggregates edge by edge: out i = Σ over edges e with col e = i of h (row e) · norm e.
   Over the extended reals the two agree when every edge index lies in [0, 16384) (the precondition's last conjunct:
   outside it the kernel's two-dimensional scatter wraps a negative column to the last node while the reference's
   segment sum drops it) and every float input is finite (moving v j across the inner sum of G's column is
   distributivity, which fails at infinities). -/
import proofs.«169360_j54606214201548_2_alg».proof.Defs
import proofs.«169360_j54606214201548_2_alg».proof.Proof.KernelFrame
import proofs.«169360_j54606214201548_2_alg».proof.Proof.WKernelFrame
import proofs.«169360_j54606214201548_2_alg».proof.Proof.KernelResult
import proofs.«169360_j54606214201548_2_alg».proof.Proof.RefIsSpec
import proofs.«169360_j54606214201548_2_alg».proof.Proof.Gen.ReferenceIdeal.Run
import proofs.«169360_j54606214201548_2_alg».proof.Proof.Gen.ReferenceIdeal.Read
import proofs.«169360_j54606214201548_2_alg».proof.Proof.Gen.Pre_finite_inputs
import Idealize.ShloMosaic.Lib.StableHlo.Run
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel as printed runs and leaves its arguments unchanged: its run through the seven items of @main. -/
theorem frame_k : Cert.frame_Kernel (hKernel := Cert.Kernel.Gen.facts) (hPre_finite_inputs := Cert.Pre_finite_inputs.Gen.facts) :=
  fun m ρ _ => Cert.Kernel.Run.frame (F := Bits) m ρ

/-- The same for the idealized kernel, read over the extended reals. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference is host operations only: its run ends with both results at their terms and every argument as
    launched; the frame keeps the arguments and drops the two results. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- From memories agreeing on the arguments both idealized programs run; the first result of each is the
    specification's result at the arguments (the kernel's through its run's last contents, the reference's through
    its run's term), the second the zero; the arguments end as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.GcnSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun _ => Cert.ReferenceIdeal.Read.val_main_v65 (F := Ideal), ?ker, ?ref⟩
  case ker =>
    refine (θ_run Cert.KernelIdeal.defs _ _).mono (fun r h c => ⟨?_, ?_, ?_⟩) (Cert.KernelIdeal.Run.run_all (F := Ideal) m ρ)
    · exact (h c _ (Cert.KernelIdeal.Run.mem_uc Cert.KernelIdeal.main_v57 (by decide))).trans (Cert.KernelIdeal.Result.kernel_result m ρ hpre c)
    · refine (h c _ (Cert.KernelIdeal.Run.mem_uc Cert.KernelIdeal.main_v58 (by decide))).trans ?_
      show StableHlo.after Cert.KernelIdeal.Gen.hostOps2 (Cert.KernelIdeal.Run.W6 m ρ c) (Proc.devRef .tc Cert.KernelIdeal.main_v58) = _
      simp only [Cert.KernelIdeal.Gen.hostOps2]
      after_results_simp <;> rfl
    · exact ⟨(h c _ (Cert.KernelIdeal.Run.mem_uc Cert.KernelIdeal.main_arg0 (by decide))).trans (Cert.KernelIdeal.Run.W7_main_arg0 m ρ c),
        (h c _ (Cert.KernelIdeal.Run.mem_uc Cert.KernelIdeal.main_arg1 (by decide))).trans (Cert.KernelIdeal.Run.W7_main_arg1 m ρ c),
        (h c _ (Cert.KernelIdeal.Run.mem_uc Cert.KernelIdeal.main_arg2 (by decide))).trans (Cert.KernelIdeal.Run.W7_main_arg2 m ρ c),
        (h c _ (Cert.KernelIdeal.Run.mem_uc Cert.KernelIdeal.main_arg3 (by decide))).trans (Cert.KernelIdeal.Run.W7_main_arg3 m ρ c),
        (h c _ (Cert.KernelIdeal.Run.mem_uc Cert.KernelIdeal.main_arg4 (by decide))).trans (Cert.KernelIdeal.Run.W7_main_arg4 m ρ c),
        (h c _ (Cert.KernelIdeal.Run.mem_uc Cert.KernelIdeal.main_arg5 (by decide))).trans (Cert.KernelIdeal.Run.W7_main_arg5 m ρ c),
        (h c _ (Cert.KernelIdeal.Run.mem_uc Cert.KernelIdeal.main_arg6 (by decide))).trans (Cert.KernelIdeal.Run.W7_main_arg6 m ρ c),
        (h c _ (Cert.KernelIdeal.Run.mem_uc Cert.KernelIdeal.main_arg7 (by decide))).trans (Cert.KernelIdeal.Run.W7_main_arg7 m ρ c)⟩
  case ref =>
    refine (θ_run Cert.ReferenceIdeal.defs _ _).mono (fun r h c => ⟨?_, (h c).2.1, (h c).2.2⟩) (Cert.ReferenceIdeal.Value.run (F := Ideal) m' ρ')
    rw [(h c).1, Cert.RefIsSpec.reference_is_spec, (hagree c).1, (hagree c).2.1, (hagree c).2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
